-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg13
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg9 : FVec F S128 .f32) (main_arg10 : FVec F S128 .f32) (main_arg11 : FVec F S128 .f32) (main_arg12 : FVec F S128x40 .f32) (main_arg13 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg12
  let main_cst_18 : FVec F S_ .f32 := constant S_ .f32 0x7F800000#32
  let main_v50 : FVec F S128x40 .f32 := broadcastInDim S128x40 ![] bcast_S_S128x40 main_cst_18
  fn_part3 (F := F) main_arg13 main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S1600000 32) (main_arg2 : IVec S1600000 32) (main_arg3 : FVec F S1600000 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x40 .f32) (main_arg13 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x40 : Shape := ⟨2, ![50000, 40]⟩
abbrev S2000x40 : Shape := ⟨2, ![2000, 40]⟩
abbrev S1600000x40 : Shape := ⟨2, ![1600000, 40]⟩
abbrev S1x40 : Shape := ⟨2, ![1, 40]⟩

abbrev nBuf : Space → Nat
  | .hbm => 108
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x40, .f32⟩
  | .hbm, ⟨13, _⟩ => ⟨S40, .f32⟩
  | .hbm, ⟨14, _⟩ => ⟨S128x128, .bf16⟩
  | .hbm, ⟨15, _⟩ => ⟨S50000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S50000x128, .bf16⟩
  | .hbm, ⟨51, _⟩ => ⟨S128x128, .bf16⟩
  | .hbm, ⟨52, _⟩ => ⟨S50000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x1, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S50000x128, .f32⟩
  | .hbm, ⟨67, _⟩ => ⟨S1600000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S1x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S50000x128, .bf16⟩
  | .hbm, ⟨88, _⟩ => ⟨S128x40, .bf16⟩
  | .hbm, ⟨89, _⟩ => ⟨S50000x40, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x40, .f32⟩
  | .hbm, ⟨99, _⟩ => ⟨S1600000x1, .f32⟩
  | .hbm, ⟨100, _⟩ => ⟨S1600000x40, .f32⟩
  | .hbm, ⟨101, _⟩ => ⟨S1600000x40, .f32⟩
  | .hbm, ⟨102, _⟩ => ⟨S_, .f32⟩
  | .hbm, ⟨103, _⟩ => ⟨S50000x40, .f32⟩
  | .hbm, ⟨104, _⟩ => ⟨S1600000x1, .i32⟩
  | .hbm, ⟨105, _⟩ => ⟨S50000x40, .f32⟩
  | .hbm, ⟨106, _⟩ => ⟨S1x40, .f32⟩
  | .hbm, ⟨107, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .bf16⟩
  | .local _ .vmem, ⟨19, _⟩ => ⟨S2000x128, .bf16⟩
  | .local _ .vmem, ⟨20, _⟩ => ⟨S2000x128, .bf16⟩
  | .local _ .vmem, ⟨21, _⟩ => ⟨S2000x128, .bf16⟩
  | .local _ .vmem, ⟨22, _⟩ => ⟨S128x128, .bf16⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .bf16⟩
  | .local _ .vmem, ⟨39, _⟩ => ⟨S2000x128, .bf16⟩
  | .local _ .vmem, ⟨40, _⟩ => ⟨S2000x128, .bf16⟩
  | .local _ .vmem, ⟨41, _⟩ => ⟨S2000x128, .bf16⟩
  | .local _ .vmem, ⟨42, _⟩ => ⟨S128x40, .bf16⟩
  | .local _ .vmem, ⟨43, _⟩ => ⟨S2000x40, .f32⟩
  | .local _ .vmem, ⟨44, _⟩ => ⟨S2000x40, .f32⟩
  | .local _ .vmem, ⟨45, _⟩ => ⟨S2000x40, .f32⟩
  | .local _ .vmem, ⟨46, _⟩ => ⟨S2000x40, .f32⟩
  | .local _ .vmem, ⟨47, _⟩ => ⟨S1x40, .f32⟩
  | .local _ .vmem, ⟨48, _⟩ => ⟨S2000x40, .f32⟩
  | .local _ .vmem, ⟨49, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_v45_2 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  packedbf16_S2000x128_S2000x128_0_0 : (Rect.unit (s := S2000x128) ![0, 0] S2000x128.size inb_S2000x128_S2000x128_0_0).PackedRows (EltTy.packing .bf16)
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S2000x40_S2000x40_0_0 : ∀ a, (![0, 0] : Fin 2 → Nat) a + S2000x40.size a ≤ S2000x40.size a
  h_S2000x40 : 0 < S2000x40.numel
  bcast_S1600000x1_S1600000x40_0_1 : S1600000x1.BroadcastsInDim S1600000x40 (![0, 1] : Fin 2 → Fin S1600000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  dot_S2000x128_S128x128_S2000x128_1_0_0_1_n_n_wf : DotDims.WF S2000x128 S128x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x40_S2000x40_1_0_0_1_n_n_wf : DotDims.WF S2000x128 S128x40 S2000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .bf16 = 32 ∨ (Rect.block (s := S50000x128) S2000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .bf16 = 32 ∨ (Rect.block (s := S50000x128) S2000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .bf16 = 32 ∨ (Rect.block (s := S50000x128) S2000x128.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .bf16 = 32 ∨ (Rect.block (s := S50000x128) S2000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .bf16 = 32 ∨ (Rect.block (s := S128x40) S128x40.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x40.size a ≤ S50000x40.size a
  hwx6_2 : ∀ i : grid6.Coords, EltTy.bits .f32 = 32 ∨ (Rect.block (s := S50000x40) S2000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S50000x40.size a
  hwx7_0 : ∀ i : grid7.Coords, EltTy.bits .f32 = 32 ∨ (Rect.block (s := S50000x40) S2000x40.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x40.size a ≤ S1x40.size a
  hwx7_1 : ∀ i : grid7.Coords, EltTy.bits .f32 = 32 ∨ (Rect.block (s := S1x40) S1x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x40.size a ≤ S50000x40.size a
  hwx7_2 : ∀ i : grid7.Coords, EltTy.bits .f32 = 32 ∨ (Rect.block (s := S50000x40) S2000x40.size (cc7_transform_2 i) (hinb7_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16_0) S2000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v16_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v28) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v43) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45_0) S2000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v45_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v45_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v57) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v57) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v59) S2000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v72) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v73) S1x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v74) S2000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x40 : Shape := ⟨2, ![50000, 40]⟩
abbrev S1600000x40 : Shape := ⟨2, ![1600000, 40]⟩
abbrev S1x40 : Shape := ⟨2, ![1, 40]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S1600000, .i32⟩
  | 2 => ⟨S1600000, .i32⟩
  | 3 => ⟨S1600000, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x40, .f32⟩
  | 13 => ⟨S40, .f32⟩
  | 14 => ⟨S50000x128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S1600000x1, .f32⟩
  | 25 => ⟨S1600000x128, .f32⟩
  | 26 => ⟨S1600000x128, .f32⟩
  | 27 => ⟨S_, .f32⟩
  | 28 => ⟨S50000x128, .f32⟩
  | 29 => ⟨S1600000x1, .i32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S_, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1600000x1, .f32⟩
  | 78 => ⟨S1600000x128, .f32⟩
  | 79 => ⟨S1600000x128, .f32⟩
  | 80 => ⟨S_, .f32⟩
  | 81 => ⟨S50000x128, .f32⟩
  | 82 => ⟨S1600000x1, .i32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x40, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S50000x128, .f32⟩

abbrev hbmTy0_1 (i : Nat) : BufTy := match i % 128 with
  | 0 => ⟨S1600000x1, .i32⟩
  | 1 => ⟨S1600000x40, .f32⟩
  | 2 => ⟨S1600000x1, .f32⟩
  | 3 => ⟨S1600000x40, .f32⟩
  | 4 => ⟨S1600000x40, .f32⟩
  | 5 => ⟨S_, .f32⟩
  | 6 => ⟨S50000x40, .f32⟩
  | 7 => ⟨S1600000x1, .i32⟩
  | 8 => ⟨S50000x40, .f32⟩
  | 9 => ⟨S1x40, .f32⟩
  | 10 => ⟨S50000x40, .f32⟩
  | 11 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_cst : Ref sig .tc := ⟨.hbm, 64, rfl⟩
abbrev main_call0_v0 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call1_cst : Ref sig .tc := ⟨.hbm, 117, rfl⟩
abbrev main_call1_v0 : Ref sig .tc := ⟨.hbm, 118, rfl⟩
abbrev main_v85 : Ref sig .tc := ⟨.hbm, 119, rfl⟩
abbrev main_v86 : Ref sig .tc := ⟨.hbm, 120, rfl⟩
abbrev main_c_14 : Ref sig .tc := ⟨.hbm, 121, rfl⟩
abbrev main_v87 : Ref sig .tc := ⟨.hbm, 122, rfl⟩
abbrev main_v88 : Ref sig .tc := ⟨.hbm, 123, rfl⟩
abbrev main_c_15 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_16 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S1600000x1_S1600000x40_0_1 : S1600000x1.BroadcastsInDim S1600000x40 (![0, 1] : Fin 2 → Fin S1600000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x40_S50000x40_1_0_0_1_n_n_wf : DotDims.WF S50000x128 S128x40 S50000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

class Facts : Prop extends Facts₀ where

variable [Facts]
-- ==== Proof.RunVal.lean ====
/-
  The run of the idealized kernel program with its RESULT named. The program is sixteen segments — eight stretches of
  host operations alternating with eight gridded regions — and the contents of every unscoped buffer at each segment
  boundary are a fold through the program from the launch memory: a stretch applies its operations, a region leaves
  its arrays at what its write-backs produce. Every weakly fair execution terminates without a fault in a state whose
  unscoped buffers hold the last boundary's contents; read at the result buffer this names the program's result, and
  read at each argument buffer it gives back the launch contents.
-/
import proofs.«161987_j51084341018872_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents there, and every argument buffer as launched. -/
theorem run_result : θ_run defs (onTc (τ := τ) (main (F := F))) ⟨m, fun _ => 0, ρ⟩ (fun r => ∀ c : Dev nD,
      r.2.mem ((c.tc : Thread nD τ).loc main_v74) = W16 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v74 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.RunValue

end
-- ==== Proof.Spec.lean ====
/-
  The vocabulary in which both programs are compared, over the extended reals: a three-layer graph
  convolution network is built from five whole-array functions. A matrix of shape n × p is a function
  from rank-2 indices to extended reals.

  * `mm X W`      : the matrix product, entry (r, c) the sum over j of X(r, j) · W(j, c);
  * `addRow X b`  : a row vector b (shape 1 × p) added to every row of X;
  * `colSum X`    : the sum of every column of X, as a 1 × p row;
  * `colSumSq X`  : the sum of the squares of every column of X, as a 1 × p row;
  * `normRelu X mean invstd gamma beta` : batch normalisation followed by the rectifier,
      max ((X(r, c) − mean(c)) · invstd(c) · gamma(c) + beta(c), 0).
-/
import Idealize.ShloMosaic.Lib.ValueIdx
import Idealize.ShloMosaic.PureOps.Ideal.Laws

noncomputable section

open scoped BigOperators

namespace Cert.GcnSpec

open Idealize.ShloMosaic Idealize.ShloMosaic.ValueIdx

/-- An n × p matrix of extended reals, indexed by rank-2 indices. -/
abbrev Mat (n p : Nat) := (⟨2, ![n, p]⟩ : Shape).Idx → EReal

/-- An extended real that is a real number (neither infinity). -/
def IsReal (x : EReal) : Prop := ∃ r : ℝ, x = (r : EReal)

/-- The matrix product. -/
def mm {n k p : Nat} (X : Mat n k) (W : Mat k p) : Mat n p :=
  fun i => ∑ j : Fin k, X (ix2 (i 0) j) * W (ix2 j (i 1))

/-- A row vector added to every row. -/
def addRow {n p : Nat} (X : Mat n p) (b : Mat 1 p) : Mat n p :=
  fun i => X i + b (ix2 (0 : Fin 1) (i 1))

/-- The sum of each column. -/
def colSum {n p : Nat} (X : Mat n p) : Mat 1 p :=
  fun i => ∑ r : Fin n, X (ix2 r (i 1))

/-- The sum of the squares of each column. -/
def colSumSq {n p : Nat} (X : Mat n p) : Mat 1 p :=
  fun i => ∑ r : Fin n, X (ix2 r (i 1)) * X (ix2 r (i 1))

/-- Batch normalisation with given column statistics, then the rectifier. -/
def normRelu {n p : Nat} (X : Mat n p) (mean invstd gamma beta : Mat 1 p) : Mat n p :=
  fun i => max ((X i - mean (ix2 (0 : Fin 1) (i 1))) * invstd (ix2 (0 : Fin 1) (i 1)) * gamma (ix2 (0 : Fin 1) (i 1))
    + beta (ix2 (0 : Fin 1) (i 1))) 0

/-- A vector of length p read as a 1 × p row. -/
def rowOf {p : Nat} (v : (⟨1, ![p]⟩ : Shape).Idx → EReal) : Mat 1 p := fun i => v (ix1 (i 1))

/-- The column means: each column's sum divided by the row count `N`. -/
def meanRow {n p : Nat} (N : EReal) (X : Mat n p) : Mat 1 p := fun i => Ideal.div (colSum X i) N

/-- The inverse standard deviation of each column with the variance computed as the mean of the squares minus
    the square of the mean. -/
def invStdSq {n p : Nat} (N eps : EReal) (X : Mat n p) : Mat 1 p :=
  fun i => Ideal.rsqrt ((Ideal.div (colSumSq X i) N - meanRow N X i * meanRow N X i) + eps)

/-- The inverse standard deviation of each column with the variance computed as the mean of the squared
    deviations from the mean. -/
def invStdDev {n p : Nat} (N eps : EReal) (X : Mat n p) : Mat 1 p :=
  fun i => Ideal.rsqrt (Ideal.div (∑ r : Fin n, (X (ix2 r (i 1)) - meanRow N X i) * (X (ix2 r (i 1)) - meanRow N X i)) N + eps)

end Cert.GcnSpec

end
-- ==== Proof.Gemm0.lean ====
/-
  Region 0 is a row-blocked matrix product. Its grid has 25 points; point t holds rows
  2000·t … 2000·t + 1999 of the left operand X (50000 × 128), the whole right operand W (128 × 128),
  and writes rows 2000·t … 2000·t + 1999 of the result (50000 × 128).

  Over the extended reals the body's matrix unit, started from the zero accumulator, leaves at entry
  (r, q) of its block the sum over k of x(r, k) · w(k, q), where x is the block of X and w is W: the
  change of element format and the shape casts before it are the identity. The block of X at point t,
  read at (r, k), is X(2000·t + r, k), and row 2000·t + r of the product X · W is made of exactly these
  entries; so what point t writes back is block t of the whole-array product X · W. The 25 blocks tile
  the 50000 rows (row i lies in block i / 2000), hence the array after the region is X · W.
-/
import proofs.«161987_j51084341018872_1_alg».proof.Proof.Gen.KernelIdeal.Frame
import proofs.«161987_j51084341018872_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.GcnSpec Idealize.ShloMosaic Idealize.ShloMosaic.ValueIdx
open Idealize.ShloMosaic.TcCoe Idealize.SL.Sem
open Idealize.ShloMosaic.Pipeline (Dat)

/-! ## The body's product at an entry -/

/-- On the left operand's row axis the product reads the output's row. -/
theorem gemm0_lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- On the right operand's column axis the product reads the output's column. -/
theorem gemm0_rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry (r, q) of the body's result is the sum over k of x(r, k) · w(k, q). -/
theorem gemm0_pay_apply (x0 : Vec Ideal S2000x128 .f32) (x1 : Vec Ideal S128x128 .bf16) (r : Fin 2000) (q : Fin 128) :
    k0_pay1 (F := Ideal) x0 x1 (ix2 r q) = ∑ k : Fin 128, x0 (ix2 r k) * x1 (ix2 k q) := by
  unfold k0_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact gemm0_lhs_row _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact gemm0_rhs_col _ _)
  rw [el, er, shapeCast_self]
  rfl

/-! ## From the blocks to the whole array -/

theorem gemm0_zero : (![0, 0] : Fin 2 → Nat) = fun _ => 0 := funext fun a => by fin_cases a <;> rfl

/-- The printed index maps, decided over the grid: the left operand's and the result's block at point t is the
    t-th block of rows, the right operand's block is always the whole matrix. -/
theorem gemm0_index : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the two arrays as the region finds them. -/
theorem gemm0_flushed (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal)
          (mm (V c (Pipeline.arrRef spec0 0)) (V c (Pipeline.arrRef spec0 1))) := by
  show (cfg0.win 2).cut (grid0.coords t) ((dat0 V c).after 2 t) = _
  rw [after0_2]
  unfold out0_2
  rw [View.canon_unit_zero gemm0_zero]
  simp only [View.ld_unit_zero (S := S2000x128) gemm0_zero, View.ld_unit_zero (S := S128x128) gemm0_zero]
  obtain ⟨e0, e1, e2, e3, e4, e5⟩ := gemm0_index t
  funext j
  obtain ⟨r, q, rfl⟩ : ∃ (r : Fin 2000) (q : Fin 128), j = ix2 r q := ⟨j 0, j 1, eq_ix2 j⟩
  show k0_pay1 (F := Ideal) (iblk0 V c 0 t) (iblk0 V c 1 t) (ix2 r q)
    = mm (V c (Pipeline.arrRef spec0 0)) (V c (Pipeline.arrRef spec0 1)) (((cfg0.win 2).blk t).view.emb (ix2 r q))
  refine (gemm0_pay_apply _ _ r q).trans ?_
  unfold mm
  refine Finset.sum_congr rfl fun k _ => ?_
  have hx : iblk0 V c 0 t (ix2 r k)
      = V c (Pipeline.arrRef spec0 0) (ix2 ((((cfg0.win 2).blk t).view.emb (ix2 r q)) 0) k) := by
    show V c (Pipeline.arrRef spec0 0) (((cfg0.win 0).blk t).view.emb (ix2 r k)) = _
    refine congrArg _ (funext fun a => Fin.ext ?_)
    match a with
    | ⟨0, _⟩ =>
      show win0_0.index t (0 : Fin 2) * 2000 + 1 * r.val = win0_2.index t (0 : Fin 2) * 2000 + 1 * r.val
      omega
    | ⟨1, _⟩ =>
      show win0_0.index t (1 : Fin 2) * 128 + 1 * k.val = k.val
      omega
  have hw : iblk0 V c 1 t (ix2 k q)
      = V c (Pipeline.arrRef spec0 1) (ix2 k ((((cfg0.win 2).blk t).view.emb (ix2 r q)) 1)) := by
    show V c (Pipeline.arrRef spec0 1) (((cfg0.win 1).blk t).view.emb (ix2 k q)) = _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  rw [hx, hw]

/-- An index of the result array is in point t's block iff each coordinate is in the block's range on its axis. -/
theorem gemm0_mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v1).slice (win0_2.rect t)).set ↔ _
  rw [View.set_slice_whole, Rect.mem_set_unit]
  exact Iff.rfl

/-- Every row of the result array lies in some point's block: row i in block i / 2000. -/
theorem gemm0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  rw [gemm0_mem_blk]
  obtain ⟨e0, e1, e2, e3, e4, e5⟩ := gemm0_index ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]
    show (i 0).val / 2000 * 2000 ≤ (i 0).val ∧ (i 0).val < (i 0).val / 2000 * 2000 + 2000
    omega
  | ⟨1, _⟩ =>
    show win0_2.index _ (1 : Fin 2) * 128 ≤ (i 1).val ∧ (i 1).val < win0_2.index _ (1 : Fin 2) * 128 + 128
    rw [e5]
    omega

/-- The result array after the region is the product of the two operand arrays as the region finds them. -/
theorem gemm0 (V : (c : Dev nD) → (b : Ref sig .tc) → Buf (Elt Ideal) ((c : Thread nD τ).loc b)) (c : Dev nD) :
    (dat0 (F := Ideal) V c).arrAt 2 cfg0.N
      = mm (V c (Pipeline.arrRef spec0 0)) (V c (Pipeline.arrRef spec0 1)) :=
  (dat0 (F := Ideal) V c).arrAt_eq_of_cover 2 _ (fun t _ => gemm0_flushed V c t) gemm0_cover

end Cert.KernelIdeal.RegionValue

end
-- ==== Proof.Gemm3.lean ====
/-
  Region 3 is a row-blocked matrix product. Its grid has 25 points; point t holds rows
  2000·t … 2000·t + 1999 of the left operand X (50000 × 128), the whole right operand W (128 × 128),
  and writes rows 2000·t … 2000·t + 1999 of the result (50000 × 128).

  Over the extended reals the body's matrix unit, started from the zero accumulator, leaves at entry
  (r, q) of its block the sum over k of x(r, k) · w(k, q), where x is the block of X and w is W: the
  change of element format and the shape casts before it are the identity. The block of X at point t,
  read at (r, k), is X(2000·t + r, k), and row 2000·t + r of the product X · W is made of exactly these
  entries; so what point t writes back is block t of the whole-array product X · W. The 25 blocks tile
  the 50000 rows (row i lies in block i / 2000), hence the array after the region is X · W.
-/
import proofs.«161987_j51084341018872_1_alg».proof.Proof.Gen.KernelIdeal.Frame
import proofs.«161987_j51084341018872_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.GcnSpec Idealize.ShloMosaic Idealize.ShloMosaic.ValueIdx
open Idealize.ShloMosaic.TcCoe Idealize.SL.Sem
open Idealize.ShloMosaic.Pipeline (Dat)

/-! ## The body's product at an entry -/

/-- On the left operand's row axis the product reads the output's row. -/
theorem gemm3_lhs_row (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- On the right operand's column axis the product reads the output's column. -/
theorem gemm3_rhs_col (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry (r, q) of the body's result is the sum over k of x(r, k) · w(k, q). -/
theorem gemm3_pay_apply (x0 : Vec Ideal S2000x128 .bf16) (x1 : Vec Ideal S128x128 .bf16) (r : Fin 2000) (q : Fin 128) :
    k3_pay1 (F := Ideal) x0 x1 (ix2 r q) = ∑ k : Fin 128, x0 (ix2 r k) * x1 (ix2 k q) := by
  unfold k3_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact gemm3_lhs_row _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact gemm3_rhs_col _ _)
  rw [el, er, shapeCast_self, shapeCast_self]

/-! ## From the blocks to the whole array -/

theorem gemm3_zero : (![0, 0] : Fin 2 → Nat) = fun _ => 0 := funext fun a => by fin_cases a <;> rfl

/-- The printed index maps, decided over the grid: the left operand's and the result's block at point t is the
    t-th block of rows, the right operand's block is always the whole matrix. -/
theorem gemm3_index : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the product of the two arrays as the region finds them. -/
theorem gemm3_flushed (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal)
          (mm (V c (Pipeline.arrRef spec3 0)) (V c (Pipeline.arrRef spec3 1))) := by
  show (cfg3.win 2).cut (grid3.coords t) ((dat3 V c).after 2 t) = _
  rw [after3_2]
  unfold out3_2
  rw [View.canon_unit_zero gemm3_zero]
  simp only [View.ld_unit_zero (S := S2000x128) gemm3_zero, View.ld_unit_zero (S := S128x128) gemm3_zero]
  obtain ⟨e0, e1, e2, e3, e4, e5⟩ := gemm3_index t
  funext j
  obtain ⟨r, q, rfl⟩ : ∃ (r : Fin 2000) (q : Fin 128), j = ix2 r q := ⟨j 0, j 1, eq_ix2 j⟩
  show k3_pay1 (F := Ideal) (iblk3 V c 0 t) (iblk3 V c 1 t) (ix2 r q)
    = mm (V c (Pipeline.arrRef spec3 0)) (V c (Pipeline.arrRef spec3 1)) (((cfg3.win 2).blk t).view.emb (ix2 r q))
  refine (gemm3_pay_apply _ _ r q).trans ?_
  unfold mm
  refine Finset.sum_congr rfl fun k _ => ?_
  have hx : iblk3 V c 0 t (ix2 r k)
      = V c (Pipeline.arrRef spec3 0) (ix2 ((((cfg3.win 2).blk t).view.emb (ix2 r q)) 0) k) := by
    show V c (Pipeline.arrRef spec3 0) (((cfg3.win 0).blk t).view.emb (ix2 r k)) = _
    refine congrArg _ (funext fun a => Fin.ext ?_)
    match a with
    | ⟨0, _⟩ =>
      show win3_0.index t (0 : Fin 2) * 2000 + 1 * r.val = win3_2.index t (0 : Fin 2) * 2000 + 1 * r.val
      omega
    | ⟨1, _⟩ =>
      show win3_0.index t (1 : Fin 2) * 128 + 1 * k.val = k.val
      omega
  have hw : iblk3 V c 1 t (ix2 k q)
      = V c (Pipeline.arrRef spec3 1) (ix2 k ((((cfg3.win 2).blk t).view.emb (ix2 r q)) 1)) := by
    show V c (Pipeline.arrRef spec3 1) (((cfg3.win 1).blk t).view.emb (ix2 k q)) = _
    refine congrArg _ (funext fun a => Fin.ext ?_)
    match a with
    | ⟨0, _⟩ =>
      show win3_1.index t (0 : Fin 2) * 128 + 1 * k.val = k.val
      omega
    | ⟨1, _⟩ =>
      show win3_1.index t (1 : Fin 2) * 128 + 1 * q.val = win3_2.index t (1 : Fin 2) * 128 + 1 * q.val
      omega
  rw [hx, hw]

/-- An index of the result array is in point t's block iff each coordinate is in the block's range on its axis. -/
theorem gemm3_mem_blk (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v30).slice (win3_2.rect t)).set ↔ _
  rw [View.set_slice_whole, Rect.mem_set_unit]
  exact Iff.rfl

/-- Every row of the result array lies in some point's block: row i in block i / 2000. -/
theorem gemm3_cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_2 _, ?_⟩
  rw [gemm3_mem_blk]
  obtain ⟨e0, e1, e2, e3, e4, e5⟩ := gemm3_index ⟨(i 0).val / 2000, by rw [hN]; omega⟩
  intro a
  match a with
  | ⟨0, _⟩ =>
    show win3_2.index _ (0 : Fin 2) * 2000 ≤ (i 0).val ∧ (i 0).val < win3_2.index _ (0 : Fin 2) * 2000 + 2000
    rw [e4]
    show (i 0).val / 2000 * 2000 ≤ (i 0).val ∧ (i 0).val < (i 0).val / 2000 * 2000 + 2000
    omega
  | ⟨1, _⟩ =>
    show win3_2.index _ (1 : Fin 2) * 128 ≤ (i 1).val ∧ (i 1).val < win3_2.index _ (1 : Fin 2) * 128 + 128
    rw [e5]
    omega

/-- The result array after the region is the product of the two operand arrays as the region finds them. -/
theorem gemm3 (V : (c : Dev nD) → (b : Ref sig .tc) → Buf (Elt Ideal) ((c : Thread nD τ).loc b)) (c : Dev nD) :
    (dat3 (F := Ideal) V c).arrAt 2 cfg3.N
      = mm (V c (Pipeline.arrRef spec3 0)) (V c (Pipeline.arrRef spec3 1)) :=
  (dat3 (F := Ideal) V c).arrAt_eq_of_cover 2 _ (fun t _ => gemm3_flushed V c t) gemm3_cover

end Cert.KernelIdeal.RegionValue

end
-- ==== Proof.Gemm6.lean ====
/-
  Region 6 is a row-blocked matrix product. Its grid has 25 points; point t holds rows
  2000·t … 2000·t + 1999 of the left operand X (50000 × 128), the whole right operand W (128 × 40),
  and writes rows 2000·t … 2000·t + 1999 of the result (50000 × 40).

  Over the extended reals the body's matrix unit, started from the zero accumulator, leaves at entry
  (r, q) of its block the sum over k of x(r, k) · w(k, q), where x is the block of X and w is W: the
  change of element format and the shape casts before it are the identity. The block of X at point t,
  read at (r, k), is X(2000·t + r, k), and row 2000·t + r of the product X · W is made of exactly these
  entries; so what point t writes back is block t of the whole-array product X · W. The 25 blocks tile
  the 50000 rows (row i lies in block i / 2000), hence the array after the region is X · W.
-/
import proofs.«161987_j51084341018872_1_alg».proof.Proof.Gen.KernelIdeal.Frame
import proofs.«161987_j51084341018872_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.GcnSpec Idealize.ShloMosaic Idealize.ShloMosaic.ValueIdx
open Idealize.ShloMosaic.TcCoe Idealize.SL.Sem
open Idealize.ShloMosaic.Pipeline (Dat)

/-! ## The body's product at an entry -/

/-- On the left operand's row axis the product reads the output's row. -/
theorem gemm6_lhs_row (i : S2000x40.Idx) (k : dot_S2000x128_S128x40_S2000x40_1_0_0_1_n_n.contr.Idx) :
    (dot_S2000x128_S128x40_S2000x40_1_0_0_1_n_n.lhsIdx i k 0).val = (i 0).val := by
  unfold DotDims.lhsIdx
  rw [dif_neg (show ¬(0 : Fin S2000x128.rank) ∈ dot_S2000x128_S128x40_S2000x40_1_0_0_1_n_n.lhsBatch by decide),
    dif_pos (show (0 : Fin S2000x128.rank) ∈ dot_S2000x128_S128x40_S2000x40_1_0_0_1_n_n.lhsNonContracting by decide)]
  rfl

/-- On the right operand's column axis the product reads the output's column. -/
theorem gemm6_rhs_col (i : S2000x40.Idx) (k : dot_S2000x128_S128x40_S2000x40_1_0_0_1_n_n.contr.Idx) :
    (dot_S2000x128_S128x40_S2000x40_1_0_0_1_n_n.rhsIdx i k 1).val = (i 1).val := by
  unfold DotDims.rhsIdx
  rw [dif_neg (show ¬(1 : Fin S128x40.rank) ∈ dot_S2000x128_S128x40_S2000x40_1_0_0_1_n_n.rhsBatch by decide),
    dif_pos (show (1 : Fin S128x40.rank) ∈ dot_S2000x128_S128x40_S2000x40_1_0_0_1_n_n.rhsNonContracting by decide)]
  rfl

/-- Entry (r, q) of the body's result is the sum over k of x(r, k) · w(k, q). -/
theorem gemm6_pay_apply (x0 : Vec Ideal S2000x128 .bf16) (x1 : Vec Ideal S128x40 .bf16) (r : Fin 2000) (q : Fin 40) :
    k6_pay1 (F := Ideal) x0 x1 (ix2 r q) = ∑ k : Fin 128, x0 (ix2 r k) * x1 (ix2 k q) := by
  unfold k6_pay1
  simp only [matmul]
  rw [Ideal.matmul_constant_zero_apply, ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 r q) ((contrEquiv1 dot_S2000x128_S128x40_S2000x40_1_0_0_1_n_n 128 rfl rfl).symm k) = ix2 r k := funext fun a => Fin.ext (by
    match a with
    | ⟨0, _⟩ => exact gemm6_lhs_row _ _
    | ⟨1, _⟩ => exact (dot_S2000x128_S128x40_S2000x40_1_0_0_1_n_n.lhsIdx_val_of_single rfl _ _).trans hk)
  have er : dot_S2000x128_S128x40_S2000x40_1_0_0_1_n_n.rhsIdx (ix2 r q) ((contrEquiv1 dot_S2000x128_S128x40_S2000x40_1_0_0_1_n_n 128 rfl rfl).symm k) = ix2 k q := funext fun a => Fin.ext (by
    match a with
    | ⟨0, _⟩ => exact (dot_S2000x128_S128x40_S2000x40_1_0_0_1_n_n.rhsIdx_val_of_single rfl _ _).trans hk
    | ⟨1, _⟩ => exact gemm6_rhs_col _ _)
  rw [el, er, shapeCast_self, shapeCast_self]

/-! ## From the blocks to the whole array -/

theorem gemm6_zero : (![0, 0] : Fin 2 → Nat) = fun _ => 0 := funext fun a => by fin_cases a <;> rfl

/-- The printed index maps, decided over the grid: the left operand's and the result's block at point t is the
    t-th block of rows, the right operand's block is always the whole matrix. -/
theorem gemm6_index : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

set_option maxHeartbeats 1000000 in
/-- What point t writes back is block t of the product of the two arrays as the region finds them. -/
theorem gemm6_flushed (V : (c : Dev nD) → (b : Ref sig .tc) → Buf (Elt Ideal) ((c : Thread nD τ).loc b)) (c : Dev nD)
    (t : Fin cfg6.N) :
    (dat6 (F := Ideal) V c).flushed 2 t
      = ((cfg6.win 2).blk t).view.read (Elt Ideal)
          (mm (V c (Pipeline.arrRef spec6 0)) (V c (Pipeline.arrRef spec6 1))) := by
  show (cfg6.win 2).cut (grid6.coords t) ((dat6 V c).after 2 t) = _
  rw [after6_2]
  unfold out6_2
  rw [View.canon_unit_zero gemm6_zero]
  simp only [View.ld_unit_zero (S := S2000x128) gemm6_zero, View.ld_unit_zero (S := S128x40) gemm6_zero]
  obtain ⟨e0, e1, e2, e3, e4, e5⟩ := gemm6_index t
  funext j
  obtain ⟨r, q, rfl⟩ : ∃ (r : Fin 2000) (q : Fin 40), j = ix2 r q := ⟨j 0, j 1, eq_ix2 j⟩
  show k6_pay1 (F := Ideal) (iblk6 V c 0 t) (iblk6 V c 1 t) (ix2 r q)
    = mm (V c (Pipeline.arrRef spec6 0)) (V c (Pipeline.arrRef spec6 1)) (((cfg6.win 2).blk t).view.emb (ix2 r q))
  refine (gemm6_pay_apply _ _ r q).trans ?_
  unfold mm
  refine Finset.sum_congr rfl fun k _ => ?_
  have hx : iblk6 V c 0 t (ix2 r k)
      = V c (Pipeline.arrRef spec6 0) (ix2 ((((cfg6.win 2).blk t).view.emb (ix2 r q)) 0) k) := by
    show V c (Pipeline.arrRef spec6 0) (((cfg6.win 0).blk t).view.emb (ix2 r k)) = _
    refine congrArg _ (funext fun a => Fin.ext ?_)
    match a with
    | ⟨0, _⟩ =>
      show win6_0.index t (0 : Fin 2) * 2000 + 1 * r.val = win6_2.index t (0 : Fin 2) * 2000 + 1 * r.val
      omega
    | ⟨1, _⟩ =>
      show win6_0.index t (1 : Fin 2) * 128 + 1 * k.val = k.val
      omega
  have hw : iblk6 V c 1 t (ix2 k q)
      = V c (Pipeline.arrRef spec6 1) (ix2 k ((((cfg6.win 2).blk t).view.emb (ix2 r q)) 1)) := by
    show V c (Pipeline.arrRef spec6 1) (((cfg6.win 1).blk t).view.emb (ix2 k q)) = _
    refine congrArg _ (funext fun a => Fin.ext ?_)
    match a with
    | ⟨0, _⟩ =>
      show win6_1.index t (0 : Fin 2) * 128 + 1 * k.val = k.val
      omega
    | ⟨1, _⟩ =>
      show win6_1.index t (1 : Fin 2) * 40 + 1 * q.val = win6_2.index t (1 : Fin 2) * 40 + 1 * q.val
      omega
  rw [hx, hw]

/-- An index of the result array is in point t's block iff each coordinate is in the block's range on its axis. -/
theorem gemm6_mem_blk (t : Fin cfg6.N) (i : S50000x40.Idx) :
    i ∈ ((cfg6.win 2).blk t).view.set ↔ ∀ a : Fin 2, win6_2.index t a * S2000x40.size a ≤ (i a).val
      ∧ (i a).val < win6_2.index t a * S2000x40.size a + S2000x40.size a := by
  show i ∈ ((View.whole main_v59).slice (win6_2.rect t)).set ↔ _
  rw [View.set_slice_whole, Rect.mem_set_unit]
  exact Iff.rfl

/-- Every row of the result array lies in some point's block: row i in block i / 2000. -/
theorem gemm6_cover (i : S50000x40.Idx) :
    ∃ t : Fin cfg6.N, (cfg6.win 2).flush t = true ∧ i ∈ ((cfg6.win 2).blk t).view.set := by
  have hi0 : (i 0).val < 50000 := (i 0).isLt
  have hi1 : (i 1).val < 40 := (i 1).isLt
  have hN : cfg6.N = 25 := N_6
  refine ⟨⟨(i 0).val / 2000, by rw [hN]; omega⟩, flush6_2 _, ?_⟩
  rw [gemm6_mem_blk]
  obtain ⟨e0, e1, e2, e3, e4, e5⟩ := gemm6_index ⟨(i 0).val / 2000, by rw [hN]; omega⟩
  intro a
  match a with
  | ⟨0, _⟩ =>
    show win6_2.index _ (0 : Fin 2) * 2000 ≤ (i 0).val ∧ (i 0).val < win6_2.index _ (0 : Fin 2) * 2000 + 2000
    rw [e4]
    show (i 0).val / 2000 * 2000 ≤ (i 0).val ∧ (i 0).val < (i 0).val / 2000 * 2000 + 2000
    omega
  | ⟨1, _⟩ =>
    show win6_2.index _ (1 : Fin 2) * 40 ≤ (i 1).val ∧ (i 1).val < win6_2.index _ (1 : Fin 2) * 40 + 40
    rw [e5]
    omega

/-- The result array after the region is the product of the two operand arrays as the region finds them. -/
theorem gemm6 (V : (c : Dev nD) → (b : Ref sig .tc) → Buf (Elt Ideal) ((c : Thread nD τ).loc b)) (c : Dev nD) :
    (dat6 (F := Ideal) V c).arrAt 2 cfg6.N
      = mm (V c (Pipeline.arrRef spec6 0)) (V c (Pipeline.arrRef spec6 1)) :=
  (dat6 (F := Ideal) V c).arrAt_eq_of_cover 2 _ (fun t _ => gemm6_flushed V c t) gemm6_cover

end Cert.KernelIdeal.RegionValue

end
-- ==== Proof.Stats1.lean ====
/-
  Region 1 adds a bias row to every row of a 50000 × 128 matrix and accumulates the column sums and the
  column sums of squares of the result.

  The grid has 25 points; point t handles rows 2000·t … 2000·t + 1999. The biased matrix is written block by
  block: block t of the output is the biased block t of the input, and the 25 blocks tile the rows, so the
  output array is the row-biased matrix. The two 1 × 128 accumulators keep the constant block index: they are
  zeroed at the first point, every point adds to them the column sums (of squares) of its own biased block,
  and they are written back after the last point only. After point t they hold the sums over the rows below
  2000·(t + 1) — an induction over the point — and 2000·25 = 50000, so what is written back is the sum over
  every row. Sums over the extended reals are reordered freely (a commutative monoid); nothing is cancelled.
-/
import proofs.«161987_j51084341018872_1_alg».proof.Proof.Gen.KernelIdeal.Frame
import proofs.«161987_j51084341018872_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators

namespace Cert.KernelIdeal.RegionValue

open Cert.KernelIdeal Cert.KernelIdeal.Gen Cert.GcnSpec
open Idealize.ShloMosaic Idealize.ShloMosaic.TcCoe Idealize.ShloMosaic.Tactic Idealize.ShloMosaic.ValueIdx
open Idealize.SL.Sem
open Idealize.ShloMosaic.Pipeline (Dat)

section Pieces

variable {F : FTy → Type} [FloatOps F]

theorem s1_hz : (![0, 0] : Fin 2 → Nat) = fun _ => 0 := funext fun a => by fin_cases a <;> rfl

/-! ## What each case of the body leaves in the three outputs' buffers -/

/-- Not at the first point: the biased-block buffer holds the biased block. -/
theorem s1_outB2 (c : Dev nD) (i : grid1.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : ¬cond1_0 i)
    (x0 : Vec F S2000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero s1_hz]
  simp only [View.readAt_eq_ld, h1.read_unread, h2.read_unread, View.ld_unit_zero (S := S2000x128) s1_hz, View.ld_unit_zero (S := S1x128) s1_hz]

/-- Not at the first point: the sum buffer, holding `xo3`, is left at `xo3` plus the block's column sums. -/
theorem s1_outB3 (c : Dev nD) (i : grid1.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : ¬cond1_0 i)
    (x0 : Vec F S2000x128 .f32) (x1 : Vec F S1x128 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  rw [View.canon_unit_zero s1_hz]
  simp only [View.readAt_eq_ld, h1.read_unread, h2.read_unread, h4.read_unread, View.ld_unit_zero (S := S2000x128) s1_hz, View.ld_unit_zero (S := S1x128) s1_hz]

/-- Not at the first point: the sum-of-squares buffer, holding `xo4`, is left at `xo4` plus the block's column sums of squares. -/
theorem s1_outB4 (c : Dev nD) (i : grid1.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : ¬cond1_0 i)
    (x0 : Vec F S2000x128 .f32) (x1 : Vec F S1x128 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  rw [View.canon_unit_zero s1_hz]
  simp only [View.readAt_eq_ld, h1.read_unread, h2.read_unread, h5.read_unread, View.ld_unit_zero (S := S2000x128) s1_hz, View.ld_unit_zero (S := S1x128) s1_hz]

/-- At the first point: the biased-block buffer holds the biased block. -/
theorem s1_outA2 (c : Dev nD) (i : grid1.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : cond1_0 i)
    (x0 : Vec F S2000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  rw [View.canon_unit_zero s1_hz]
  simp only [View.readAt_eq_ld, h1.read_unread, h2.read_unread, View.ld_unit_zero (S := S2000x128) s1_hz, View.ld_unit_zero (S := S1x128) s1_hz]

/-- At the first point: the sum buffer is zeroed, read back, and left at zero plus the block's column sums. -/
theorem s1_outA3 (c : Dev nD) (i : grid1.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : cond1_0 i)
    (x0 : Vec F S2000x128 .f32) (x1 : Vec F S1x128 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) s1_hz, View.readCov_unit_zero (S := S1x128) _ s1_hz]
  simp only [View.readAt_eq_ld, h1.read_unread, h2.read_unread, View.ld_unit_zero (S := S2000x128) s1_hz, View.ld_unit_zero (S := S1x128) s1_hz]

/-- At the first point: the sum-of-squares buffer is zeroed, read back, and left at zero plus the block's column sums of squares. -/
theorem s1_outA4 (c : Dev nD) (i : grid1.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : cond1_0 i)
    (x0 : Vec F S2000x128 .f32) (x1 : Vec F S1x128 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) s1_hz, View.readCov_unit_zero (S := S1x128) _ s1_hz]
  simp only [View.readAt_eq_ld, h1.read_unread, h2.read_unread, View.ld_unit_zero (S := S2000x128) s1_hz, View.ld_unit_zero (S := S1x128) s1_hz]

end Pieces

/-! ## The payloads at an entry, over the extended reals -/

section Payloads

variable {F : FTy → Type} [FloatOps F]

theorem s1_pay3_eq (x0 : Vec F S2000x128 .f32) (x1 : Vec F S1x128 .f32) :
    k1_pay3 x0 x1 = addf x0 (broadcastTo S2000x128 x1 broadcasts_S1x128_S2000x128) := by
  unfold k1_pay3
  simp only [shapeCast_self]

theorem s1_pay4_eq (x0 : Vec F S2000x128 .f32) (x1 acc : Vec F S1x128 .f32) :
    k1_pay4 x0 x1 acc = addf acc (shapeCast S1x128 (multiReduction .add [0] S128 (k1_pay3 x0 x1) 0x00000000#32
      reduces_S2000x128_S128 (.inl rfl) rfl) shapeCasts_S128_S1x128) := by
  unfold k1_pay4
  simp only [shapeCast_self]

theorem s1_pay5_eq (x0 : Vec F S2000x128 .f32) (x1 acc : Vec F S1x128 .f32) :
    k1_pay5 x0 x1 acc = addf acc (shapeCast S1x128 (multiReduction .add [0] S128 (mulf (k1_pay3 x0 x1) (k1_pay3 x0 x1)) 0x00000000#32
      reduces_S2000x128_S128 (.inl rfl) rfl) shapeCasts_S128_S1x128) := by
  unfold k1_pay5
  simp only [shapeCast_self]

end Payloads

/-- Lane `b` of the reduced row with row `k` put back is entry (k, b) of the block. -/
theorem s1_lift (b : Fin 128) (k : Fin 2000) :
    reduces_S2000x128_S128.lift (ix1 b) k = (ix2 k b : S2000x128.Idx) := by
  funext a
  match a with
  | ⟨0, _⟩ => rfl
  | ⟨1, _⟩ => rfl

/-- The biased block at (a, b): the block's entry plus the bias row's lane. -/
theorem s1_pay3_apply (x0 : Vec Ideal S2000x128 .f32) (x1 : Vec Ideal S1x128 .f32) (a : Fin 2000) (b : Fin 128) :
    k1_pay3 (F := Ideal) x0 x1 (ix2 a b) = x0 (ix2 a b) + x1 (ix2 (0 : Fin 1) b) := by
  rw [s1_pay3_eq]
  exact congrArg (x0 (ix2 a b) + ·) (broadcastTo_1b_ab_apply x1 broadcasts_S1x128_S2000x128 a b)

/-- The sum accumulator's lane `b` after a point: what it held plus the sum of the biased block's column `b`. -/
theorem s1_pay4_apply (x0 : Vec Ideal S2000x128 .f32) (x1 acc : Vec Ideal S1x128 .f32) (b : Fin 128) :
    k1_pay4 (F := Ideal) x0 x1 acc (ix2 (0 : Fin 1) b)
      = acc (ix2 (0 : Fin 1) b) + ∑ a : Fin 2000, k1_pay3 (F := Ideal) x0 x1 (ix2 a b) := by
  rw [s1_pay4_eq]
  refine congrArg (acc (ix2 (0 : Fin 1) b) + ·) ?_
  refine (shapeCast_a_1a_apply _ shapeCasts_S128_S1x128 (0 : Fin 1) b).trans ?_
  refine (Ideal.multiReduction_add_single (k1_pay3 (F := Ideal) x0 x1) 0x00000000#32 reduces_S2000x128_S128 (.inl rfl) rfl (ix1 b)).trans ?_
  exact Finset.sum_congr rfl fun k _ => congrArg _ (s1_lift b k)

/-- The sum-of-squares accumulator's lane `b` after a point: what it held plus the sum of the squares of the biased block's column `b`. -/
theorem s1_pay5_apply (x0 : Vec Ideal S2000x128 .f32) (x1 acc : Vec Ideal S1x128 .f32) (b : Fin 128) :
    k1_pay5 (F := Ideal) x0 x1 acc (ix2 (0 : Fin 1) b)
      = acc (ix2 (0 : Fin 1) b) + ∑ a : Fin 2000, k1_pay3 (F := Ideal) x0 x1 (ix2 a b) * k1_pay3 (F := Ideal) x0 x1 (ix2 a b) := by
  rw [s1_pay5_eq]
  refine congrArg (acc (ix2 (0 : Fin 1) b) + ·) ?_
  refine (shapeCast_a_1a_apply _ shapeCasts_S128_S1x128 (0 : Fin 1) b).trans ?_
  refine (Ideal.multiReduction_add_single (mulf (k1_pay3 (F := Ideal) x0 x1) (k1_pay3 (F := Ideal) x0 x1)) 0x00000000#32 reduces_S2000x128_S128 (.inl rfl) rfl (ix1 b)).trans ?_
  exact Finset.sum_congr rfl fun k _ => congrArg (fun j => k1_pay3 (F := Ideal) x0 x1 j * k1_pay3 (F := Ideal) x0 x1 j) (s1_lift b k)

/-- The two zero rows the first point stores are zero. -/
theorem s1_zero1_apply (j : S1x128.Idx) : k1_pay1 (F := Ideal) j = 0 := Ideal.ofBits_zero_f32
theorem s1_zero2_apply (j : S1x128.Idx) : k1_pay2 (F := Ideal) j = 0 := Ideal.ofBits_zero_f32

/-! ## A sum over 50000 rows as 25 blocks of 2000 -/

/-- A sequence of 50000 extended reals continued by zeros. -/
def s1_ext (g : Fin 50000 → EReal) (r : ℕ) : EReal := if h : r < 50000 then g ⟨r, h⟩ else 0

theorem s1_ext_of_lt (g : Fin 50000 → EReal) (r : ℕ) (h : r < 50000) : s1_ext g r = g ⟨r, h⟩ := dif_pos h

/-- The continued sequence of the squares is the square of the continued sequence. -/
theorem s1_ext_sq (f : Fin 50000 → EReal) (r : ℕ) : s1_ext (fun k => f k * f k) r = s1_ext f r * s1_ext f r := by
  unfold s1_ext
  split
  · rfl
  · exact (mul_zero (0 : EReal)).symm

/-- The sum over all rows is the sum of the continued sequence below 50000. -/
theorem s1_sum_all (g : Fin 50000 → EReal) : ∑ r : Fin 50000, g r = ∑ r ∈ Finset.range 50000, s1_ext g r := by
  rw [Finset.sum_range]
  exact Finset.sum_congr rfl fun r _ => (s1_ext_of_lt g r.val r.isLt).symm

/-- A block of 2000 consecutive rows, summed over its own coordinate. -/
theorem s1_sum_block (g : Fin 50000 → EReal) (n : ℕ) (blk : Fin 2000 → EReal)
    (hblk : ∀ a : Fin 2000, blk a = s1_ext g (2000 * n + a.val)) :
    ∑ a : Fin 2000, blk a = ∑ a ∈ Finset.range 2000, s1_ext g (2000 * n + a) := by
  rw [Finset.sum_range]
  exact Finset.sum_congr rfl fun a _ => hblk a

/-- The rows below 2000·(n + 1) are the rows below 2000·n and block n. -/
theorem s1_sum_step (g : Fin 50000 → EReal) (n : ℕ) :
    ∑ r ∈ Finset.range (2000 * (n + 1)), s1_ext g r
      = ∑ r ∈ Finset.range (2000 * n), s1_ext g r + ∑ a ∈ Finset.range 2000, s1_ext g (2000 * n + a) := by
  rw [show 2000 * (n + 1) = 2000 * n + 2000 from by ring, Finset.sum_range_add]

/-- The rows below 2000 are block 0, added to zero. -/
theorem s1_sum_first (g : Fin 50000 → EReal) :
    ∑ r ∈ Finset.range (2000 * (0 + 1)), s1_ext g r = 0 + ∑ a ∈ Finset.range 2000, s1_ext g (2000 * 0 + a) := by
  rw [s1_sum_step, Nat.mul_zero, Finset.range_zero, Finset.sum_empty]

/-! ## The blocks of the operands -/

section Values

variable (V : (c : Dev nD) → (b : Ref sig .tc) → Buf (Elt Ideal) ((c : Thread nD τ).loc b))

/-- The printed index maps over the grid: the two 2000-row windows move with the point along the rows, the
    1 × 128 windows stay at block (0, 0). -/
theorem s1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem s1_lt (t : Fin cfg1.N) : t.val < 25 := lt_of_lt_of_eq t.isLt (show cfg1.N = 25 from N_1)

/-- Entry (a, b) of the matrix operand's block at point t is entry (2000·t + a, b) of the matrix. -/
theorem s1_in0_apply (c : Dev nD) (t : Fin cfg1.N) (a : Fin 2000) (b : Fin 128) (h : 2000 * t.val + a.val < 50000) :
    (iblk1 (F := Ideal) V c 0 t : Vec Ideal S2000x128 .f32) (ix2 a b) = ((V c (Pipeline.arrRef spec1 0)) : Mat 50000 128) (ix2 ⟨2000 * t.val + a.val, h⟩ b) := by
  obtain ⟨e0, e1, -⟩ := s1_idx t
  show (V c (Pipeline.arrRef spec1 0)) (((cfg1.win 0).blk t).view.emb (ix2 a b)) = _
  refine congrArg (V c (Pipeline.arrRef spec1 0)) (funext fun d => Fin.ext ?_)
  match d with
  | ⟨0, _⟩ => show win1_0.index t (0 : Fin 2) * 2000 + 1 * a.val = 2000 * t.val + a.val; rw [e0]; omega
  | ⟨1, _⟩ => show win1_0.index t (1 : Fin 2) * 128 + 1 * b.val = b.val; rw [e1]; omega

/-- Lane b of the bias operand's block, at every point, is lane b of the bias row. -/
theorem s1_in1_apply (c : Dev nD) (t : Fin cfg1.N) (b : Fin 128) :
    (iblk1 (F := Ideal) V c 1 t : Vec Ideal S1x128 .f32) (ix2 (0 : Fin 1) b) = ((V c (Pipeline.arrRef spec1 1)) : Mat 1 128) (ix2 (0 : Fin 1) b) := by
  obtain ⟨-, -, e2, e3, -⟩ := s1_idx t
  show (V c (Pipeline.arrRef spec1 1)) (((cfg1.win 1).blk t).view.emb (ix2 (0 : Fin 1) b)) = _
  refine congrArg (V c (Pipeline.arrRef spec1 1)) (funext fun d => Fin.ext ?_)
  match d with
  | ⟨0, _⟩ => show win1_1.index t (0 : Fin 2) * 1 + 1 * (0 : Fin 1).val = (0 : Fin 1).val; rw [e2]; omega
  | ⟨1, _⟩ => show win1_1.index t (1 : Fin 2) * 128 + 1 * b.val = b.val; rw [e3]; omega

/-- Entry (a, b) of the biased block at point t is entry (2000·t + a, b) of the row-biased matrix. -/
theorem s1_blk_entry (c : Dev nD) (t : Fin cfg1.N) (a : Fin 2000) (b : Fin 128) :
    k1_pay3 (F := Ideal) (iblk1 V c 0 t) (iblk1 V c 1 t) (ix2 a b) = s1_ext (fun r : Fin 50000 => (addRow (V c (Pipeline.arrRef spec1 0)) (V c (Pipeline.arrRef spec1 1))) (ix2 r b)) (2000 * t.val + a.val) := by
  have hlt : 2000 * t.val + a.val < 50000 := by have := s1_lt t; have := a.isLt; omega
  rw [s1_ext_of_lt _ _ hlt]
  refine (s1_pay3_apply (iblk1 V c 0 t) (iblk1 V c 1 t) a b).trans ?_
  exact congrArg₂ (· + ·) (s1_in0_apply V c t a b hlt) (s1_in1_apply V c t b)

/-- Column b of the biased block at point t, summed: rows 2000·t … 2000·t + 1999 of the row-biased matrix. -/
theorem s1_blk_sum (c : Dev nD) (t : Fin cfg1.N) (b : Fin 128) :
    ∑ a : Fin 2000, k1_pay3 (F := Ideal) (iblk1 V c 0 t) (iblk1 V c 1 t) (ix2 a b)
      = ∑ a ∈ Finset.range 2000, s1_ext (fun r : Fin 50000 => (addRow (V c (Pipeline.arrRef spec1 0)) (V c (Pipeline.arrRef spec1 1))) (ix2 r b)) (2000 * t.val + a) :=
  s1_sum_block (fun r : Fin 50000 => (addRow (V c (Pipeline.arrRef spec1 0)) (V c (Pipeline.arrRef spec1 1))) (ix2 r b)) t.val _ (fun a => s1_blk_entry V c t a b)

/-- The same for the squares. -/
theorem s1_blk_sumsq (c : Dev nD) (t : Fin cfg1.N) (b : Fin 128) :
    ∑ a : Fin 2000, k1_pay3 (F := Ideal) (iblk1 V c 0 t) (iblk1 V c 1 t) (ix2 a b) * k1_pay3 (F := Ideal) (iblk1 V c 0 t) (iblk1 V c 1 t) (ix2 a b)
      = ∑ a ∈ Finset.range 2000, s1_ext (fun r : Fin 50000 => (addRow (V c (Pipeline.arrRef spec1 0)) (V c (Pipeline.arrRef spec1 1))) (ix2 r b) * (addRow (V c (Pipeline.arrRef spec1 0)) (V c (Pipeline.arrRef spec1 1))) (ix2 r b)) (2000 * t.val + a) :=
  s1_sum_block (fun r : Fin 50000 => (addRow (V c (Pipeline.arrRef spec1 0)) (V c (Pipeline.arrRef spec1 1))) (ix2 r b) * (addRow (V c (Pipeline.arrRef spec1 0)) (V c (Pipeline.arrRef spec1 1))) (ix2 r b)) t.val _ (fun a => by
    rw [s1_blk_entry V c t a b]
    exact (s1_ext_sq (fun r : Fin 50000 => (addRow (V c (Pipeline.arrRef spec1 0)) (V c (Pipeline.arrRef spec1 1))) (ix2 r b)) (2000 * t.val + a.val)).symm)

/-! ## What the three outputs' buffers hold after each point -/

/-- After every point the first output's buffer holds the point's biased block. -/
theorem s1_out2 (c : Dev nD) (t : Fin cfg1.N) :
    (outsAt1 (F := Ideal) V c t.val t.isLt).1 = k1_pay3 (F := Ideal) (iblk1 V c 0 t) (iblk1 V c 1 t) := by
  by_cases h0 : t.val % 25 = 0
  · rw [outsAt1_A V c t h0]
    dsimp only
    exact s1_outA2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · rw [outsAt1_B V c t h0]
    dsimp only
    exact s1_outB2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 (F := Ideal) V c (t.val - 1) (Nat.lt_of_le_of_lt (Nat.sub_le _ _) t.isLt)).2.1 (outsAt1 (F := Ideal) V c (t.val - 1) (Nat.lt_of_le_of_lt (Nat.sub_le _ _) t.isLt)).2.2

/-- After point n the two accumulators hold, lane by lane, the sums over the rows below 2000·(n + 1) of the
    row-biased matrix's column and of its squares: by induction on the point. -/
theorem s1_sums (c : Dev nD) : ∀ (n : ℕ) (h : n < cfg1.N),
    (∀ b : Fin 128, (outsAt1 (F := Ideal) V c n h).2.1 (ix2 (0 : Fin 1) b)
        = ∑ r ∈ Finset.range (2000 * (n + 1)), s1_ext (fun r : Fin 50000 => (addRow (V c (Pipeline.arrRef spec1 0)) (V c (Pipeline.arrRef spec1 1))) (ix2 r b)) r)
    ∧ (∀ b : Fin 128, (outsAt1 (F := Ideal) V c n h).2.2 (ix2 (0 : Fin 1) b)
        = ∑ r ∈ Finset.range (2000 * (n + 1)), s1_ext (fun r : Fin 50000 => (addRow (V c (Pipeline.arrRef spec1 0)) (V c (Pipeline.arrRef spec1 1))) (ix2 r b) * (addRow (V c (Pipeline.arrRef spec1 0)) (V c (Pipeline.arrRef spec1 1))) (ix2 r b)) r)
  | 0, h => by
    rw [outsAt1_A V c ⟨0, h⟩ rfl]
    dsimp only
    constructor
    · intro b
      rw [s1_outA3 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩)]
      refine (s1_pay4_apply (iblk1 V c 0 ⟨0, h⟩) (iblk1 V c 1 ⟨0, h⟩) (k1_pay1 (F := Ideal)) b).trans ?_
      rw [s1_zero1_apply, s1_blk_sum V c ⟨0, h⟩ b]
      exact (s1_sum_first _).symm
    · intro b
      rw [s1_outA4 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩)]
      refine (s1_pay5_apply (iblk1 V c 0 ⟨0, h⟩) (iblk1 V c 1 ⟨0, h⟩) (k1_pay2 (F := Ideal)) b).trans ?_
      rw [s1_zero2_apply, s1_blk_sumsq V c ⟨0, h⟩ b]
      exact (s1_sum_first _).symm
  | n + 1, h => by
    have hN : cfg1.N = 25 := N_1
    have hB : ¬(⟨n + 1, h⟩ : Fin cfg1.N).val % 25 = 0 := by dsimp only; omega
    obtain ⟨ih3, ih4⟩ := s1_sums c n (Nat.lt_of_succ_lt h)
    rw [outsAt1_B V c ⟨n + 1, h⟩ hB]
    dsimp only
    constructor
    · intro b
      rw [s1_outB3 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩)]
      refine (s1_pay4_apply (iblk1 V c 0 ⟨n + 1, h⟩) (iblk1 V c 1 ⟨n + 1, h⟩) _ b).trans ?_
      rw [s1_blk_sum V c ⟨n + 1, h⟩ b, s1_sum_step]
      exact congrArg (· + _) (ih3 b)
    · intro b
      rw [s1_outB4 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩)]
      refine (s1_pay5_apply (iblk1 V c 0 ⟨n + 1, h⟩) (iblk1 V c 1 ⟨n + 1, h⟩) _ b).trans ?_
      rw [s1_blk_sumsq V c ⟨n + 1, h⟩ b, s1_sum_step]
      exact congrArg (· + _) (ih4 b)

/-! ## What is written back, and the arrays after the region -/

/-- What point t writes back of the first output is block t of the row-biased matrix. -/
theorem s1_flushed2 (c : Dev nD) (t : Fin cfg1.N) :
    (dat1 (F := Ideal) V c).flushed 2 t = ((cfg1.win 2).blk t).view.read (Elt Ideal) (addRow (V c (Pipeline.arrRef spec1 0)) (V c (Pipeline.arrRef spec1 1))) := by
  show (cfg1.win 2).cut (grid1.coords t) ((dat1 (F := Ideal) V c).after 2 t) = _
  rw [after1_2, s1_out2 V c t]
  obtain ⟨-, -, -, -, e4, e5, -⟩ := s1_idx t
  funext j
  have hj0 : (j 0).val < 2000 := (j 0).isLt
  have hlt : 2000 * t.val + (j 0).val < 50000 := by have := s1_lt t; omega
  have hj : j = ix2 (j 0) (j 1) := eq_ix2 j
  show k1_pay3 (F := Ideal) (iblk1 V c 0 t) (iblk1 V c 1 t) j = (addRow (V c (Pipeline.arrRef spec1 0)) (V c (Pipeline.arrRef spec1 1))) (((cfg1.win 2).blk t).view.emb j)
  have hemb : ((cfg1.win 2).blk t).view.emb j = (ix2 (⟨2000 * t.val + (j 0).val, hlt⟩ : Fin 50000) (j 1) : S50000x128.Idx) := by
    funext d; apply Fin.ext
    match d with
    | ⟨0, _⟩ => show win1_2.index t (0 : Fin 2) * 2000 + 1 * (j 0).val = 2000 * t.val + (j 0).val; rw [e4]; omega
    | ⟨1, _⟩ => show win1_2.index t (1 : Fin 2) * 128 + 1 * (j 1).val = (j 1).val; rw [e5]; omega
  rw [hemb]
  refine (congrArg (k1_pay3 (F := Ideal) (iblk1 V c 0 t) (iblk1 V c 1 t)) hj).trans ?_
  refine (s1_blk_entry V c t (j 0) (j 1)).trans ?_
  exact s1_ext_of_lt _ _ hlt

/-- A column sum depends on the index's lane only. -/
theorem s1_colSum_lane (G : Mat 50000 128) (i : S1x128.Idx) (b : Fin 128) (h : i 1 = b) :
    colSum G i = ∑ r : Fin 50000, G (ix2 r b) := by
  unfold colSum
  rw [h]

theorem s1_colSumSq_lane (G : Mat 50000 128) (i : S1x128.Idx) (b : Fin 128) (h : i 1 = b) :
    colSumSq G i = ∑ r : Fin 50000, G (ix2 r b) * G (ix2 r b) := by
  unfold colSumSq
  rw [h]

/-- After the last point the sum accumulator holds the column sums of the row-biased matrix: 2000·25 = 50000. -/
theorem s1_acc3_last (c : Dev nD) (t : Fin cfg1.N) (h24 : t.val = 24) :
    (outsAt1 (F := Ideal) V c t.val t.isLt).2.1 = (colSum (addRow (V c (Pipeline.arrRef spec1 0)) (V c (Pipeline.arrRef spec1 1)))) := by
  funext j
  obtain ⟨u, b, rfl⟩ : ∃ (u : Fin 1) (b : Fin 128), j = ix2 u b := ⟨j 0, j 1, eq_ix2 j⟩
  obtain rfl : u = 0 := Subsingleton.elim _ _
  rw [s1_colSum_lane (addRow (V c (Pipeline.arrRef spec1 0)) (V c (Pipeline.arrRef spec1 1))) (ix2 (0 : Fin 1) b) b rfl]
  refine ((s1_sums V c t.val t.isLt).1 b).trans ?_
  rw [h24, show 2000 * (24 + 1) = 50000 from rfl]
  exact (s1_sum_all _).symm

/-- The one write-back of that accumulator, after the last point: its block (0, 0) is the whole 1 × 128 array. -/
theorem s1_flushed3 (c : Dev nD) (t : Fin cfg1.N) (hf : (cfg1.win 3).flush t = true) :
    (dat1 (F := Ideal) V c).flushed 3 t = ((cfg1.win 3).blk t).view.read (Elt Ideal) (colSum (addRow (V c (Pipeline.arrRef spec1 0)) (V c (Pipeline.arrRef spec1 1)))) := by
  have h24 : t.val = 24 := by have := (flush1_3 t).mp hf; have := s1_lt t; omega
  show (cfg1.win 3).cut (grid1.coords t) ((dat1 (F := Ideal) V c).after 3 t) = _
  rw [after1_3, s1_acc3_last V c t h24]
  obtain ⟨-, -, -, -, -, -, e6, e7, -⟩ := s1_idx t
  have hz' : (fun a => win1_3.index t a * main_v16_1.ty.shape.size a) = fun _ => 0 := funext fun a => by
    match a with
    | ⟨0, _⟩ => show win1_3.index t (0 : Fin 2) * 1 = 0; rw [e6]
    | ⟨1, _⟩ => show win1_3.index t (1 : Fin 2) * 128 = 0; rw [e7]
  exact (Memref.read_access_unit_zero (Elt Ideal) main_v16_1 hz' (fun a => by rw [congrFun hz' a]; simp) (colSum (addRow (V c (Pipeline.arrRef spec1 0)) (V c (Pipeline.arrRef spec1 1))))).symm

/-- After the last point the sum-of-squares accumulator holds the column sums of squares of the row-biased matrix: 2000·25 = 50000. -/
theorem s1_acc4_last (c : Dev nD) (t : Fin cfg1.N) (h24 : t.val = 24) :
    (outsAt1 (F := Ideal) V c t.val t.isLt).2.2 = (colSumSq (addRow (V c (Pipeline.arrRef spec1 0)) (V c (Pipeline.arrRef spec1 1)))) := by
  funext j
  obtain ⟨u, b, rfl⟩ : ∃ (u : Fin 1) (b : Fin 128), j = ix2 u b := ⟨j 0, j 1, eq_ix2 j⟩
  obtain rfl : u = 0 := Subsingleton.elim _ _
  rw [s1_colSumSq_lane (addRow (V c (Pipeline.arrRef spec1 0)) (V c (Pipeline.arrRef spec1 1))) (ix2 (0 : Fin 1) b) b rfl]
  refine ((s1_sums V c t.val t.isLt).2 b).trans ?_
  rw [h24, show 2000 * (24 + 1) = 50000 from rfl]
  exact (s1_sum_all _).symm

/-- The one write-back of that accumulator, after the last point: its block (0, 0) is the whole 1 × 128 array. -/
theorem s1_flushed4 (c : Dev nD) (t : Fin cfg1.N) (hf : (cfg1.win 4).flush t = true) :
    (dat1 (F := Ideal) V c).flushed 4 t = ((cfg1.win 4).blk t).view.read (Elt Ideal) (colSumSq (addRow (V c (Pipeline.arrRef spec1 0)) (V c (Pipeline.arrRef spec1 1)))) := by
  have h24 : t.val = 24 := by have := (flush1_4 t).mp hf; have := s1_lt t; omega
  show (cfg1.win 4).cut (grid1.coords t) ((dat1 (F := Ideal) V c).after 4 t) = _
  rw [after1_4, s1_acc4_last V c t h24]
  obtain ⟨-, -, -, -, -, -, -, -, e8, e9⟩ := s1_idx t
  have hz' : (fun a => win1_4.index t a * main_v16_2.ty.shape.size a) = fun _ => 0 := funext fun a => by
    match a with
    | ⟨0, _⟩ => show win1_4.index t (0 : Fin 2) * 1 = 0; rw [e8]
    | ⟨1, _⟩ => show win1_4.index t (1 : Fin 2) * 128 = 0; rw [e9]
  exact (Memref.read_access_unit_zero (Elt Ideal) main_v16_2 hz' (fun a => by rw [congrFun hz' a]; simp) (colSumSq (addRow (V c (Pipeline.arrRef spec1 0)) (V c (Pipeline.arrRef spec1 1))))).symm

/-- An index of the first output's array is in point t's block iff each coordinate is in the block's range. -/
theorem s1_mem_blk2 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v16_0).slice (win1_2.rect t)).set ↔ _
  rw [View.set_slice_whole, Rect.mem_set_unit]
  exact Iff.rfl

theorem s1_mem_blk3 (t : Fin cfg1.N) (i : S1x128.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v16_1).slice (win1_3.rect t)).set ↔ _
  rw [View.set_slice_whole, Rect.mem_set_unit]
  exact Iff.rfl

theorem s1_mem_blk4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v16_2).slice (win1_4.rect t)).set ↔ _
  rw [View.set_slice_whole, Rect.mem_set_unit]
  exact Iff.rfl

/-- The last point. -/
theorem s1_last_lt : 24 < cfg1.N := by rw [show cfg1.N = 25 from N_1]; omega

end Values

/-- THE FIRST OUTPUT after the region: the 25 blocks tile the rows (row r is in block r / 2000), so the array is
    the matrix with the bias row added to every row. -/
theorem stats1_xb (V : (c : Dev nD) → (b : Ref sig .tc) → Buf (Elt Ideal) ((c : Thread nD τ).loc b)) (c : Dev nD) :
    (dat1 (F := Ideal) V c).arrAt 2 cfg1.N = addRow (V c (Pipeline.arrRef spec1 0)) (V c (Pipeline.arrRef spec1 1)) :=
  (dat1 (F := Ideal) V c).arrAt_eq_of_cover 2 (addRow (V c (Pipeline.arrRef spec1 0)) (V c (Pipeline.arrRef spec1 1))) (fun t _ => s1_flushed2 V c t) fun i => by
    have hi0 : (i 0).val < 50000 := (i 0).isLt
    have hi1 : (i 1).val < 128 := (i 1).isLt
    have hq : (i 0).val / 2000 < cfg1.N := by rw [show cfg1.N = 25 from N_1]; omega
    obtain ⟨-, -, -, -, e4, e5, -⟩ := s1_idx ⟨(i 0).val / 2000, hq⟩
    have e4' : win1_2.index ⟨(i 0).val / 2000, hq⟩ (0 : Fin 2) = (i 0).val / 2000 := e4
    refine ⟨⟨(i 0).val / 2000, hq⟩, flush1_2 _, ?_⟩
    rw [s1_mem_blk2]
    intro a
    match a with
    | ⟨0, _⟩ =>
      show win1_2.index ⟨(i 0).val / 2000, hq⟩ (0 : Fin 2) * 2000 ≤ (i 0).val ∧ (i 0).val < win1_2.index ⟨(i 0).val / 2000, hq⟩ (0 : Fin 2) * 2000 + 2000
      rw [e4']; omega
    | ⟨1, _⟩ =>
      show win1_2.index ⟨(i 0).val / 2000, hq⟩ (1 : Fin 2) * 128 ≤ (i 1).val ∧ (i 1).val < win1_2.index ⟨(i 0).val / 2000, hq⟩ (1 : Fin 2) * 128 + 128
      rw [e5]; omega

/-- THE SECOND OUTPUT after the region: its one block is the whole 1 × 128 array, written back after the last
    point, so the array is the column sums of the row-biased matrix. -/
theorem stats1_sum (V : (c : Dev nD) → (b : Ref sig .tc) → Buf (Elt Ideal) ((c : Thread nD τ).loc b)) (c : Dev nD) :
    (dat1 (F := Ideal) V c).arrAt 3 cfg1.N = colSum (addRow (V c (Pipeline.arrRef spec1 0)) (V c (Pipeline.arrRef spec1 1))) :=
  (dat1 (F := Ideal) V c).arrAt_eq_of_cover 3 (colSum (addRow (V c (Pipeline.arrRef spec1 0)) (V c (Pipeline.arrRef spec1 1)))) (fun t hf => s1_flushed3 V c t hf) fun i => by
    have hi0 : (i 0).val < 1 := (i 0).isLt
    have hi1 : (i 1).val < 128 := (i 1).isLt
    obtain ⟨-, -, -, -, -, -, e6, e7, -⟩ := s1_idx ⟨24, s1_last_lt⟩
    refine ⟨⟨24, s1_last_lt⟩, (flush1_3 _).mpr rfl, ?_⟩
    rw [s1_mem_blk3]
    intro a
    match a with
    | ⟨0, _⟩ =>
      show win1_3.index ⟨24, s1_last_lt⟩ (0 : Fin 2) * 1 ≤ (i 0).val ∧ (i 0).val < win1_3.index ⟨24, s1_last_lt⟩ (0 : Fin 2) * 1 + 1
      rw [e6]; omega
    | ⟨1, _⟩ =>
      show win1_3.index ⟨24, s1_last_lt⟩ (1 : Fin 2) * 128 ≤ (i 1).val ∧ (i 1).val < win1_3.index ⟨24, s1_last_lt⟩ (1 : Fin 2) * 128 + 128
      rw [e7]; omega

/-- THE THIRD OUTPUT after the region: likewise the column sums of squares of the row-biased matrix. -/
theorem stats1_sumsq (V : (c : Dev nD) → (b : Ref sig .tc) → Buf (Elt Ideal) ((c : Thread nD τ).loc b)) (c : Dev nD) :
    (dat1 (F := Ideal) V c).arrAt 4 cfg1.N = colSumSq (addRow (V c (Pipeline.arrRef spec1 0)) (V c (Pipeline.arrRef spec1 1))) :=
  (dat1 (F := Ideal) V c).arrAt_eq_of_cover 4 (colSumSq (addRow (V c (Pipeline.arrRef spec1 0)) (V c (Pipeline.arrRef spec1 1)))) (fun t hf => s1_flushed4 V c t hf) fun i => by
    have hi0 : (i 0).val < 1 := (i 0).isLt
    have hi1 : (i 1).val < 128 := (i 1).isLt
    obtain ⟨-, -, -, -, -, -, -, -, e8, e9⟩ := s1_idx ⟨24, s1_last_lt⟩
    refine ⟨⟨24, s1_last_lt⟩, (flush1_4 _).mpr rfl, ?_⟩
    rw [s1_mem_blk4]
    intro a
    match a with
    | ⟨0, _⟩ =>
      show win1_4.index ⟨24, s1_last_lt⟩ (0 : Fin 2) * 1 ≤ (i 0).val ∧ (i 0).val < win1_4.index ⟨24, s1_last_lt⟩ (0 : Fin 2) * 1 + 1
      rw [e8]; omega
    | ⟨1, _⟩ =>
      show win1_4.index ⟨24, s1_last_lt⟩ (1 : Fin 2) * 128 ≤ (i 1).val ∧ (i 1).val < win1_4.index ⟨24, s1_last_lt⟩ (1 : Fin 2) * 128 + 128
      rw [e9]; omega

end Cert.KernelIdeal.RegionValue

end
-- ==== Proof.Stats4.lean ====
/-
  Region 4 adds a bias row to every row of a 50000 × 128 matrix and accumulates the column sums and the
  column sums of squares of the result.

  The grid has 25 points; point t handles rows 2000·t … 2000·t + 1999. The biased matrix is written block by
  block: block t of the output is the biased block t of the input, and the 25 blocks tile the rows, so the
  output array is the row-biased matrix. The two 1 × 128 accumulators keep the constant block index: they are
  zeroed at the first point, every point adds to them the column sums (of squares) of its own biased block,
  and they are written back after the last point only. After point t they hold the sums over the rows below
  2000·(t + 1) — an induction over the point — and 2000·25 = 50000, so what is written back is the sum over
  every row. Sums over the extended reals are reordered freely (a commutative monoid); nothing is cancelled.
-/
import proofs.«161987_j51084341018872_1_alg».proof.Proof.Gen.KernelIdeal.Frame
import proofs.«161987_j51084341018872_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators

namespace Cert.KernelIdeal.RegionValue

open Cert.KernelIdeal Cert.KernelIdeal.Gen Cert.GcnSpec
open Idealize.ShloMosaic Idealize.ShloMosaic.TcCoe Idealize.ShloMosaic.Tactic Idealize.ShloMosaic.ValueIdx
open Idealize.SL.Sem
open Idealize.ShloMosaic.Pipeline (Dat)

section Pieces

variable {F : FTy → Type} [FloatOps F]

theorem s4_hz : (![0, 0] : Fin 2 → Nat) = fun _ => 0 := funext fun a => by fin_cases a <;> rfl

/-! ## What each case of the body leaves in the three outputs' buffers -/

/-- Not at the first point: the biased-block buffer holds the biased block. -/
theorem s4_outB2 (c : Dev nD) (i : grid4.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : ¬cond4_0 i)
    (x0 : Vec F S2000x128 .f32) (x1 : Vec F S1x128 .f32) (xo3 xo4 : Vec F S1x128 .f32) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  rw [View.canon_unit_zero s4_hz]
  simp only [View.readAt_eq_ld, h1.read_unread, h2.read_unread, View.ld_unit_zero (S := S2000x128) s4_hz, View.ld_unit_zero (S := S1x128) s4_hz]

/-- Not at the first point: the sum buffer, holding `xo3`, is left at `xo3` plus the block's column sums. -/
theorem s4_outB3 (c : Dev nD) (i : grid4.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : ¬cond4_0 i)
    (x0 : Vec F S2000x128 .f32) (x1 : Vec F S1x128 .f32) (xo3 xo4 : Vec F S1x128 .f32) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  rw [View.canon_unit_zero s4_hz]
  simp only [View.readAt_eq_ld, h1.read_unread, h2.read_unread, h4.read_unread, View.ld_unit_zero (S := S2000x128) s4_hz, View.ld_unit_zero (S := S1x128) s4_hz]

/-- Not at the first point: the sum-of-squares buffer, holding `xo4`, is left at `xo4` plus the block's column sums of squares. -/
theorem s4_outB4 (c : Dev nD) (i : grid4.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : ¬cond4_0 i)
    (x0 : Vec F S2000x128 .f32) (x1 : Vec F S1x128 .f32) (xo3 xo4 : Vec F S1x128 .f32) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  rw [View.canon_unit_zero s4_hz]
  simp only [View.readAt_eq_ld, h1.read_unread, h2.read_unread, h5.read_unread, View.ld_unit_zero (S := S2000x128) s4_hz, View.ld_unit_zero (S := S1x128) s4_hz]

/-- At the first point: the biased-block buffer holds the biased block. -/
theorem s4_outA2 (c : Dev nD) (i : grid4.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : cond4_0 i)
    (x0 : Vec F S2000x128 .f32) (x1 : Vec F S1x128 .f32) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  rw [View.canon_unit_zero s4_hz]
  simp only [View.readAt_eq_ld, h1.read_unread, h2.read_unread, View.ld_unit_zero (S := S2000x128) s4_hz, View.ld_unit_zero (S := S1x128) s4_hz]

/-- At the first point: the sum buffer is zeroed, read back, and left at zero plus the block's column sums. -/
theorem s4_outA3 (c : Dev nD) (i : grid4.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : cond4_0 i)
    (x0 : Vec F S2000x128 .f32) (x1 : Vec F S1x128 .f32) :
    out4_A_3 c i a1 h1 a2 h2 a3 h3 a4 h4 a5 h5 hc x0 x1 = k4_pay4 x0 x1 (k4_pay1 (F := F)) := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x128) s4_hz, View.readCov_unit_zero (S := S1x128) _ s4_hz]
  simp only [View.readAt_eq_ld, h1.read_unread, h2.read_unread, View.ld_unit_zero (S := S2000x128) s4_hz, View.ld_unit_zero (S := S1x128) s4_hz]

/-- At the first point: the sum-of-squares buffer is zeroed, read back, and left at zero plus the block's column sums of squares. -/
theorem s4_outA4 (c : Dev nD) (i : grid4.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc : cond4_0 i)
    (x0 : Vec F S2000x128 .f32) (x1 : Vec F S1x128 .f32) :
    out4_A_4 c i a1 h1 a2 h2 a3 h3 a4 h4 a5 h5 hc x0 x1 = k4_pay5 x0 x1 (k4_pay2 (F := F)) := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x128) s4_hz, View.readCov_unit_zero (S := S1x128) _ s4_hz]
  simp only [View.readAt_eq_ld, h1.read_unread, h2.read_unread, View.ld_unit_zero (S := S2000x128) s4_hz, View.ld_unit_zero (S := S1x128) s4_hz]

end Pieces

/-! ## The payloads at an entry, over the extended reals -/

section Payloads

variable {F : FTy → Type} [FloatOps F]

theorem s4_pay3_eq (x0 : Vec F S2000x128 .f32) (x1 : Vec F S1x128 .f32) :
    k4_pay3 x0 x1 = addf x0 (broadcastTo S2000x128 x1 broadcasts_S1x128_S2000x128) := by
  unfold k4_pay3
  simp only [shapeCast_self]

theorem s4_pay4_eq (x0 : Vec F S2000x128 .f32) (x1 acc : Vec F S1x128 .f32) :
    k4_pay4 x0 x1 acc = addf acc (shapeCast S1x128 (multiReduction .add [0] S128 (k4_pay3 x0 x1) 0x00000000#32
      reduces_S2000x128_S128 (.inl rfl) rfl) shapeCasts_S128_S1x128) := by
  unfold k4_pay4
  simp only [shapeCast_self]

theorem s4_pay5_eq (x0 : Vec F S2000x128 .f32) (x1 acc : Vec F S1x128 .f32) :
    k4_pay5 x0 x1 acc = addf acc (shapeCast S1x128 (multiReduction .add [0] S128 (mulf (k4_pay3 x0 x1) (k4_pay3 x0 x1)) 0x00000000#32
      reduces_S2000x128_S128 (.inl rfl) rfl) shapeCasts_S128_S1x128) := by
  unfold k4_pay5
  simp only [shapeCast_self]

end Payloads

/-- Lane `b` of the reduced row with row `k` put back is entry (k, b) of the block. -/
theorem s4_lift (b : Fin 128) (k : Fin 2000) :
    reduces_S2000x128_S128.lift (ix1 b) k = (ix2 k b : S2000x128.Idx) := by
  funext a
  match a with
  | ⟨0, _⟩ => rfl
  | ⟨1, _⟩ => rfl

/-- The biased block at (a, b): the block's entry plus the bias row's lane. -/
theorem s4_pay3_apply (x0 : Vec Ideal S2000x128 .f32) (x1 : Vec Ideal S1x128 .f32) (a : Fin 2000) (b : Fin 128) :
    k4_pay3 (F := Ideal) x0 x1 (ix2 a b) = x0 (ix2 a b) + x1 (ix2 (0 : Fin 1) b) := by
  rw [s4_pay3_eq]
  exact congrArg (x0 (ix2 a b) + ·) (broadcastTo_1b_ab_apply x1 broadcasts_S1x128_S2000x128 a b)

/-- The sum accumulator's lane `b` after a point: what it held plus the sum of the biased block's column `b`. -/
theorem s4_pay4_apply (x0 : Vec Ideal S2000x128 .f32) (x1 acc : Vec Ideal S1x128 .f32) (b : Fin 128) :
    k4_pay4 (F := Ideal) x0 x1 acc (ix2 (0 : Fin 1) b)
      = acc (ix2 (0 : Fin 1) b) + ∑ a : Fin 2000, k4_pay3 (F := Ideal) x0 x1 (ix2 a b) := by
  rw [s4_pay4_eq]
  refine congrArg (acc (ix2 (0 : Fin 1) b) + ·) ?_
  refine (shapeCast_a_1a_apply _ shapeCasts_S128_S1x128 (0 : Fin 1) b).trans ?_
  refine (Ideal.multiReduction_add_single (k4_pay3 (F := Ideal) x0 x1) 0x00000000#32 reduces_S2000x128_S128 (.inl rfl) rfl (ix1 b)).trans ?_
  exact Finset.sum_congr rfl fun k _ => congrArg _ (s4_lift b k)

/-- The sum-of-squares accumulator's lane `b` after a point: what it held plus the sum of the squares of the biased block's column `b`. -/
theorem s4_pay5_apply (x0 : Vec Ideal S2000x128 .f32) (x1 acc : Vec Ideal S1x128 .f32) (b : Fin 128) :
    k4_pay5 (F := Ideal) x0 x1 acc (ix2 (0 : Fin 1) b)
      = acc (ix2 (0 : Fin 1) b) + ∑ a : Fin 2000, k4_pay3 (F := Ideal) x0 x1 (ix2 a b) * k4_pay3 (F := Ideal) x0 x1 (ix2 a b) := by
  rw [s4_pay5_eq]
  refine congrArg (acc (ix2 (0 : Fin 1) b) + ·) ?_
  refine (shapeCast_a_1a_apply _ shapeCasts_S128_S1x128 (0 : Fin 1) b).trans ?_
  refine (Ideal.multiReduction_add_single (mulf (k4_pay3 (F := Ideal) x0 x1) (k4_pay3 (F := Ideal) x0 x1)) 0x00000000#32 reduces_S2000x128_S128 (.inl rfl) rfl (ix1 b)).trans ?_
  exact Finset.sum_congr rfl fun k _ => congrArg (fun j => k4_pay3 (F := Ideal) x0 x1 j * k4_pay3 (F := Ideal) x0 x1 j) (s4_lift b k)

/-- The two zero rows the first point stores are zero. -/
theorem s4_zero1_apply (j : S1x128.Idx) : k4_pay1 (F := Ideal) j = 0 := Ideal.ofBits_zero_f32
theorem s4_zero2_apply (j : S1x128.Idx) : k4_pay2 (F := Ideal) j = 0 := Ideal.ofBits_zero_f32

/-! ## A sum over 50000 rows as 25 blocks of 2000 -/

/-- A sequence of 50000 extended reals continued by zeros. -/
def s4_ext (g : Fin 50000 → EReal) (r : ℕ) : EReal := if h : r < 50000 then g ⟨r, h⟩ else 0

theorem s4_ext_of_lt (g : Fin 50000 → EReal) (r : ℕ) (h : r < 50000) : s4_ext g r = g ⟨r, h⟩ := dif_pos h

/-- The continued sequence of the squares is the square of the continued sequence. -/
theorem s4_ext_sq (f : Fin 50000 → EReal) (r : ℕ) : s4_ext (fun k => f k * f k) r = s4_ext f r * s4_ext f r := by
  unfold s4_ext
  split
  · rfl
  · exact (mul_zero (0 : EReal)).symm

/-- The sum over all rows is the sum of the continued sequence below 50000. -/
theorem s4_sum_all (g : Fin 50000 → EReal) : ∑ r : Fin 50000, g r = ∑ r ∈ Finset.range 50000, s4_ext g r := by
  rw [Finset.sum_range]
  exact Finset.sum_congr rfl fun r _ => (s4_ext_of_lt g r.val r.isLt).symm

/-- A block of 2000 consecutive rows, summed over its own coordinate. -/
theorem s4_sum_block (g : Fin 50000 → EReal) (n : ℕ) (blk : Fin 2000 → EReal)
    (hblk : ∀ a : Fin 2000, blk a = s4_ext g (2000 * n + a.val)) :
    ∑ a : Fin 2000, blk a = ∑ a ∈ Finset.range 2000, s4_ext g (2000 * n + a) := by
  rw [Finset.sum_range]
  exact Finset.sum_congr rfl fun a _ => hblk a

/-- The rows below 2000·(n + 1) are the rows below 2000·n and block n. -/
theorem s4_sum_step (g : Fin 50000 → EReal) (n : ℕ) :
    ∑ r ∈ Finset.range (2000 * (n + 1)), s4_ext g r
      = ∑ r ∈ Finset.range (2000 * n), s4_ext g r + ∑ a ∈ Finset.range 2000, s4_ext g (2000 * n + a) := by
  rw [show 2000 * (n + 1) = 2000 * n + 2000 from by ring, Finset.sum_range_add]

/-- The rows below 2000 are block 0, added to zero. -/
theorem s4_sum_first (g : Fin 50000 → EReal) :
    ∑ r ∈ Finset.range (2000 * (0 + 1)), s4_ext g r = 0 + ∑ a ∈ Finset.range 2000, s4_ext g (2000 * 0 + a) := by
  rw [s4_sum_step, Nat.mul_zero, Finset.range_zero, Finset.sum_empty]

/-! ## The blocks of the operands -/

section Values

variable (V : (c : Dev nD) → (b : Ref sig .tc) → Buf (Elt Ideal) ((c : Thread nD τ).loc b))

/-- The printed index maps over the grid: the two 2000-row windows move with the point along the rows, the
    1 × 128 windows stay at block (0, 0). -/
theorem s4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem s4_lt (t : Fin cfg4.N) : t.val < 25 := lt_of_lt_of_eq t.isLt (show cfg4.N = 25 from N_4)

/-- Entry (a, b) of the matrix operand's block at point t is entry (2000·t + a, b) of the matrix. -/
theorem s4_in0_apply (c : Dev nD) (t : Fin cfg4.N) (a : Fin 2000) (b : Fin 128) (h : 2000 * t.val + a.val < 50000) :
    (iblk4 (F := Ideal) V c 0 t : Vec Ideal S2000x128 .f32) (ix2 a b) = ((V c (Pipeline.arrRef spec4 0)) : Mat 50000 128) (ix2 ⟨2000 * t.val + a.val, h⟩ b) := by
  obtain ⟨e0, e1, -⟩ := s4_idx t
  show (V c (Pipeline.arrRef spec4 0)) (((cfg4.win 0).blk t).view.emb (ix2 a b)) = _
  refine congrArg (V c (Pipeline.arrRef spec4 0)) (funext fun d => Fin.ext ?_)
  match d with
  | ⟨0, _⟩ => show win4_0.index t (0 : Fin 2) * 2000 + 1 * a.val = 2000 * t.val + a.val; rw [e0]; omega
  | ⟨1, _⟩ => show win4_0.index t (1 : Fin 2) * 128 + 1 * b.val = b.val; rw [e1]; omega

/-- Lane b of the bias operand's block, at every point, is lane b of the bias row. -/
theorem s4_in1_apply (c : Dev nD) (t : Fin cfg4.N) (b : Fin 128) :
    (iblk4 (F := Ideal) V c 1 t : Vec Ideal S1x128 .f32) (ix2 (0 : Fin 1) b) = ((V c (Pipeline.arrRef spec4 1)) : Mat 1 128) (ix2 (0 : Fin 1) b) := by
  obtain ⟨-, -, e2, e3, -⟩ := s4_idx t
  show (V c (Pipeline.arrRef spec4 1)) (((cfg4.win 1).blk t).view.emb (ix2 (0 : Fin 1) b)) = _
  refine congrArg (V c (Pipeline.arrRef spec4 1)) (funext fun d => Fin.ext ?_)
  match d with
  | ⟨0, _⟩ => show win4_1.index t (0 : Fin 2) * 1 + 1 * (0 : Fin 1).val = (0 : Fin 1).val; rw [e2]; omega
  | ⟨1, _⟩ => show win4_1.index t (1 : Fin 2) * 128 + 1 * b.val = b.val; rw [e3]; omega

/-- Entry (a, b) of the biased block at point t is entry (2000·t + a, b) of the row-biased matrix. -/
theorem s4_blk_entry (c : Dev nD) (t : Fin cfg4.N) (a : Fin 2000) (b : Fin 128) :
    k4_pay3 (F := Ideal) (iblk4 V c 0 t) (iblk4 V c 1 t) (ix2 a b) = s4_ext (fun r : Fin 50000 => (addRow (V c (Pipeline.arrRef spec4 0)) (V c (Pipeline.arrRef spec4 1))) (ix2 r b)) (2000 * t.val + a.val) := by
  have hlt : 2000 * t.val + a.val < 50000 := by have := s4_lt t; have := a.isLt; omega
  rw [s4_ext_of_lt _ _ hlt]
  refine (s4_pay3_apply (iblk4 V c 0 t) (iblk4 V c 1 t) a b).trans ?_
  exact congrArg₂ (· + ·) (s4_in0_apply V c t a b hlt) (s4_in1_apply V c t b)

/-- Column b of the biased block at point t, summed: rows 2000·t … 2000·t + 1999 of the row-biased matrix. -/
theorem s4_blk_sum (c : Dev nD) (t : Fin cfg4.N) (b : Fin 128) :
    ∑ a : Fin 2000, k4_pay3 (F := Ideal) (iblk4 V c 0 t) (iblk4 V c 1 t) (ix2 a b)
      = ∑ a ∈ Finset.range 2000, s4_ext (fun r : Fin 50000 => (addRow (V c (Pipeline.arrRef spec4 0)) (V c (Pipeline.arrRef spec4 1))) (ix2 r b)) (2000 * t.val + a) :=
  s4_sum_block (fun r : Fin 50000 => (addRow (V c (Pipeline.arrRef spec4 0)) (V c (Pipeline.arrRef spec4 1))) (ix2 r b)) t.val _ (fun a => s4_blk_entry V c t a b)

/-- The same for the squares. -/
theorem s4_blk_sumsq (c : Dev nD) (t : Fin cfg4.N) (b : Fin 128) :
    ∑ a : Fin 2000, k4_pay3 (F := Ideal) (iblk4 V c 0 t) (iblk4 V c 1 t) (ix2 a b) * k4_pay3 (F := Ideal) (iblk4 V c 0 t) (iblk4 V c 1 t) (ix2 a b)
      = ∑ a ∈ Finset.range 2000, s4_ext (fun r : Fin 50000 => (addRow (V c (Pipeline.arrRef spec4 0)) (V c (Pipeline.arrRef spec4 1))) (ix2 r b) * (addRow (V c (Pipeline.arrRef spec4 0)) (V c (Pipeline.arrRef spec4 1))) (ix2 r b)) (2000 * t.val + a) :=
  s4_sum_block (fun r : Fin 50000 => (addRow (V c (Pipeline.arrRef spec4 0)) (V c (Pipeline.arrRef spec4 1))) (ix2 r b) * (addRow (V c (Pipeline.arrRef spec4 0)) (V c (Pipeline.arrRef spec4 1))) (ix2 r b)) t.val _ (fun a => by
    rw [s4_blk_entry V c t a b]
    exact (s4_ext_sq (fun r : Fin 50000 => (addRow (V c (Pipeline.arrRef spec4 0)) (V c (Pipeline.arrRef spec4 1))) (ix2 r b)) (2000 * t.val + a.val)).symm)

/-! ## What the three outputs' buffers hold after each point -/

/-- After every point the first output's buffer holds the point's biased block. -/
theorem s4_out2 (c : Dev nD) (t : Fin cfg4.N) :
    (outsAt4 (F := Ideal) V c t.val t.isLt).1 = k4_pay3 (F := Ideal) (iblk4 V c 0 t) (iblk4 V c 1 t) := by
  by_cases h0 : t.val % 25 = 0
  · rw [outsAt4_A V c t h0]
    dsimp only
    exact s4_outA2 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  · rw [outsAt4_B V c t h0]
    dsimp only
    exact s4_outB2 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 (F := Ideal) V c (t.val - 1) (Nat.lt_of_le_of_lt (Nat.sub_le _ _) t.isLt)).2.1 (outsAt4 (F := Ideal) V c (t.val - 1) (Nat.lt_of_le_of_lt (Nat.sub_le _ _) t.isLt)).2.2

/-- After point n the two accumulators hold, lane by lane, the sums over the rows below 2000·(n + 1) of the
    row-biased matrix's column and of its squares: by induction on the point. -/
theorem s4_sums (c : Dev nD) : ∀ (n : ℕ) (h : n < cfg4.N),
    (∀ b : Fin 128, (outsAt4 (F := Ideal) V c n h).2.1 (ix2 (0 : Fin 1) b)
        = ∑ r ∈ Finset.range (2000 * (n + 1)), s4_ext (fun r : Fin 50000 => (addRow (V c (Pipeline.arrRef spec4 0)) (V c (Pipeline.arrRef spec4 1))) (ix2 r b)) r)
    ∧ (∀ b : Fin 128, (outsAt4 (F := Ideal) V c n h).2.2 (ix2 (0 : Fin 1) b)
        = ∑ r ∈ Finset.range (2000 * (n + 1)), s4_ext (fun r : Fin 50000 => (addRow (V c (Pipeline.arrRef spec4 0)) (V c (Pipeline.arrRef spec4 1))) (ix2 r b) * (addRow (V c (Pipeline.arrRef spec4 0)) (V c (Pipeline.arrRef spec4 1))) (ix2 r b)) r)
  | 0, h => by
    rw [outsAt4_A V c ⟨0, h⟩ rfl]
    dsimp only
    constructor
    · intro b
      rw [s4_outA3 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) ((hcond4_0 ⟨0, h⟩).mpr rfl) (iblk4 V c 0 ⟨0, h⟩) (iblk4 V c 1 ⟨0, h⟩)]
      refine (s4_pay4_apply (iblk4 V c 0 ⟨0, h⟩) (iblk4 V c 1 ⟨0, h⟩) (k4_pay1 (F := Ideal)) b).trans ?_
      rw [s4_zero1_apply, s4_blk_sum V c ⟨0, h⟩ b]
      exact (s4_sum_first _).symm
    · intro b
      rw [s4_outA4 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) ((hcond4_0 ⟨0, h⟩).mpr rfl) (iblk4 V c 0 ⟨0, h⟩) (iblk4 V c 1 ⟨0, h⟩)]
      refine (s4_pay5_apply (iblk4 V c 0 ⟨0, h⟩) (iblk4 V c 1 ⟨0, h⟩) (k4_pay2 (F := Ideal)) b).trans ?_
      rw [s4_zero2_apply, s4_blk_sumsq V c ⟨0, h⟩ b]
      exact (s4_sum_first _).symm
  | n + 1, h => by
    have hN : cfg4.N = 25 := N_4
    have hB : ¬(⟨n + 1, h⟩ : Fin cfg4.N).val % 25 = 0 := by dsimp only; omega
    obtain ⟨ih3, ih4⟩ := s4_sums c n (Nat.lt_of_succ_lt h)
    rw [outsAt4_B V c ⟨n + 1, h⟩ hB]
    dsimp only
    constructor
    · intro b
      rw [s4_outB3 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (fun hh => hB ((hcond4_0 ⟨n + 1, h⟩).mp hh)) (iblk4 V c 0 ⟨n + 1, h⟩) (iblk4 V c 1 ⟨n + 1, h⟩)]
      refine (s4_pay4_apply (iblk4 V c 0 ⟨n + 1, h⟩) (iblk4 V c 1 ⟨n + 1, h⟩) _ b).trans ?_
      rw [s4_blk_sum V c ⟨n + 1, h⟩ b, s4_sum_step]
      exact congrArg (· + _) (ih3 b)
    · intro b
      rw [s4_outB4 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (fun hh => hB ((hcond4_0 ⟨n + 1, h⟩).mp hh)) (iblk4 V c 0 ⟨n + 1, h⟩) (iblk4 V c 1 ⟨n + 1, h⟩)]
      refine (s4_pay5_apply (iblk4 V c 0 ⟨n + 1, h⟩) (iblk4 V c 1 ⟨n + 1, h⟩) _ b).trans ?_
      rw [s4_blk_sumsq V c ⟨n + 1, h⟩ b, s4_sum_step]
      exact congrArg (· + _) (ih4 b)

/-! ## What is written back, and the arrays after the region -/

/-- What point t writes back of the first output is block t of the row-biased matrix. -/
theorem s4_flushed2 (c : Dev nD) (t : Fin cfg4.N) :
    (dat4 (F := Ideal) V c).flushed 2 t = ((cfg4.win 2).blk t).view.read (Elt Ideal) (addRow (V c (Pipeline.arrRef spec4 0)) (V c (Pipeline.arrRef spec4 1))) := by
  show (cfg4.win 2).cut (grid4.coords t) ((dat4 (F := Ideal) V c).after 2 t) = _
  rw [after4_2, s4_out2 V c t]
  obtain ⟨-, -, -, -, e4, e5, -⟩ := s4_idx t
  funext j
  have hj0 : (j 0).val < 2000 := (j 0).isLt
  have hlt : 2000 * t.val + (j 0).val < 50000 := by have := s4_lt t; omega
  have hj : j = ix2 (j 0) (j 1) := eq_ix2 j
  show k4_pay3 (F := Ideal) (iblk4 V c 0 t) (iblk4 V c 1 t) j = (addRow (V c (Pipeline.arrRef spec4 0)) (V c (Pipeline.arrRef spec4 1))) (((cfg4.win 2).blk t).view.emb j)
  have hemb : ((cfg4.win 2).blk t).view.emb j = (ix2 (⟨2000 * t.val + (j 0).val, hlt⟩ : Fin 50000) (j 1) : S50000x128.Idx) := by
    funext d; apply Fin.ext
    match d with
    | ⟨0, _⟩ => show win4_2.index t (0 : Fin 2) * 2000 + 1 * (j 0).val = 2000 * t.val + (j 0).val; rw [e4]; omega
    | ⟨1, _⟩ => show win4_2.index t (1 : Fin 2) * 128 + 1 * (j 1).val = (j 1).val; rw [e5]; omega
  rw [hemb]
  refine (congrArg (k4_pay3 (F := Ideal) (iblk4 V c 0 t) (iblk4 V c 1 t)) hj).trans ?_
  refine (s4_blk_entry V c t (j 0) (j 1)).trans ?_
  exact s4_ext_of_lt _ _ hlt

/-- A column sum depends on the index's lane only. -/
theorem s4_colSum_lane (G : Mat 50000 128) (i : S1x128.Idx) (b : Fin 128) (h : i 1 = b) :
    colSum G i = ∑ r : Fin 50000, G (ix2 r b) := by
  unfold colSum
  rw [h]

theorem s4_colSumSq_lane (G : Mat 50000 128) (i : S1x128.Idx) (b : Fin 128) (h : i 1 = b) :
    colSumSq G i = ∑ r : Fin 50000, G (ix2 r b) * G (ix2 r b) := by
  unfold colSumSq
  rw [h]

/-- After the last point the sum accumulator holds the column sums of the row-biased matrix: 2000·25 = 50000. -/
theorem s4_acc3_last (c : Dev nD) (t : Fin cfg4.N) (h24 : t.val = 24) :
    (outsAt4 (F := Ideal) V c t.val t.isLt).2.1 = (colSum (addRow (V c (Pipeline.arrRef spec4 0)) (V c (Pipeline.arrRef spec4 1)))) := by
  funext j
  obtain ⟨u, b, rfl⟩ : ∃ (u : Fin 1) (b : Fin 128), j = ix2 u b := ⟨j 0, j 1, eq_ix2 j⟩
  obtain rfl : u = 0 := Subsingleton.elim _ _
  rw [s4_colSum_lane (addRow (V c (Pipeline.arrRef spec4 0)) (V c (Pipeline.arrRef spec4 1))) (ix2 (0 : Fin 1) b) b rfl]
  refine ((s4_sums V c t.val t.isLt).1 b).trans ?_
  rw [h24, show 2000 * (24 + 1) = 50000 from rfl]
  exact (s4_sum_all _).symm

/-- The one write-back of that accumulator, after the last point: its block (0, 0) is the whole 1 × 128 array. -/
theorem s4_flushed3 (c : Dev nD) (t : Fin cfg4.N) (hf : (cfg4.win 3).flush t = true) :
    (dat4 (F := Ideal) V c).flushed 3 t = ((cfg4.win 3).blk t).view.read (Elt Ideal) (colSum (addRow (V c (Pipeline.arrRef spec4 0)) (V c (Pipeline.arrRef spec4 1)))) := by
  have h24 : t.val = 24 := by have := (flush4_3 t).mp hf; have := s4_lt t; omega
  show (cfg4.win 3).cut (grid4.coords t) ((dat4 (F := Ideal) V c).after 3 t) = _
  rw [after4_3, s4_acc3_last V c t h24]
  obtain ⟨-, -, -, -, -, -, e6, e7, -⟩ := s4_idx t
  have hz' : (fun a => win4_3.index t a * main_v45_1.ty.shape.size a) = fun _ => 0 := funext fun a => by
    match a with
    | ⟨0, _⟩ => show win4_3.index t (0 : Fin 2) * 1 = 0; rw [e6]
    | ⟨1, _⟩ => show win4_3.index t (1 : Fin 2) * 128 = 0; rw [e7]
  exact (Memref.read_access_unit_zero (Elt Ideal) main_v45_1 hz' (fun a => by rw [congrFun hz' a]; simp) (colSum (addRow (V c (Pipeline.arrRef spec4 0)) (V c (Pipeline.arrRef spec4 1))))).symm

/-- After the last point the sum-of-squares accumulator holds the column sums of squares of the row-biased matrix: 2000·25 = 50000. -/
theorem s4_acc4_last (c : Dev nD) (t : Fin cfg4.N) (h24 : t.val = 24) :
    (outsAt4 (F := Ideal) V c t.val t.isLt).2.2 = (colSumSq (addRow (V c (Pipeline.arrRef spec4 0)) (V c (Pipeline.arrRef spec4 1)))) := by
  funext j
  obtain ⟨u, b, rfl⟩ : ∃ (u : Fin 1) (b : Fin 128), j = ix2 u b := ⟨j 0, j 1, eq_ix2 j⟩
  obtain rfl : u = 0 := Subsingleton.elim _ _
  rw [s4_colSumSq_lane (addRow (V c (Pipeline.arrRef spec4 0)) (V c (Pipeline.arrRef spec4 1))) (ix2 (0 : Fin 1) b) b rfl]
  refine ((s4_sums V c t.val t.isLt).2 b).trans ?_
  rw [h24, show 2000 * (24 + 1) = 50000 from rfl]
  exact (s4_sum_all _).symm

/-- The one write-back of that accumulator, after the last point: its block (0, 0) is the whole 1 × 128 array. -/
theorem s4_flushed4 (c : Dev nD) (t : Fin cfg4.N) (hf : (cfg4.win 4).flush t = true) :
    (dat4 (F := Ideal) V c).flushed 4 t = ((cfg4.win 4).blk t).view.read (Elt Ideal) (colSumSq (addRow (V c (Pipeline.arrRef spec4 0)) (V c (Pipeline.arrRef spec4 1)))) := by
  have h24 : t.val = 24 := by have := (flush4_4 t).mp hf; have := s4_lt t; omega
  show (cfg4.win 4).cut (grid4.coords t) ((dat4 (F := Ideal) V c).after 4 t) = _
  rw [after4_4, s4_acc4_last V c t h24]
  obtain ⟨-, -, -, -, -, -, -, -, e8, e9⟩ := s4_idx t
  have hz' : (fun a => win4_4.index t a * main_v45_2.ty.shape.size a) = fun _ => 0 := funext fun a => by
    match a with
    | ⟨0, _⟩ => show win4_4.index t (0 : Fin 2) * 1 = 0; rw [e8]
    | ⟨1, _⟩ => show win4_4.index t (1 : Fin 2) * 128 = 0; rw [e9]
  exact (Memref.read_access_unit_zero (Elt Ideal) main_v45_2 hz' (fun a => by rw [congrFun hz' a]; simp) (colSumSq (addRow (V c (Pipeline.arrRef spec4 0)) (V c (Pipeline.arrRef spec4 1))))).symm

/-- An index of the first output's array is in point t's block iff each coordinate is in the block's range. -/
theorem s4_mem_blk2 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v45_0).slice (win4_2.rect t)).set ↔ _
  rw [View.set_slice_whole, Rect.mem_set_unit]
  exact Iff.rfl

theorem s4_mem_blk3 (t : Fin cfg4.N) (i : S1x128.Idx) :
    i ∈ ((cfg4.win 3).blk t).view.set ↔ ∀ a : Fin 2, win4_3.index t a * S1x128.size a ≤ (i a).val ∧ (i a).val < win4_3.index t a * S1x128.size a + S1x128.size a := by
  show i ∈ ((View.whole main_v45_1).slice (win4_3.rect t)).set ↔ _
  rw [View.set_slice_whole, Rect.mem_set_unit]
  exact Iff.rfl

theorem s4_mem_blk4 (t : Fin cfg4.N) (i : S1x128.Idx) :
    i ∈ ((cfg4.win 4).blk t).view.set ↔ ∀ a : Fin 2, win4_4.index t a * S1x128.size a ≤ (i a).val ∧ (i a).val < win4_4.index t a * S1x128.size a + S1x128.size a := by
  show i ∈ ((View.whole main_v45_2).slice (win4_4.rect t)).set ↔ _
  rw [View.set_slice_whole, Rect.mem_set_unit]
  exact Iff.rfl

/-- The last point. -/
theorem s4_last_lt : 24 < cfg4.N := by rw [show cfg4.N = 25 from N_4]; omega

end Values

/-- THE FIRST OUTPUT after the region: the 25 blocks tile the rows (row r is in block r / 2000), so the array is
    the matrix with the bias row added to every row. -/
theorem stats4_xb (V : (c : Dev nD) → (b : Ref sig .tc) → Buf (Elt Ideal) ((c : Thread nD τ).loc b)) (c : Dev nD) :
    (dat4 (F := Ideal) V c).arrAt 2 cfg4.N = addRow (V c (Pipeline.arrRef spec4 0)) (V c (Pipeline.arrRef spec4 1)) :=
  (dat4 (F := Ideal) V c).arrAt_eq_of_cover 2 (addRow (V c (Pipeline.arrRef spec4 0)) (V c (Pipeline.arrRef spec4 1))) (fun t _ => s4_flushed2 V c t) fun i => by
    have hi0 : (i 0).val < 50000 := (i 0).isLt
    have hi1 : (i 1).val < 128 := (i 1).isLt
    have hq : (i 0).val / 2000 < cfg4.N := by rw [show cfg4.N = 25 from N_4]; omega
    obtain ⟨-, -, -, -, e4, e5, -⟩ := s4_idx ⟨(i 0).val / 2000, hq⟩
    have e4' : win4_2.index ⟨(i 0).val / 2000, hq⟩ (0 : Fin 2) = (i 0).val / 2000 := e4
    refine ⟨⟨(i 0).val / 2000, hq⟩, flush4_2 _, ?_⟩
    rw [s4_mem_blk2]
    intro a
    match a with
    | ⟨0, _⟩ =>
      show win4_2.index ⟨(i 0).val / 2000, hq⟩ (0 : Fin 2) * 2000 ≤ (i 0).val ∧ (i 0).val < win4_2.index ⟨(i 0).val / 2000, hq⟩ (0 : Fin 2) * 2000 + 2000
      rw [e4']; omega
    | ⟨1, _⟩ =>
      show win4_2.index ⟨(i 0).val / 2000, hq⟩ (1 : Fin 2) * 128 ≤ (i 1).val ∧ (i 1).val < win4_2.index ⟨(i 0).val / 2000, hq⟩ (1 : Fin 2) * 128 + 128
      rw [e5]; omega

/-- THE SECOND OUTPUT after the region: its one block is the whole 1 × 128 array, written back after the last
    point, so the array is the column sums of the row-biased matrix. -/
theorem stats4_sum (V : (c : Dev nD) → (b : Ref sig .tc) → Buf (Elt Ideal) ((c : Thread nD τ).loc b)) (c : Dev nD) :
    (dat4 (F := Ideal) V c).arrAt 3 cfg4.N = colSum (addRow (V c (Pipeline.arrRef spec4 0)) (V c (Pipeline.arrRef spec4 1))) :=
  (dat4 (F := Ideal) V c).arrAt_eq_of_cover 3 (colSum (addRow (V c (Pipeline.arrRef spec4 0)) (V c (Pipeline.arrRef spec4 1)))) (fun t hf => s4_flushed3 V c t hf) fun i => by
    have hi0 : (i 0).val < 1 := (i 0).isLt
    have hi1 : (i 1).val < 128 := (i 1).isLt
    obtain ⟨-, -, -, -, -, -, e6, e7, -⟩ := s4_idx ⟨24, s4_last_lt⟩
    refine ⟨⟨24, s4_last_lt⟩, (flush4_3 _).mpr rfl, ?_⟩
    rw [s4_mem_blk3]
    intro a
    match a with
    | ⟨0, _⟩ =>
      show win4_3.index ⟨24, s4_last_lt⟩ (0 : Fin 2) * 1 ≤ (i 0).val ∧ (i 0).val < win4_3.index ⟨24, s4_last_lt⟩ (0 : Fin 2) * 1 + 1
      rw [e6]; omega
    | ⟨1, _⟩ =>
      show win4_3.index ⟨24, s4_last_lt⟩ (1 : Fin 2) * 128 ≤ (i 1).val ∧ (i 1).val < win4_3.index ⟨24, s4_last_lt⟩ (1 : Fin 2) * 128 + 128
      rw [e7]; omega

/-- THE THIRD OUTPUT after the region: likewise the column sums of squares of the row-biased matrix. -/
theorem stats4_sumsq (V : (c : Dev nD) → (b : Ref sig .tc) → Buf (Elt Ideal) ((c : Thread nD τ).loc b)) (c : Dev nD) :
    (dat4 (F := Ideal) V c).arrAt 4 cfg4.N = colSumSq (addRow (V c (Pipeline.arrRef spec4 0)) (V c (Pipeline.arrRef spec4 1))) :=
  (dat4 (F := Ideal) V c).arrAt_eq_of_cover 4 (colSumSq (addRow (V c (Pipeline.arrRef spec4 0)) (V c (Pipeline.arrRef spec4 1)))) (fun t hf => s4_flushed4 V c t hf) fun i => by
    have hi0 : (i 0).val < 1 := (i 0).isLt
    have hi1 : (i 1).val < 128 := (i 1).isLt
    obtain ⟨-, -, -, -, -, -, -, -, e8, e9⟩ := s4_idx ⟨24, s4_last_lt⟩
    refine ⟨⟨24, s4_last_lt⟩, (flush4_4 _).mpr rfl, ?_⟩
    rw [s4_mem_blk4]
    intro a
    match a with
    | ⟨0, _⟩ =>
      show win4_4.index ⟨24, s4_last_lt⟩ (0 : Fin 2) * 1 ≤ (i 0).val ∧ (i 0).val < win4_4.index ⟨24, s4_last_lt⟩ (0 : Fin 2) * 1 + 1
      rw [e8]; omega
    | ⟨1, _⟩ =>
      show win4_4.index ⟨24, s4_last_lt⟩ (1 : Fin 2) * 128 ≤ (i 1).val ∧ (i 1).val < win4_4.index ⟨24, s4_last_lt⟩ (1 : Fin 2) * 128 + 128
      rw [e9]; omega

end Cert.KernelIdeal.RegionValue

end
-- ==== Proof.Norm2.lean ====
/-
  The first normalisation region: batch normalisation with given column statistics, then the rectifier.

  The grid has 25 points; point t stages rows 2000·t … 2000·t + 1999 of the 50000 × 128 operand and the
  four 1 × 128 rows (mean, inverse standard deviation, scale, shift) whole, and writes back rows
  2000·t … 2000·t + 1999 of the result. The body is pointwise: at (a, b) it is
  max ((x(a, b) − mean(b)) · invstd(b) · scale(b) + shift(b), 0), the rows broadcast over the 2000 rows of
  the block; the rounding to the narrower format that ends it is the identity over the extended reals,
  and the rectifier's constant is the real number zero. A block's element (a, b) sits at array index
  (2000·t + a, b), the same for the operand's block and the result's, and each row's block is the whole
  row; so what point t writes back is block t of the whole-array function `normRelu`. The 25 blocks tile
  the 50000 rows, hence the array after the region is that function.
-/
import proofs.«161987_j51084341018872_1_alg».proof.Proof.Gen.KernelIdeal.Frame
import proofs.«161987_j51084341018872_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

/-- The zero offsets of a whole-buffer access, however spelt. -/
theorem zeroOff2 : (![0, 0] : Fin 2 → Nat) = fun _ => 0 := funext fun a => by fin_cases a <;> rfl

/-- The body's payload at an index: the normalised, scaled and shifted element, rectified. -/
theorem pay2_apply (x0 : Vec Ideal S2000x128 .f32) (x1 x2 x3 x4 : Vec Ideal S1x128 .f32) (a : Fin 2000) (b : Fin 128) :
    k2_pay1 (F := Ideal) x0 x1 x2 x3 x4 (ix2 a b)
      = max ((x0 (ix2 a b) - x1 (ix2 (0 : Fin 1) b)) * x2 (ix2 (0 : Fin 1) b) * x3 (ix2 (0 : Fin 1) b)
          + x4 (ix2 (0 : Fin 1) b)) 0 := by
  unfold k2_pay1
  show truncf .bf16 (maximumf
      (addf (mulf (mulf (subf (shapeCast S2000x128 x0 shapeCasts_S2000x128_S2000x128)
              (broadcastTo S2000x128 (shapeCast S1x128 x1 shapeCasts_S1x128_S1x128) broadcasts_S1x128_S2000x128))
            (broadcastTo S2000x128 (shapeCast S1x128 x2 shapeCasts_S1x128_S1x128) broadcasts_S1x128_S2000x128))
          (broadcastTo S2000x128 (shapeCast S1x128 x3 shapeCasts_S1x128_S1x128) broadcasts_S1x128_S2000x128))
        (broadcastTo S2000x128 (shapeCast S1x128 x4 shapeCasts_S1x128_S1x128) broadcasts_S1x128_S2000x128))
      (broadcast S2000x128 (Scalar.ofBits (F := Ideal) .f32 0x00000000#32))) bitsLt_bf16_f32 (ix2 a b) = _
  rw [truncf_apply, maximumf_apply, addf_apply, mulf_apply, mulf_apply, subf_apply, broadcast_apply]
  simp only [shapeCast_self, broadcastTo_1b_ab_apply]
  show max _ (Ideal.ofBits .f32 0x00000000#32) = _
  rw [Ideal.ofBits_zero_f32]

/-- The payload over blocks that are read off arrays: when the big block's element (a, b) is the array's
    element at `i` and each row block's element is its array's at `i`'s column, the payload at (a, b) is the
    whole-array function at `i`. -/
theorem normRelu_block2 (A0 : Mat 50000 128) (A1 A2 A3 A4 : Mat 1 128)
    (x0 : Vec Ideal S2000x128 .f32) (x1 x2 x3 x4 : Vec Ideal S1x128 .f32)
    (a : Fin 2000) (b : Fin 128) (i : (⟨2, ![50000, 128]⟩ : Shape).Idx)
    (h0 : x0 (ix2 a b) = A0 i) (h1 : x1 (ix2 (0 : Fin 1) b) = A1 (ix2 (0 : Fin 1) (i 1)))
    (h2 : x2 (ix2 (0 : Fin 1) b) = A2 (ix2 (0 : Fin 1) (i 1))) (h3 : x3 (ix2 (0 : Fin 1) b) = A3 (ix2 (0 : Fin 1) (i 1)))
    (h4 : x4 (ix2 (0 : Fin 1) b) = A4 (ix2 (0 : Fin 1) (i 1))) :
    k2_pay1 (F := Ideal) x0 x1 x2 x3 x4 (ix2 a b) = normRelu A0 A1 A2 A3 A4 i := by
  rw [pay2_apply, h0, h1, h2, h3, h4]
  rfl

/-- The index maps over the grid: the operand's block moves with the result's, down the rows, one block
    per point; the four rows' blocks never move. -/
theorem idx_facts2 : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Block `t` of an array read through the operand's window: its element (a, b) is the array's at row
    2000·t + a, column b. -/
theorem read2_0 (A : Mat 50000 128) (t : Fin cfg2.N) (a : Fin 2000) (b : Fin 128) (i : (⟨2, ![50000, 128]⟩ : Shape).Idx)
    (hi0 : (i 0).val = t.val * 2000 + a.val) (hi1 : (i 1).val = b.val) :
    ((cfg2.win 0).blk t).view.read (Elt Ideal) A (ix2 a b) = A i := by
  obtain ⟨-, -, e2, e3, -⟩ := idx_facts2 t
  show A (((cfg2.win 0).blk t).view.emb (ix2 a b)) = A i
  refine congrArg A (funext fun d => Fin.ext ?_)
  match d with
  | ⟨0, _⟩ => show win2_0.index t (0 : Fin 2) * 2000 + 1 * a.val = (i 0).val; omega
  | ⟨1, _⟩ => show win2_0.index t (1 : Fin 2) * 128 + 1 * b.val = (i 1).val; omega

/-- The mean row read through its window, at any point: the row itself. -/
theorem read2_1 (A : Mat 1 128) (t : Fin cfg2.N) (b : Fin 128) :
    ((cfg2.win 1).blk t).view.read (Elt Ideal) A (ix2 (0 : Fin 1) b) = A (ix2 (0 : Fin 1) b) := by
  obtain ⟨-, -, -, -, f0, f1, -⟩ := idx_facts2 t
  show A (((cfg2.win 1).blk t).view.emb (ix2 (0 : Fin 1) b)) = A (ix2 (0 : Fin 1) b)
  refine congrArg A (funext fun d => Fin.ext ?_)
  match d with
  | ⟨0, _⟩ => show win2_1.index t (0 : Fin 2) * 1 + 1 * 0 = 0; omega
  | ⟨1, _⟩ => show win2_1.index t (1 : Fin 2) * 128 + 1 * b.val = b.val; omega

/-- The inverse standard deviation row read through its window, at any point: the row itself. -/
theorem read2_2 (A : Mat 1 128) (t : Fin cfg2.N) (b : Fin 128) :
    ((cfg2.win 2).blk t).view.read (Elt Ideal) A (ix2 (0 : Fin 1) b) = A (ix2 (0 : Fin 1) b) := by
  obtain ⟨-, -, -, -, -, -, f0, f1, -⟩ := idx_facts2 t
  show A (((cfg2.win 2).blk t).view.emb (ix2 (0 : Fin 1) b)) = A (ix2 (0 : Fin 1) b)
  refine congrArg A (funext fun d => Fin.ext ?_)
  match d with
  | ⟨0, _⟩ => show win2_2.index t (0 : Fin 2) * 1 + 1 * 0 = 0; omega
  | ⟨1, _⟩ => show win2_2.index t (1 : Fin 2) * 128 + 1 * b.val = b.val; omega

/-- The scale row read through its window, at any point: the row itself. -/
theorem read2_3 (A : Mat 1 128) (t : Fin cfg2.N) (b : Fin 128) :
    ((cfg2.win 3).blk t).view.read (Elt Ideal) A (ix2 (0 : Fin 1) b) = A (ix2 (0 : Fin 1) b) := by
  obtain ⟨-, -, -, -, -, -, -, -, f0, f1, -⟩ := idx_facts2 t
  show A (((cfg2.win 3).blk t).view.emb (ix2 (0 : Fin 1) b)) = A (ix2 (0 : Fin 1) b)
  refine congrArg A (funext fun d => Fin.ext ?_)
  match d with
  | ⟨0, _⟩ => show win2_3.index t (0 : Fin 2) * 1 + 1 * 0 = 0; omega
  | ⟨1, _⟩ => show win2_3.index t (1 : Fin 2) * 128 + 1 * b.val = b.val; omega

/-- The shift row read through its window, at any point: the row itself. -/
theorem read2_4 (A : Mat 1 128) (t : Fin cfg2.N) (b : Fin 128) :
    ((cfg2.win 4).blk t).view.read (Elt Ideal) A (ix2 (0 : Fin 1) b) = A (ix2 (0 : Fin 1) b) := by
  obtain ⟨-, -, -, -, -, -, -, -, -, -, f0, f1⟩ := idx_facts2 t
  show A (((cfg2.win 4).blk t).view.emb (ix2 (0 : Fin 1) b)) = A (ix2 (0 : Fin 1) b)
  refine congrArg A (funext fun d => Fin.ext ?_)
  match d with
  | ⟨0, _⟩ => show win2_4.index t (0 : Fin 2) * 1 + 1 * 0 = 0; omega
  | ⟨1, _⟩ => show win2_4.index t (1 : Fin 2) * 128 + 1 * b.val = b.val; omega

/-- Block `t` of an array read through the result's window: its element (a, b) is the array's at row
    2000·t + a, column b. -/
theorem read2_5 (A : Mat 50000 128) (t : Fin cfg2.N) (a : Fin 2000) (b : Fin 128) (i : (⟨2, ![50000, 128]⟩ : Shape).Idx)
    (hi0 : (i 0).val = t.val * 2000 + a.val) (hi1 : (i 1).val = b.val) :
    ((cfg2.win 5).blk t).view.read (Elt Ideal) A (ix2 a b) = A i := by
  obtain ⟨e0, e1, -⟩ := idx_facts2 t
  show A (((cfg2.win 5).blk t).view.emb (ix2 a b)) = A i
  refine congrArg A (funext fun d => Fin.ext ?_)
  match d with
  | ⟨0, _⟩ => show win2_5.index t (0 : Fin 2) * 2000 + 1 * a.val = (i 0).val; omega
  | ⟨1, _⟩ => show win2_5.index t (1 : Fin 2) * 128 + 1 * b.val = (i 1).val; omega

/-- The body's result at point `t`, over the blocks of any five arrays there, is block `t` of the big
    array normalised with the four rows and rectified. -/
theorem block2_eq (A0 : Mat 50000 128) (A1 A2 A3 A4 : Mat 1 128) (t : Fin cfg2.N) :
    (cfg2.win 5).cut (grid2.coords t)
        (out2_5 (F := Ideal) (((cfg2.win 0).blk t).view.read (Elt Ideal) A0) (((cfg2.win 1).blk t).view.read (Elt Ideal) A1)
          (((cfg2.win 2).blk t).view.read (Elt Ideal) A2) (((cfg2.win 3).blk t).view.read (Elt Ideal) A3)
          (((cfg2.win 4).blk t).view.read (Elt Ideal) A4))
      = ((cfg2.win 5).blk t).view.read (Elt Ideal) (normRelu A0 A1 A2 A3 A4) := by
  unfold out2_5
  rw [View.canon_unit_zero zeroOff2]
  simp only [View.ld_unit_zero (S := S2000x128) zeroOff2, View.ld_unit_zero (S := S1x128) zeroOff2]
  refine funext fun (j : S2000x128.Idx) => ?_
  obtain ⟨a, b, rfl⟩ : ∃ (a : Fin 2000) (b : Fin 128), j = ix2 a b := ⟨j 0, j 1, eq_ix2 j⟩
  have ht : t.val < 25 := t.isLt
  have ha : a.val < 2000 := a.isLt
  rw [read2_5 (normRelu A0 A1 A2 A3 A4) t a b (ix2 ⟨t.val * 2000 + a.val, by omega⟩ b) rfl rfl]
  exact normRelu_block2 A0 A1 A2 A3 A4 _ _ _ _ _ a b (ix2 ⟨t.val * 2000 + a.val, by omega⟩ b)
    (read2_0 A0 t a b _ rfl rfl) (read2_1 A1 t b) (read2_2 A2 t b) (read2_3 A3 t b) (read2_4 A4 t b)

/-- What point `t` writes back is block `t` of the normalised and rectified operand array. -/
theorem flushed2_eq (V : (c : Dev nD) → (b : Ref sig .tc) → Buf (Elt Ideal) ((c : Thread nD τ).loc b)) (c : Dev nD)
    (t : Fin cfg2.N) :
    (dat2 (F := Ideal) V c).flushed 5 t
      = ((cfg2.win 5).blk t).view.read (Elt Ideal)
          (normRelu (n := 50000) (p := 128) (V c (Pipeline.arrRef spec2 0)) (V c (Pipeline.arrRef spec2 1))
            (V c (Pipeline.arrRef spec2 2)) (V c (Pipeline.arrRef spec2 3)) (V c (Pipeline.arrRef spec2 4))) := by
  show (cfg2.win 5).cut (grid2.coords t) ((dat2 (F := Ideal) V c).after 5 t) = _
  rw [after2_5]
  exact block2_eq (V c (Pipeline.arrRef spec2 0)) (V c (Pipeline.arrRef spec2 1)) (V c (Pipeline.arrRef spec2 2))
    (V c (Pipeline.arrRef spec2 3)) (V c (Pipeline.arrRef spec2 4)) t

/-- An index of the result array is in point `t`'s block iff each coordinate is in the block's range. -/
theorem mem_blk2 (t : Fin cfg2.N) (i : S50000x128.Idx) :
    i ∈ ((cfg2.win 5).blk t).view.set
      ↔ ∀ a : Fin 2, win2_5.index t a * S2000x128.size a ≤ (i a).val ∧ (i a).val < win2_5.index t a * S2000x128.size a + S2000x128.size a := by
  show i ∈ ((View.whole main_v28).slice (win2_5.rect t)).set ↔ _
  rw [View.set_slice_whole, Rect.mem_set_unit]
  exact Iff.rfl

/-- The 25 blocks of 2000 rows tile the 50000 rows: every index is in the block of the point its row
    divided by 2000 names. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  refine ⟨⟨(i 0).val / 2000, by show (i 0).val / 2000 < 25; omega⟩, flush2_5 _, ?_⟩
  rw [mem_blk2]
  obtain ⟨e0, e1, -⟩ := idx_facts2 ⟨(i 0).val / 2000, by show (i 0).val / 2000 < 25; omega⟩
  intro a
  match a with
  | ⟨0, _⟩ =>
    show win2_5.index _ (0 : Fin 2) * 2000 ≤ (i 0).val ∧ (i 0).val < win2_5.index _ (0 : Fin 2) * 2000 + 2000
    rw [e0]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [e1]; omega

/-- The array after region 2: the operand array normalised with the four rows and rectified, whatever
    the contents the region is entered with. -/
theorem norm2 (V : (c : Dev nD) → (b : Ref sig .tc) → Buf (Elt Ideal) ((c : Thread nD τ).loc b)) (c : Dev nD) :
    (dat2 (F := Ideal) V c).arrAt 5 cfg2.N
      = normRelu (n := 50000) (p := 128) (V c (Pipeline.arrRef spec2 0)) (V c (Pipeline.arrRef spec2 1))
          (V c (Pipeline.arrRef spec2 2)) (V c (Pipeline.arrRef spec2 3)) (V c (Pipeline.arrRef spec2 4)) :=
  (dat2 (F := Ideal) V c).arrAt_eq_of_cover 5 _ (fun t _ => flushed2_eq V c t) cover2

end Cert.KernelIdeal.RegionValue

end
-- ==== Proof.Norm5.lean ====
/-
  The second normalisation region: batch normalisation with given column statistics, then the rectifier.

  The grid has 25 points; point t stages rows 2000·t … 2000·t + 1999 of the 50000 × 128 operand and the
  four 1 × 128 rows (mean, inverse standard deviation, scale, shift) whole, and writes back rows
  2000·t … 2000·t + 1999 of the result. The body is pointwise: at (a, b) it is
  max ((x(a, b) − mean(b)) · invstd(b) · scale(b) + shift(b), 0), the rows broadcast over the 2000 rows of
  the block; the rounding to the narrower format that ends it is the identity over the extended reals,
  and the rectifier's constant is the real number zero. A block's element (a, b) sits at array index
  (2000·t + a, b), the same for the operand's block and the result's, and each row's block is the whole
  row; so what point t writes back is block t of the whole-array function `normRelu`. The 25 blocks tile
  the 50000 rows, hence the array after the region is that function.
-/
import proofs.«161987_j51084341018872_1_alg».proof.Proof.Gen.KernelIdeal.Frame
import proofs.«161987_j51084341018872_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

/-- The zero offsets of a whole-buffer access, however spelt. -/
theorem zeroOff5 : (![0, 0] : Fin 2 → Nat) = fun _ => 0 := funext fun a => by fin_cases a <;> rfl

/-- The body's payload at an index: the normalised, scaled and shifted element, rectified. -/
theorem pay5_apply (x0 : Vec Ideal S2000x128 .f32) (x1 x2 x3 x4 : Vec Ideal S1x128 .f32) (a : Fin 2000) (b : Fin 128) :
    k5_pay1 (F := Ideal) x0 x1 x2 x3 x4 (ix2 a b)
      = max ((x0 (ix2 a b) - x1 (ix2 (0 : Fin 1) b)) * x2 (ix2 (0 : Fin 1) b) * x3 (ix2 (0 : Fin 1) b)
          + x4 (ix2 (0 : Fin 1) b)) 0 := by
  unfold k5_pay1
  show truncf .bf16 (maximumf
      (addf (mulf (mulf (subf (shapeCast S2000x128 x0 shapeCasts_S2000x128_S2000x128)
              (broadcastTo S2000x128 (shapeCast S1x128 x1 shapeCasts_S1x128_S1x128) broadcasts_S1x128_S2000x128))
            (broadcastTo S2000x128 (shapeCast S1x128 x2 shapeCasts_S1x128_S1x128) broadcasts_S1x128_S2000x128))
          (broadcastTo S2000x128 (shapeCast S1x128 x3 shapeCasts_S1x128_S1x128) broadcasts_S1x128_S2000x128))
        (broadcastTo S2000x128 (shapeCast S1x128 x4 shapeCasts_S1x128_S1x128) broadcasts_S1x128_S2000x128))
      (broadcast S2000x128 (Scalar.ofBits (F := Ideal) .f32 0x00000000#32))) bitsLt_bf16_f32 (ix2 a b) = _
  rw [truncf_apply, maximumf_apply, addf_apply, mulf_apply, mulf_apply, subf_apply, broadcast_apply]
  simp only [shapeCast_self, broadcastTo_1b_ab_apply]
  show max _ (Ideal.ofBits .f32 0x00000000#32) = _
  rw [Ideal.ofBits_zero_f32]

/-- The payload over blocks that are read off arrays: when the big block's element (a, b) is the array's
    element at `i` and each row block's element is its array's at `i`'s column, the payload at (a, b) is the
    whole-array function at `i`. -/
theorem normRelu_block5 (A0 : Mat 50000 128) (A1 A2 A3 A4 : Mat 1 128)
    (x0 : Vec Ideal S2000x128 .f32) (x1 x2 x3 x4 : Vec Ideal S1x128 .f32)
    (a : Fin 2000) (b : Fin 128) (i : (⟨2, ![50000, 128]⟩ : Shape).Idx)
    (h0 : x0 (ix2 a b) = A0 i) (h1 : x1 (ix2 (0 : Fin 1) b) = A1 (ix2 (0 : Fin 1) (i 1)))
    (h2 : x2 (ix2 (0 : Fin 1) b) = A2 (ix2 (0 : Fin 1) (i 1))) (h3 : x3 (ix2 (0 : Fin 1) b) = A3 (ix2 (0 : Fin 1) (i 1)))
    (h4 : x4 (ix2 (0 : Fin 1) b) = A4 (ix2 (0 : Fin 1) (i 1))) :
    k5_pay1 (F := Ideal) x0 x1 x2 x3 x4 (ix2 a b) = normRelu A0 A1 A2 A3 A4 i := by
  rw [pay5_apply, h0, h1, h2, h3, h4]
  rfl

/-- The index maps over the grid: the operand's block moves with the result's, down the rows, one block
    per point; the four rows' blocks never move. -/
theorem idx_facts5 : ∀ t : Fin cfg5.N, win5_5.index t (0 : Fin 2) = t.val ∧ win5_5.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Block `t` of an array read through the operand's window: its element (a, b) is the array's at row
    2000·t + a, column b. -/
theorem read5_0 (A : Mat 50000 128) (t : Fin cfg5.N) (a : Fin 2000) (b : Fin 128) (i : (⟨2, ![50000, 128]⟩ : Shape).Idx)
    (hi0 : (i 0).val = t.val * 2000 + a.val) (hi1 : (i 1).val = b.val) :
    ((cfg5.win 0).blk t).view.read (Elt Ideal) A (ix2 a b) = A i := by
  obtain ⟨-, -, e2, e3, -⟩ := idx_facts5 t
  show A (((cfg5.win 0).blk t).view.emb (ix2 a b)) = A i
  refine congrArg A (funext fun d => Fin.ext ?_)
  match d with
  | ⟨0, _⟩ => show win5_0.index t (0 : Fin 2) * 2000 + 1 * a.val = (i 0).val; omega
  | ⟨1, _⟩ => show win5_0.index t (1 : Fin 2) * 128 + 1 * b.val = (i 1).val; omega

/-- The mean row read through its window, at any point: the row itself. -/
theorem read5_1 (A : Mat 1 128) (t : Fin cfg5.N) (b : Fin 128) :
    ((cfg5.win 1).blk t).view.read (Elt Ideal) A (ix2 (0 : Fin 1) b) = A (ix2 (0 : Fin 1) b) := by
  obtain ⟨-, -, -, -, f0, f1, -⟩ := idx_facts5 t
  show A (((cfg5.win 1).blk t).view.emb (ix2 (0 : Fin 1) b)) = A (ix2 (0 : Fin 1) b)
  refine congrArg A (funext fun d => Fin.ext ?_)
  match d with
  | ⟨0, _⟩ => show win5_1.index t (0 : Fin 2) * 1 + 1 * 0 = 0; omega
  | ⟨1, _⟩ => show win5_1.index t (1 : Fin 2) * 128 + 1 * b.val = b.val; omega

/-- The inverse standard deviation row read through its window, at any point: the row itself. -/
theorem read5_2 (A : Mat 1 128) (t : Fin cfg5.N) (b : Fin 128) :
    ((cfg5.win 2).blk t).view.read (Elt Ideal) A (ix2 (0 : Fin 1) b) = A (ix2 (0 : Fin 1) b) := by
  obtain ⟨-, -, -, -, -, -, f0, f1, -⟩ := idx_facts5 t
  show A (((cfg5.win 2).blk t).view.emb (ix2 (0 : Fin 1) b)) = A (ix2 (0 : Fin 1) b)
  refine congrArg A (funext fun d => Fin.ext ?_)
  match d with
  | ⟨0, _⟩ => show win5_2.index t (0 : Fin 2) * 1 + 1 * 0 = 0; omega
  | ⟨1, _⟩ => show win5_2.index t (1 : Fin 2) * 128 + 1 * b.val = b.val; omega

/-- The scale row read through its window, at any point: the row itself. -/
theorem read5_3 (A : Mat 1 128) (t : Fin cfg5.N) (b : Fin 128) :
    ((cfg5.win 3).blk t).view.read (Elt Ideal) A (ix2 (0 : Fin 1) b) = A (ix2 (0 : Fin 1) b) := by
  obtain ⟨-, -, -, -, -, -, -, -, f0, f1, -⟩ := idx_facts5 t
  show A (((cfg5.win 3).blk t).view.emb (ix2 (0 : Fin 1) b)) = A (ix2 (0 : Fin 1) b)
  refine congrArg A (funext fun d => Fin.ext ?_)
  match d with
  | ⟨0, _⟩ => show win5_3.index t (0 : Fin 2) * 1 + 1 * 0 = 0; omega
  | ⟨1, _⟩ => show win5_3.index t (1 : Fin 2) * 128 + 1 * b.val = b.val; omega

/-- The shift row read through its window, at any point: the row itself. -/
theorem read5_4 (A : Mat 1 128) (t : Fin cfg5.N) (b : Fin 128) :
    ((cfg5.win 4).blk t).view.read (Elt Ideal) A (ix2 (0 : Fin 1) b) = A (ix2 (0 : Fin 1) b) := by
  obtain ⟨-, -, -, -, -, -, -, -, -, -, f0, f1⟩ := idx_facts5 t
  show A (((cfg5.win 4).blk t).view.emb (ix2 (0 : Fin 1) b)) = A (ix2 (0 : Fin 1) b)
  refine congrArg A (funext fun d => Fin.ext ?_)
  match d with
  | ⟨0, _⟩ => show win5_4.index t (0 : Fin 2) * 1 + 1 * 0 = 0; omega
  | ⟨1, _⟩ => show win5_4.index t (1 : Fin 2) * 128 + 1 * b.val = b.val; omega

/-- Block `t` of an array read through the result's window: its element (a, b) is the array's at row
    2000·t + a, column b. -/
theorem read5_5 (A : Mat 50000 128) (t : Fin cfg5.N) (a : Fin 2000) (b : Fin 128) (i : (⟨2, ![50000, 128]⟩ : Shape).Idx)
    (hi0 : (i 0).val = t.val * 2000 + a.val) (hi1 : (i 1).val = b.val) :
    ((cfg5.win 5).blk t).view.read (Elt Ideal) A (ix2 a b) = A i := by
  obtain ⟨e0, e1, -⟩ := idx_facts5 t
  show A (((cfg5.win 5).blk t).view.emb (ix2 a b)) = A i
  refine congrArg A (funext fun d => Fin.ext ?_)
  match d with
  | ⟨0, _⟩ => show win5_5.index t (0 : Fin 2) * 2000 + 1 * a.val = (i 0).val; omega
  | ⟨1, _⟩ => show win5_5.index t (1 : Fin 2) * 128 + 1 * b.val = (i 1).val; omega

/-- The body's result at point `t`, over the blocks of any five arrays there, is block `t` of the big
    array normalised with the four rows and rectified. -/
theorem block5_eq (A0 : Mat 50000 128) (A1 A2 A3 A4 : Mat 1 128) (t : Fin cfg5.N) :
    (cfg5.win 5).cut (grid5.coords t)
        (out5_5 (F := Ideal) (((cfg5.win 0).blk t).view.read (Elt Ideal) A0) (((cfg5.win 1).blk t).view.read (Elt Ideal) A1)
          (((cfg5.win 2).blk t).view.read (Elt Ideal) A2) (((cfg5.win 3).blk t).view.read (Elt Ideal) A3)
          (((cfg5.win 4).blk t).view.read (Elt Ideal) A4))
      = ((cfg5.win 5).blk t).view.read (Elt Ideal) (normRelu A0 A1 A2 A3 A4) := by
  unfold out5_5
  rw [View.canon_unit_zero zeroOff5]
  simp only [View.ld_unit_zero (S := S2000x128) zeroOff5, View.ld_unit_zero (S := S1x128) zeroOff5]
  refine funext fun (j : S2000x128.Idx) => ?_
  obtain ⟨a, b, rfl⟩ : ∃ (a : Fin 2000) (b : Fin 128), j = ix2 a b := ⟨j 0, j 1, eq_ix2 j⟩
  have ht : t.val < 25 := t.isLt
  have ha : a.val < 2000 := a.isLt
  rw [read5_5 (normRelu A0 A1 A2 A3 A4) t a b (ix2 ⟨t.val * 2000 + a.val, by omega⟩ b) rfl rfl]
  exact normRelu_block5 A0 A1 A2 A3 A4 _ _ _ _ _ a b (ix2 ⟨t.val * 2000 + a.val, by omega⟩ b)
    (read5_0 A0 t a b _ rfl rfl) (read5_1 A1 t b) (read5_2 A2 t b) (read5_3 A3 t b) (read5_4 A4 t b)

/-- What point `t` writes back is block `t` of the normalised and rectified operand array. -/
theorem flushed5_eq (V : (c : Dev nD) → (b : Ref sig .tc) → Buf (Elt Ideal) ((c : Thread nD τ).loc b)) (c : Dev nD)
    (t : Fin cfg5.N) :
    (dat5 (F := Ideal) V c).flushed 5 t
      = ((cfg5.win 5).blk t).view.read (Elt Ideal)
          (normRelu (n := 50000) (p := 128) (V c (Pipeline.arrRef spec5 0)) (V c (Pipeline.arrRef spec5 1))
            (V c (Pipeline.arrRef spec5 2)) (V c (Pipeline.arrRef spec5 3)) (V c (Pipeline.arrRef spec5 4))) := by
  show (cfg5.win 5).cut (grid5.coords t) ((dat5 (F := Ideal) V c).after 5 t) = _
  rw [after5_5]
  exact block5_eq (V c (Pipeline.arrRef spec5 0)) (V c (Pipeline.arrRef spec5 1)) (V c (Pipeline.arrRef spec5 2))
    (V c (Pipeline.arrRef spec5 3)) (V c (Pipeline.arrRef spec5 4)) t

/-- An index of the result array is in point `t`'s block iff each coordinate is in the block's range. -/
theorem mem_blk5 (t : Fin cfg5.N) (i : S50000x128.Idx) :
    i ∈ ((cfg5.win 5).blk t).view.set
      ↔ ∀ a : Fin 2, win5_5.index t a * S2000x128.size a ≤ (i a).val ∧ (i a).val < win5_5.index t a * S2000x128.size a + S2000x128.size a := by
  show i ∈ ((View.whole main_v57).slice (win5_5.rect t)).set ↔ _
  rw [View.set_slice_whole, Rect.mem_set_unit]
  exact Iff.rfl

/-- The 25 blocks of 2000 rows tile the 50000 rows: every index is in the block of the point its row
    divided by 2000 names. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  refine ⟨⟨(i 0).val / 2000, by show (i 0).val / 2000 < 25; omega⟩, flush5_5 _, ?_⟩
  rw [mem_blk5]
  obtain ⟨e0, e1, -⟩ := idx_facts5 ⟨(i 0).val / 2000, by show (i 0).val / 2000 < 25; omega⟩
  intro a
  match a with
  | ⟨0, _⟩ =>
    show win5_5.index _ (0 : Fin 2) * 2000 ≤ (i 0).val ∧ (i 0).val < win5_5.index _ (0 : Fin 2) * 2000 + 2000
    rw [e0]; show (i 0).val / 2000 * 2000 ≤ (i 0).val ∧ (i 0).val < (i 0).val / 2000 * 2000 + 2000; omega
  | ⟨1, _⟩ =>
    show win5_5.index _ (1 : Fin 2) * 128 ≤ (i 1).val ∧ (i 1).val < win5_5.index _ (1 : Fin 2) * 128 + 128
    rw [e1]; omega

/-- The array after region 5: the operand array normalised with the four rows and rectified, whatever
    the contents the region is entered with. -/
theorem norm5 (V : (c : Dev nD) → (b : Ref sig .tc) → Buf (Elt Ideal) ((c : Thread nD τ).loc b)) (c : Dev nD) :
    (dat5 (F := Ideal) V c).arrAt 5 cfg5.N
      = normRelu (n := 50000) (p := 128) (V c (Pipeline.arrRef spec5 0)) (V c (Pipeline.arrRef spec5 1))
          (V c (Pipeline.arrRef spec5 2)) (V c (Pipeline.arrRef spec5 3)) (V c (Pipeline.arrRef spec5 4)) :=
  (dat5 (F := Ideal) V c).arrAt_eq_of_cover 5 _ (fun t _ => flushed5_eq V c t) cover5

end Cert.KernelIdeal.RegionValue

end
-- ==== Proof.Bias7.lean ====
/-
  The last pointwise region: the 50000 × 40 output of the third layer's aggregation, plus the bias row.

  The grid has 25 points; point t stages rows 2000·t … 2000·t + 1999 of the big operand and the whole
  1 × 40 bias row, and writes back rows 2000·t … 2000·t + 1999 of the result. The body adds the bias
  row, broadcast over the 2000 rows, to the block. A block's element (a, b) sits at array index
  (2000·t + a, b), the same for the operand's block and the result's, and the bias row's block is the
  whole row; so what point t writes back is block t of the whole-array function `addRow X bias`. The 25
  blocks tile the 50000 rows, hence the array after the region is that function.
-/
import proofs.«161987_j51084341018872_1_alg».proof.Proof.Gen.KernelIdeal.Frame
import proofs.«161987_j51084341018872_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.RegionValue

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

/-- The zero offsets of a whole-buffer access, however spelt. -/
theorem zeroOff7 : (![0, 0] : Fin 2 → Nat) = fun _ => 0 := funext fun a => by fin_cases a <;> rfl

/-- The body's payload at an index: the block's element plus the bias row's element of that column. -/
theorem pay7_apply (x0 : Vec Ideal S2000x40 .f32) (x1 : Vec Ideal S1x40 .f32) (a : Fin 2000) (b : Fin 40) :
    k7_pay1 (F := Ideal) x0 x1 (ix2 a b) = x0 (ix2 a b) + x1 (ix2 (0 : Fin 1) b) := by
  unfold k7_pay1
  show addf (F := Ideal) (φ := .f32) (shapeCast S2000x40 x0 shapeCasts_S2000x40_S2000x40)
      (broadcastTo S2000x40 (shapeCast S1x40 x1 shapeCasts_S1x40_S1x40) broadcasts_S1x40_S2000x40) (ix2 a b) = _
  rw [addf_apply, shapeCast_self, shapeCast_self, broadcastTo_1b_ab_apply]

/-- The payload over blocks that are read off arrays: when the big block's element (a, b) is the array's
    element at `i` and the row block's element is the bias array's at `i`'s column, the payload at (a, b) is
    the whole-array function at `i`. -/
theorem addRow_block7 (A0 : Mat 50000 40) (A1 : Mat 1 40) (x0 : Vec Ideal S2000x40 .f32) (x1 : Vec Ideal S1x40 .f32)
    (a : Fin 2000) (b : Fin 40) (i : (⟨2, ![50000, 40]⟩ : Shape).Idx)
    (h0 : x0 (ix2 a b) = A0 i) (h1 : x1 (ix2 (0 : Fin 1) b) = A1 (ix2 (0 : Fin 1) (i 1))) :
    k7_pay1 (F := Ideal) x0 x1 (ix2 a b) = addRow A0 A1 i := by
  rw [pay7_apply, h0, h1]
  rfl

/-- The index maps over the grid: the operand's block moves with the result's, down the rows, one block
    per point; the bias row's block never moves. -/
theorem idx_facts7 : ∀ t : Fin cfg7.N, win7_2.index t (0 : Fin 2) = t.val ∧ win7_2.index t (1 : Fin 2) = 0
    ∧ win7_0.index t (0 : Fin 2) = t.val ∧ win7_0.index t (1 : Fin 2) = 0
    ∧ win7_1.index t (0 : Fin 2) = 0 ∧ win7_1.index t (1 : Fin 2) = 0 :=
  (by decide +kernel : ∀ t : Fin grid7.N, _)

/-- Block `t` of an array read through the operand's window: its element (a, b) is the array's at row
    2000·t + a, column b. -/
theorem read7_0 (A : Mat 50000 40) (t : Fin cfg7.N) (a : Fin 2000) (b : Fin 40) (i : (⟨2, ![50000, 40]⟩ : Shape).Idx)
    (hi0 : (i 0).val = t.val * 2000 + a.val) (hi1 : (i 1).val = b.val) :
    ((cfg7.win 0).blk t).view.read (Elt Ideal) A (ix2 a b) = A i := by
  obtain ⟨-, -, e2, e3, -, -⟩ := idx_facts7 t
  show A (((cfg7.win 0).blk t).view.emb (ix2 a b)) = A i
  refine congrArg A (funext fun d => Fin.ext ?_)
  match d with
  | ⟨0, _⟩ => show win7_0.index t (0 : Fin 2) * 2000 + 1 * a.val = (i 0).val; omega
  | ⟨1, _⟩ => show win7_0.index t (1 : Fin 2) * 40 + 1 * b.val = (i 1).val; omega

/-- The bias row read through its window, at any point: the row itself. -/
theorem read7_1 (A : Mat 1 40) (t : Fin cfg7.N) (b : Fin 40) :
    ((cfg7.win 1).blk t).view.read (Elt Ideal) A (ix2 (0 : Fin 1) b) = A (ix2 (0 : Fin 1) b) := by
  obtain ⟨-, -, -, -, e4, e5⟩ := idx_facts7 t
  show A (((cfg7.win 1).blk t).view.emb (ix2 (0 : Fin 1) b)) = A (ix2 (0 : Fin 1) b)
  refine congrArg A (funext fun d => Fin.ext ?_)
  match d with
  | ⟨0, _⟩ => show win7_1.index t (0 : Fin 2) * 1 + 1 * 0 = 0; omega
  | ⟨1, _⟩ => show win7_1.index t (1 : Fin 2) * 40 + 1 * b.val = b.val; omega

/-- Block `t` of an array read through the result's window: its element (a, b) is the array's at row
    2000·t + a, column b. -/
theorem read7_2 (A : Mat 50000 40) (t : Fin cfg7.N) (a : Fin 2000) (b : Fin 40) (i : (⟨2, ![50000, 40]⟩ : Shape).Idx)
    (hi0 : (i 0).val = t.val * 2000 + a.val) (hi1 : (i 1).val = b.val) :
    ((cfg7.win 2).blk t).view.read (Elt Ideal) A (ix2 a b) = A i := by
  obtain ⟨e0, e1, -⟩ := idx_facts7 t
  show A (((cfg7.win 2).blk t).view.emb (ix2 a b)) = A i
  refine congrArg A (funext fun d => Fin.ext ?_)
  match d with
  | ⟨0, _⟩ => show win7_2.index t (0 : Fin 2) * 2000 + 1 * a.val = (i 0).val; omega
  | ⟨1, _⟩ => show win7_2.index t (1 : Fin 2) * 40 + 1 * b.val = (i 1).val; omega

/-- The body's result at point `t`, over the blocks of any two arrays there, is block `t` of the bias row
    added to every row of the big array. -/
theorem block7_eq (A0 : Mat 50000 40) (A1 : Mat 1 40) (t : Fin cfg7.N) :
    (cfg7.win 2).cut (grid7.coords t)
        (out7_2 (F := Ideal) (((cfg7.win 0).blk t).view.read (Elt Ideal) A0) (((cfg7.win 1).blk t).view.read (Elt Ideal) A1))
      = ((cfg7.win 2).blk t).view.read (Elt Ideal) (addRow A0 A1) := by
  unfold out7_2
  rw [View.canon_unit_zero zeroOff7]
  simp only [View.ld_unit_zero (S := S2000x40) zeroOff7, View.ld_unit_zero (S := S1x40) zeroOff7]
  refine funext fun (j : S2000x40.Idx) => ?_
  obtain ⟨a, b, rfl⟩ : ∃ (a : Fin 2000) (b : Fin 40), j = ix2 a b := ⟨j 0, j 1, eq_ix2 j⟩
  have ht : t.val < 25 := t.isLt
  have ha : a.val < 2000 := a.isLt
  rw [read7_2 (addRow A0 A1) t a b (ix2 ⟨t.val * 2000 + a.val, by omega⟩ b) rfl rfl]
  exact addRow_block7 A0 A1 _ _ a b (ix2 ⟨t.val * 2000 + a.val, by omega⟩ b)
    (read7_0 A0 t a b _ rfl rfl) (read7_1 A1 t b)

/-- What point `t` writes back is block `t` of the bias row added to every row of the operand array. -/
theorem flushed7_eq (V : (c : Dev nD) → (b : Ref sig .tc) → Buf (Elt Ideal) ((c : Thread nD τ).loc b)) (c : Dev nD)
    (t : Fin cfg7.N) :
    (dat7 (F := Ideal) V c).flushed 2 t
      = ((cfg7.win 2).blk t).view.read (Elt Ideal)
          (addRow (n := 50000) (p := 40) (V c (Pipeline.arrRef spec7 0)) (V c (Pipeline.arrRef spec7 1))) := by
  show (cfg7.win 2).cut (grid7.coords t) ((dat7 (F := Ideal) V c).after 2 t) = _
  rw [after7_2]
  exact block7_eq (V c (Pipeline.arrRef spec7 0)) (V c (Pipeline.arrRef spec7 1)) t

/-- An index of the result array is in point `t`'s block iff each coordinate is in the block's range. -/
theorem mem_blk7 (t : Fin cfg7.N) (i : S50000x40.Idx) :
    i ∈ ((cfg7.win 2).blk t).view.set
      ↔ ∀ a : Fin 2, win7_2.index t a * S2000x40.size a ≤ (i a).val ∧ (i a).val < win7_2.index t a * S2000x40.size a + S2000x40.size a := by
  show i ∈ ((View.whole main_v74).slice (win7_2.rect t)).set ↔ _
  rw [View.set_slice_whole, Rect.mem_set_unit]
  exact Iff.rfl

/-- The 25 blocks of 2000 rows tile the 50000 rows: every index is in the block of the point its row
    divided by 2000 names. -/
theorem cover7 (i : S50000x40.Idx) :
    ∃ t : Fin cfg7.N, (cfg7.win 2).flush t = true ∧ i ∈ ((cfg7.win 2).blk t).view.set := by
  have hi0 : (i 0).val < 50000 := (i 0).isLt
  have hi1 : (i 1).val < 40 := (i 1).isLt
  refine ⟨⟨(i 0).val / 2000, by show (i 0).val / 2000 < 25; omega⟩, flush7_2 _, ?_⟩
  rw [mem_blk7]
  obtain ⟨e0, e1, -⟩ := idx_facts7 ⟨(i 0).val / 2000, by show (i 0).val / 2000 < 25; omega⟩
  intro a
  match a with
  | ⟨0, _⟩ =>
    show win7_2.index _ (0 : Fin 2) * 2000 ≤ (i 0).val ∧ (i 0).val < win7_2.index _ (0 : Fin 2) * 2000 + 2000
    rw [e0]; show (i 0).val / 2000 * 2000 ≤ (i 0).val ∧ (i 0).val < (i 0).val / 2000 * 2000 + 2000; omega
  | ⟨1, _⟩ =>
    show win7_2.index _ (1 : Fin 2) * 40 ≤ (i 1).val ∧ (i 1).val < win7_2.index _ (1 : Fin 2) * 40 + 40
    rw [e1]; omega

/-- The array after region 7: the bias row added to every row of the operand array, whatever the
    contents the region is entered with. -/
theorem bias7 (V : (c : Dev nD) → (b : Ref sig .tc) → Buf (Elt Ideal) ((c : Thread nD τ).loc b)) (c : Dev nD) :
    (dat7 (F := Ideal) V c).arrAt 2 cfg7.N
      = addRow (n := 50000) (p := 40) (V c (Pipeline.arrRef spec7 0)) (V c (Pipeline.arrRef spec7 1)) :=
  (dat7 (F := Ideal) V c).arrAt_eq_of_cover 2 _ (fun t _ => flushed7_eq V c t) cover7

end Cert.KernelIdeal.RegionValue

end
-- ==== Proof.Algebra.lean ====
/-
  The arithmetic over the extended reals on which the comparison of the two programs rests.

  An extended real is REAL when it is the coercion of a real number. On real values the extended
  reals compute as the reals do, so the one law that joins the two programs — the variance of a
  column is the mean of the squares minus the square of the mean — is the real identity, carried
  across the coercion. The rest of the file is closure: every function of the vocabulary, the
  division by a nonzero real, the reciprocal square root of a positive real, a scatter with an
  adding body and a gather take real values to real values.
-/
import proofs.«161987_j51084341018872_1_alg».proof.Proof.Spec
import Idealize.ShloMosaic.PureOps.ShapeOps

noncomputable section

open scoped BigOperators

namespace Cert.GcnSpec

open Idealize.ShloMosaic Idealize.ShloMosaic.ValueIdx

/-! ## The float literals the programs spell -/

/-- The pattern of `50000.0`: exponent 15, significand 12800000 · 2⁻²³. -/
theorem ofBits_50000 : Ideal.ofBits .f32 0x47435000#32 = ((50000 : ℝ) : EReal) := by
  simp [Ideal.ofBits, Ideal.ieee, -EReal.coe_mul]; norm_num

/-- The pattern of the variance's regulariser (about 10⁻⁵): the real 10995116 · 2⁻⁴⁰. -/
theorem ofBits_eps_eq : Ideal.ofBits .f32 0x3727C5AC#32 = (((10995116 : ℝ) * (2 : ℝ) ^ (-40 : Int) : ℝ) : EReal) := by
  simp [Ideal.ofBits, Ideal.ieee, -EReal.coe_mul]

/-- It is a positive real. -/
theorem ofBits_eps : ∃ e : ℝ, 0 < e ∧ Ideal.ofBits .f32 0x3727C5AC#32 = (e : EReal) :=
  ⟨(10995116 : ℝ) * (2 : ℝ) ^ (-40 : Int), by positivity, ofBits_eps_eq⟩

/-! ## Real values -/

theorem isReal_coe (r : ℝ) : IsReal (r : EReal) := ⟨r, rfl⟩
theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The rectifier of a real is real: the maximum is one of its two arguments. -/
theorem IsReal.max_zero {x : EReal} (hx : IsReal x) : IsReal (max x 0) := by
  rcases le_total x 0 with h | h
  · rw [max_eq_right h]; exact isReal_zero
  · rw [max_eq_left h]; exact hx

/-- The coercion commutes with finite sums. -/
theorem coe_sum {ι : Type} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

/-- A finite sum of reals is real. -/
theorem isReal_sum {ι : Type} (s : Finset ι) (f : ι → EReal) (h : ∀ i ∈ s, IsReal (f i)) :
    IsReal (∑ i ∈ s, f i) := by
  classical
  revert h
  refine Finset.induction_on s (fun _ => by simpa using isReal_zero) ?_
  intro a s ha ih h
  rw [Finset.sum_insert ha]
  exact (h a (Finset.mem_insert_self a s)).add (ih fun i hi => h i (Finset.mem_insert_of_mem hi))

/-- The quotient of two reals, the divisor not zero, is the real quotient. -/
theorem div_coe_coe (x : ℝ) {y : ℝ} (hy : y ≠ 0) :
    Ideal.div (x : EReal) (y : EReal) = ((x * (1 / y) : ℝ) : EReal) := by
  rw [Ideal.div_coe hy, EReal.coe_mul]

/-- A real divided by a nonzero real is real. -/
theorem IsReal.div_coe {x : EReal} (hx : IsReal x) {y : ℝ} (hy : y ≠ 0) : IsReal (Ideal.div x (y : EReal)) := by
  obtain ⟨a, rfl⟩ := hx; exact ⟨_, div_coe_coe a hy⟩

/-! ## The variance identity -/

/-- Over the reals: the mean of the squares minus the square of the mean is the mean of the squared
    deviations from the mean. -/
theorem real_variance {n : Nat} (hn : n ≠ 0) (g : Fin n → ℝ) :
    (∑ r, g r * g r) * (1 / (n : ℝ)) - ((∑ r, g r) * (1 / (n : ℝ))) * ((∑ r, g r) * (1 / (n : ℝ)))
      = (∑ r, (g r - (∑ r, g r) * (1 / (n : ℝ))) * (g r - (∑ r, g r) * (1 / (n : ℝ)))) * (1 / (n : ℝ)) := by
  have hn' : (n : ℝ) ≠ 0 := Nat.cast_ne_zero.mpr hn
  generalize hm : (∑ r, g r) * (1 / (n : ℝ)) = m
  have hS : ∑ r, g r = (n : ℝ) * m := by rw [← hm]; field_simp
  have hexp : ∀ r, (g r - m) * (g r - m) = g r * g r - 2 * m * g r + m * m := fun r => by ring
  simp_rw [hexp, Finset.sum_add_distrib, Finset.sum_sub_distrib, ← Finset.mul_sum, Finset.sum_const,
    Finset.card_univ, Fintype.card_fin, nsmul_eq_mul, hS]
  field_simp
  ring

/-- THE VARIANCE IDENTITY over the extended reals, for a column of real entries and a nonzero count:
    with the mean the sum divided by the count,
    (sum of squares) / count − mean² = (sum of squared deviations from the mean) / count. -/
theorem variance_identity {n : Nat} (hn : n ≠ 0) (f : Fin n → EReal) (hf : ∀ r, IsReal (f r)) :
    Ideal.div (∑ r, f r * f r) ((n : ℝ) : EReal)
        - Ideal.div (∑ r, f r) ((n : ℝ) : EReal) * Ideal.div (∑ r, f r) ((n : ℝ) : EReal)
      = Ideal.div (∑ r, (f r - Ideal.div (∑ r, f r) ((n : ℝ) : EReal)) * (f r - Ideal.div (∑ r, f r) ((n : ℝ) : EReal)))
          ((n : ℝ) : EReal) := by
  have hn' : (n : ℝ) ≠ 0 := Nat.cast_ne_zero.mpr hn
  choose g hg using hf
  obtain rfl : f = fun r => (g r : EReal) := funext hg
  simp only [← EReal.coe_mul, ← coe_sum, div_coe_coe _ hn', ← EReal.coe_sub]
  exact congrArg _ (real_variance hn g)

/-- The same with every sum written as a host reduction writes it: the initial value 0 plus the sum. -/
theorem variance_identity_zero_add {n : Nat} (hn : n ≠ 0) (f : Fin n → EReal) (hf : ∀ r, IsReal (f r)) :
    Ideal.div (0 + ∑ r, f r * f r) ((n : ℝ) : EReal)
        - Ideal.div (0 + ∑ r, f r) ((n : ℝ) : EReal) * Ideal.div (0 + ∑ r, f r) ((n : ℝ) : EReal)
      = Ideal.div (0 + ∑ r, (f r - Ideal.div (0 + ∑ r, f r) ((n : ℝ) : EReal))
            * (f r - Ideal.div (0 + ∑ r, f r) ((n : ℝ) : EReal)))
          ((n : ℝ) : EReal) := by
  simp only [zero_add]; exact variance_identity hn f hf

/-- The count 50000 as the programs write it. -/
theorem coe_50000 : (((50000 : Nat) : ℝ) : EReal) = Ideal.ofBits .f32 0x47435000#32 := by
  rw [ofBits_50000]; norm_num

/-- The variance identity for a column of 50000 real entries, the count spelled as the float literal. -/
theorem variance_identity_50000 (f : Fin 50000 → EReal) (hf : ∀ r, IsReal (f r)) :
    Ideal.div (∑ r, f r * f r) (Ideal.ofBits .f32 0x47435000#32)
        - Ideal.div (∑ r, f r) (Ideal.ofBits .f32 0x47435000#32) * Ideal.div (∑ r, f r) (Ideal.ofBits .f32 0x47435000#32)
      = Ideal.div (∑ r, (f r - Ideal.div (∑ r, f r) (Ideal.ofBits .f32 0x47435000#32))
            * (f r - Ideal.div (∑ r, f r) (Ideal.ofBits .f32 0x47435000#32)))
          (Ideal.ofBits .f32 0x47435000#32) := by
  rw [← coe_50000]; exact variance_identity (by norm_num) f hf

/-- The same, every sum with the initial value 0 in front. -/
theorem variance_identity_50000_zero_add (f : Fin 50000 → EReal) (hf : ∀ r, IsReal (f r)) :
    Ideal.div (0 + ∑ r, f r * f r) (Ideal.ofBits .f32 0x47435000#32)
        - Ideal.div (0 + ∑ r, f r) (Ideal.ofBits .f32 0x47435000#32)
          * Ideal.div (0 + ∑ r, f r) (Ideal.ofBits .f32 0x47435000#32)
      = Ideal.div (0 + ∑ r, (f r - Ideal.div (0 + ∑ r, f r) (Ideal.ofBits .f32 0x47435000#32))
            * (f r - Ideal.div (0 + ∑ r, f r) (Ideal.ofBits .f32 0x47435000#32)))
          (Ideal.ofBits .f32 0x47435000#32) := by
  simp only [zero_add]; exact variance_identity_50000 f hf

/-! ## The variance plus a positive real is a positive real -/

/-- The mean of the squared deviations from ANY real centre, plus a positive real, is a positive real:
    a sum of squares is not negative. -/
theorem var_add_pos {n : Nat} (hn : n ≠ 0) (f : Fin n → EReal) (hf : ∀ r, IsReal (f r)) {m : EReal} (hm : IsReal m)
    {e : ℝ} (he : 0 < e) :
    ∃ v : ℝ, 0 < v ∧ Ideal.div (∑ r, (f r - m) * (f r - m)) ((n : ℝ) : EReal) + (e : EReal) = (v : EReal) := by
  have hn' : (n : ℝ) ≠ 0 := Nat.cast_ne_zero.mpr hn
  choose g hg using hf
  obtain rfl : f = fun r => (g r : EReal) := funext hg
  obtain ⟨a, rfl⟩ := hm
  simp only [← EReal.coe_sub, ← EReal.coe_mul, ← coe_sum, div_coe_coe _ hn', ← EReal.coe_add]
  refine ⟨_, ?_, rfl⟩
  have h1 : 0 ≤ ∑ r, (g r - a) * (g r - a) := Finset.sum_nonneg fun r _ => mul_self_nonneg _
  have h2 : (0 : ℝ) ≤ 1 / (n : ℝ) := by positivity
  exact add_pos_of_nonneg_of_pos (mul_nonneg h1 h2) he

/-- The mean of a column of reals is real. -/
theorem isReal_mean {n : Nat} (hn : n ≠ 0) (f : Fin n → EReal) (hf : ∀ r, IsReal (f r)) :
    IsReal (Ideal.div (∑ r, f r) ((n : ℝ) : EReal)) :=
  (isReal_sum _ _ fun r _ => hf r).div_coe (Nat.cast_ne_zero.mpr hn)

/-- The variance about the mean, plus a positive real, is a positive real. -/
theorem variance_add_pos {n : Nat} (hn : n ≠ 0) (f : Fin n → EReal) (hf : ∀ r, IsReal (f r)) {e : ℝ} (he : 0 < e) :
    ∃ v : ℝ, 0 < v ∧
      Ideal.div (∑ r, (f r - Ideal.div (∑ r, f r) ((n : ℝ) : EReal)) * (f r - Ideal.div (∑ r, f r) ((n : ℝ) : EReal)))
          ((n : ℝ) : EReal) + (e : EReal) = (v : EReal) :=
  var_add_pos hn f hf (isReal_mean hn f hf) he

/-- In the other form — the mean of the squares minus the square of the mean — likewise. -/
theorem variance_add_pos' {n : Nat} (hn : n ≠ 0) (f : Fin n → EReal) (hf : ∀ r, IsReal (f r)) {e : ℝ} (he : 0 < e) :
    ∃ v : ℝ, 0 < v ∧
      Ideal.div (∑ r, f r * f r) ((n : ℝ) : EReal)
          - Ideal.div (∑ r, f r) ((n : ℝ) : EReal) * Ideal.div (∑ r, f r) ((n : ℝ) : EReal) + (e : EReal) = (v : EReal) := by
  rw [variance_identity hn f hf]; exact variance_add_pos hn f hf he

/-! ## The reciprocal square root -/

/-- At a positive real the reciprocal square root is the real one. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- So it is a real, and a positive one. -/
theorem rsqrt_pos_real {x : EReal} (hx : ∃ v : ℝ, 0 < v ∧ x = (v : EReal)) :
    ∃ s : ℝ, 0 < s ∧ Ideal.rsqrt x = (s : EReal) := by
  obtain ⟨v, hv, rfl⟩ := hx
  exact ⟨_, inv_pos.mpr (Real.sqrt_pos.mpr hv), rsqrt_coe_of_pos hv⟩

theorem isReal_rsqrt {x : EReal} (hx : ∃ v : ℝ, 0 < v ∧ x = (v : EReal)) : IsReal (Ideal.rsqrt x) := by
  obtain ⟨s, _, hs⟩ := rsqrt_pos_real hx; exact ⟨s, hs⟩

/-- The inverse standard deviation of a column of reals — the reciprocal square root of the variance plus a
    positive real — is real. -/
theorem isReal_invstd {n : Nat} (hn : n ≠ 0) (f : Fin n → EReal) (hf : ∀ r, IsReal (f r)) {e : ℝ} (he : 0 < e) :
    IsReal (Ideal.rsqrt
      (Ideal.div (∑ r, (f r - Ideal.div (∑ r, f r) ((n : ℝ) : EReal)) * (f r - Ideal.div (∑ r, f r) ((n : ℝ) : EReal)))
          ((n : ℝ) : EReal) + (e : EReal))) :=
  isReal_rsqrt (variance_add_pos hn f hf he)

theorem isReal_invstd' {n : Nat} (hn : n ≠ 0) (f : Fin n → EReal) (hf : ∀ r, IsReal (f r)) {e : ℝ} (he : 0 < e) :
    IsReal (Ideal.rsqrt
      (Ideal.div (∑ r, f r * f r) ((n : ℝ) : EReal)
          - Ideal.div (∑ r, f r) ((n : ℝ) : EReal) * Ideal.div (∑ r, f r) ((n : ℝ) : EReal) + (e : EReal))) :=
  isReal_rsqrt (variance_add_pos' hn f hf he)

/-! ## The vocabulary takes real matrices to real matrices -/

theorem isReal_mm {n k p : Nat} {X : Mat n k} {W : Mat k p} (hX : ∀ i, IsReal (X i)) (hW : ∀ i, IsReal (W i)) :
    ∀ i, IsReal (mm X W i) :=
  fun _ => isReal_sum _ _ fun _ _ => (hX _).mul (hW _)

theorem isReal_addRow {n p : Nat} {X : Mat n p} {b : Mat 1 p} (hX : ∀ i, IsReal (X i)) (hb : ∀ i, IsReal (b i)) :
    ∀ i, IsReal (addRow X b i) :=
  fun i => (hX i).add (hb _)

theorem isReal_colSum {n p : Nat} {X : Mat n p} (hX : ∀ i, IsReal (X i)) : ∀ i, IsReal (colSum X i) :=
  fun _ => isReal_sum _ _ fun _ _ => hX _

theorem isReal_colSumSq {n p : Nat} {X : Mat n p} (hX : ∀ i, IsReal (X i)) : ∀ i, IsReal (colSumSq X i) :=
  fun _ => isReal_sum _ _ fun _ _ => (hX _).mul (hX _)

theorem isReal_normRelu {n p : Nat} {X : Mat n p} {mean invstd gamma beta : Mat 1 p} (hX : ∀ i, IsReal (X i))
    (hm : ∀ i, IsReal (mean i)) (hs : ∀ i, IsReal (invstd i)) (hg : ∀ i, IsReal (gamma i)) (hb : ∀ i, IsReal (beta i)) :
    ∀ i, IsReal (normRelu X mean invstd gamma beta i) :=
  fun i => (((((hX i).sub (hm _)).mul (hs _)).mul (hg _)).add (hb _)).max_zero

/-! ## The column statistics of the vocabulary -/

theorem isReal_rowOf {p : Nat} {v : (⟨1, ![p]⟩ : Shape).Idx → EReal} (hv : ∀ i, IsReal (v i)) : ∀ i, IsReal (rowOf v i) :=
  fun _ => hv _

theorem isReal_meanRow {n p : Nat} (hn : n ≠ 0) {X : Mat n p} (hX : ∀ i, IsReal (X i)) :
    ∀ i, IsReal (meanRow ((n : ℝ) : EReal) X i) :=
  fun i => (isReal_colSum hX i).div_coe (Nat.cast_ne_zero.mpr hn)

/-- The two inverse standard deviations of a real matrix agree: the variance identity, column by column. -/
theorem invStdSq_eq_invStdDev {n p : Nat} (hn : n ≠ 0) (eps : EReal) {X : Mat n p} (hX : ∀ i, IsReal (X i)) :
    invStdSq ((n : ℝ) : EReal) eps X = invStdDev ((n : ℝ) : EReal) eps X := by
  funext i
  exact congrArg (fun v => Ideal.rsqrt (v + eps)) (variance_identity hn (fun r => X (ix2 r (i 1))) (fun _ => hX _))

/-- The inverse standard deviation of a real matrix, the regulariser a positive real, is real. -/
theorem isReal_invStdDev {n p : Nat} (hn : n ≠ 0) {X : Mat n p} (hX : ∀ i, IsReal (X i)) {eps : EReal}
    (he : ∃ e : ℝ, 0 < e ∧ eps = (e : EReal)) : ∀ i, IsReal (invStdDev ((n : ℝ) : EReal) eps X i) := by
  intro i
  obtain ⟨e, he, rfl⟩ := he
  exact isReal_rsqrt (variance_add_pos hn (fun r => X (ix2 r (i 1))) (fun _ => hX _) he)

theorem isReal_invStdSq {n p : Nat} (hn : n ≠ 0) {X : Mat n p} (hX : ∀ i, IsReal (X i)) {eps : EReal}
    (he : ∃ e : ℝ, 0 < e ∧ eps = (e : EReal)) : ∀ i, IsReal (invStdSq ((n : ℝ) : EReal) eps X i) := by
  rw [invStdSq_eq_invStdDev hn eps hX]; exact isReal_invStdDev hn hX he

/-- The same at 50000 rows, the count spelled as the float literal. -/
theorem isReal_meanRow_50000 {p : Nat} {X : Mat 50000 p} (hX : ∀ i, IsReal (X i)) :
    ∀ i, IsReal (meanRow (Ideal.ofBits .f32 0x47435000#32) X i) := by
  rw [← coe_50000]; exact isReal_meanRow (by norm_num) hX

theorem invStdSq_eq_invStdDev_50000 {p : Nat} (eps : EReal) {X : Mat 50000 p} (hX : ∀ i, IsReal (X i)) :
    invStdSq (Ideal.ofBits .f32 0x47435000#32) eps X = invStdDev (Ideal.ofBits .f32 0x47435000#32) eps X := by
  rw [← coe_50000]; exact invStdSq_eq_invStdDev (by norm_num) eps hX

theorem isReal_invStdDev_50000 {p : Nat} {X : Mat 50000 p} (hX : ∀ i, IsReal (X i)) {eps : EReal}
    (he : ∃ e : ℝ, 0 < e ∧ eps = (e : EReal)) : ∀ i, IsReal (invStdDev (Ideal.ofBits .f32 0x47435000#32) eps X i) := by
  rw [← coe_50000]; exact isReal_invStdDev (by norm_num) hX he

theorem isReal_invStdSq_50000 {p : Nat} {X : Mat 50000 p} (hX : ∀ i, IsReal (X i)) {eps : EReal}
    (he : ∃ e : ℝ, 0 < e ∧ eps = (e : EReal)) : ∀ i, IsReal (invStdSq (Ideal.ofBits .f32 0x47435000#32) eps X i) := by
  rw [← coe_50000]; exact isReal_invStdSq (by norm_num) hX he

/-! ## Scatter with an adding body, gather, host reduction, matrix unit -/

/-- A scatter that adds: each entry is the operand's plus a finite sum of updates. -/
theorem isReal_hostScatterAdd {s si su : Shape} (d : ScatterDims s si su) {w : Nat} {x : s.Idx → EReal} (idx : IVec si w)
    {upd : su.Idx → EReal} (hx : ∀ i, IsReal (x i)) (hu : ∀ j, IsReal (upd j)) :
    ∀ i, IsReal (Ideal.hostScatterAdd d x idx upd i) :=
  fun i => (hx i).add (isReal_sum _ _ fun j _ => hu j)

/-- A gather reads the operand at computed indices. -/
theorem isReal_gather {s si t : Shape} {w : Nat} (d : GatherDims s si t) {x : s.Idx → EReal} (idx : IVec si w)
    (hx : ∀ i, IsReal (x i)) : ∀ j, IsReal (Host.gather d x idx j) :=
  fun _ => hx _

/-- A host reduction that adds: the initial value plus a finite sum of entries. -/
theorem isReal_hostReduceAdd {s : Shape} {axes : List (Fin s.rank)} {t : Shape} (h : s.ReducesTo axes t)
    {x : s.Idx → EReal} {init : EReal} (hx : ∀ i, IsReal (x i)) (hi : IsReal init) :
    ∀ j, IsReal (Ideal.hostReduceAdd h x init j) :=
  fun _ => hi.add (isReal_sum _ _ fun i _ => hx i)

/-- A block product: the accumulator plus a finite sum of products. -/
theorem isReal_matmul {sl sr so : Shape} (d : DotDims sl sr so) {lhs : sl.Idx → EReal} {rhs : sr.Idx → EReal}
    {acc : so.Idx → EReal} (hl : ∀ i, IsReal (lhs i)) (hr : ∀ i, IsReal (rhs i)) (ha : ∀ j, IsReal (acc j)) :
    ∀ j, IsReal (Ideal.matmul d lhs rhs acc j) :=
  fun j => (ha j).add (isReal_sum _ _ fun _ _ => (hl _).mul (hr _))

/-! ## The same at the count 50000 and a regulariser given as a positive real, as the programs spell them -/

theorem IsReal.div_50000 {x : EReal} (hx : IsReal x) : IsReal (Ideal.div x (Ideal.ofBits .f32 0x47435000#32)) := by
  rw [ofBits_50000]; exact hx.div_coe (by norm_num)

theorem isReal_mean_50000 (f : Fin 50000 → EReal) (hf : ∀ r, IsReal (f r)) :
    IsReal (Ideal.div (∑ r, f r) (Ideal.ofBits .f32 0x47435000#32)) :=
  (isReal_sum _ _ fun r _ => hf r).div_50000

/-- The variance about the mean plus the regulariser is a positive real. -/
theorem variance_add_pos_50000 (f : Fin 50000 → EReal) (hf : ∀ r, IsReal (f r)) {eps : EReal}
    (he : ∃ e : ℝ, 0 < e ∧ eps = (e : EReal)) :
    ∃ v : ℝ, 0 < v ∧
      Ideal.div (∑ r, (f r - Ideal.div (∑ r, f r) (Ideal.ofBits .f32 0x47435000#32))
            * (f r - Ideal.div (∑ r, f r) (Ideal.ofBits .f32 0x47435000#32)))
          (Ideal.ofBits .f32 0x47435000#32) + eps = (v : EReal) := by
  obtain ⟨e, he, rfl⟩ := he
  rw [← coe_50000]; exact variance_add_pos (by norm_num) f hf he

/-- In the other form likewise. -/
theorem variance_add_pos_50000' (f : Fin 50000 → EReal) (hf : ∀ r, IsReal (f r)) {eps : EReal}
    (he : ∃ e : ℝ, 0 < e ∧ eps = (e : EReal)) :
    ∃ v : ℝ, 0 < v ∧
      Ideal.div (∑ r, f r * f r) (Ideal.ofBits .f32 0x47435000#32)
          - Ideal.div (∑ r, f r) (Ideal.ofBits .f32 0x47435000#32) * Ideal.div (∑ r, f r) (Ideal.ofBits .f32 0x47435000#32)
          + eps = (v : EReal) := by
  rw [variance_identity_50000 f hf]; exact variance_add_pos_50000 f hf he

/-- So the inverse standard deviation of a column of 50000 reals is real, in either form of the variance. -/
theorem isReal_invstd_50000 (f : Fin 50000 → EReal) (hf : ∀ r, IsReal (f r)) {eps : EReal}
    (he : ∃ e : ℝ, 0 < e ∧ eps = (e : EReal)) :
    IsReal (Ideal.rsqrt
      (Ideal.div (∑ r, (f r - Ideal.div (∑ r, f r) (Ideal.ofBits .f32 0x47435000#32))
            * (f r - Ideal.div (∑ r, f r) (Ideal.ofBits .f32 0x47435000#32)))
          (Ideal.ofBits .f32 0x47435000#32) + eps)) :=
  isReal_rsqrt (variance_add_pos_50000 f hf he)

theorem isReal_invstd_50000' (f : Fin 50000 → EReal) (hf : ∀ r, IsReal (f r)) {eps : EReal}
    (he : ∃ e : ℝ, 0 < e ∧ eps = (e : EReal)) :
    IsReal (Ideal.rsqrt
      (Ideal.div (∑ r, f r * f r) (Ideal.ofBits .f32 0x47435000#32)
          - Ideal.div (∑ r, f r) (Ideal.ofBits .f32 0x47435000#32) * Ideal.div (∑ r, f r) (Ideal.ofBits .f32 0x47435000#32)
          + eps)) :=
  isReal_rsqrt (variance_add_pos_50000' f hf he)

/-- The literals are real. -/
theorem isReal_ofBits_50000 : IsReal (Ideal.ofBits .f32 0x47435000#32) := ⟨_, ofBits_50000⟩
theorem isReal_ofBits_eps : IsReal (Ideal.ofBits .f32 0x3727C5AC#32) := ⟨_, ofBits_eps_eq⟩
theorem isReal_ofBits_zero : IsReal (Ideal.ofBits .f32 0x00000000#32) := ⟨0, Ideal.ofBits_zero_f32⟩

end Cert.GcnSpec

end
-- ==== Proof.KChain.lean ====
/-
  The idealized kernel program's result as a function of its arguments. The program alternates stretches of host
  operations with gridded regions; the contents of the buffers at each boundary are followed from the launch to the
  return. Three times: a matrix product (a region), the edge aggregation (host operations: gather, scale, scatter-add),
  then — for the first two layers — the bias with column sums and sums of squares (a region), the column means and
  the inverse standard deviations from "mean of squares minus squared mean" (host operations), normalisation and the
  rectifier (a region); the last layer ends with the bias alone (a region).
-/
import proofs.«161987_j51084341018872_1_alg».proof.Proof.Gemm0
import proofs.«161987_j51084341018872_1_alg».proof.Proof.Gemm3
import proofs.«161987_j51084341018872_1_alg».proof.Proof.Gemm6
import proofs.«161987_j51084341018872_1_alg».proof.Proof.Stats1
import proofs.«161987_j51084341018872_1_alg».proof.Proof.Stats4
import proofs.«161987_j51084341018872_1_alg».proof.Proof.Norm2
import proofs.«161987_j51084341018872_1_alg».proof.Proof.Norm5
import proofs.«161987_j51084341018872_1_alg».proof.Proof.Bias7
import proofs.«161987_j51084341018872_1_alg».proof.Proof.Algebra
import Idealize.ShloMosaic.Lib.StableHlo.Run
import Idealize.ShloMosaic.Lib.ValueLayout

set_option maxRecDepth 16384

noncomputable section

open scoped BigOperators

namespace Cert.KernelIdeal.Chain

open Cert.KernelIdeal Cert.KernelIdeal.Gen Cert.KernelIdeal.RegionValue Cert.GcnSpec
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## The argument arrays at every boundary where they are read: no host operation and no region writes one -/

theorem W2_arg1 : W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  after_results
  try rfl

theorem W2_arg2 : W2 m ρ c (Proc.devRef .tc main_arg2) = m ((c.tc : Thread nD τ).loc main_arg2) := by
  rw [W2_of_ne m ρ c main_arg2 (by decide)]
  show StableHlo.after hostOps0 (W0 m ρ c) (Proc.devRef .tc main_arg2) = _
  after_results
  try rfl

theorem W2_arg3 : W2 m ρ c (Proc.devRef .tc main_arg3) = m ((c.tc : Thread nD τ).loc main_arg3) := by
  rw [W2_of_ne m ρ c main_arg3 (by decide)]
  show StableHlo.after hostOps0 (W0 m ρ c) (Proc.devRef .tc main_arg3) = _
  after_results
  try rfl

theorem W2_arg5 : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results
  try rfl

theorem W2_arg6 : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results
  try rfl

theorem W2_arg7 : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results
  try rfl

theorem W2_arg8 : W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  after_results
  try rfl

theorem W2_arg9 : W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  after_results
  try rfl

theorem W2_arg10 : W2 m ρ c (Proc.devRef .tc main_arg10) = m ((c.tc : Thread nD τ).loc main_arg10) := by
  rw [W2_of_ne m ρ c main_arg10 (by decide)]
  show StableHlo.after hostOps0 (W0 m ρ c) (Proc.devRef .tc main_arg10) = _
  after_results
  try rfl

theorem W2_arg11 : W2 m ρ c (Proc.devRef .tc main_arg11) = m ((c.tc : Thread nD τ).loc main_arg11) := by
  rw [W2_of_ne m ρ c main_arg11 (by decide)]
  show StableHlo.after hostOps0 (W0 m ρ c) (Proc.devRef .tc main_arg11) = _
  after_results
  try rfl

theorem W2_arg12 : W2 m ρ c (Proc.devRef .tc main_arg12) = m ((c.tc : Thread nD τ).loc main_arg12) := by
  rw [W2_of_ne m ρ c main_arg12 (by decide)]
  show StableHlo.after hostOps0 (W0 m ρ c) (Proc.devRef .tc main_arg12) = _
  after_results
  try rfl

theorem W2_arg13 : W2 m ρ c (Proc.devRef .tc main_arg13) = m ((c.tc : Thread nD τ).loc main_arg13) := by
  rw [W2_of_ne m ρ c main_arg13 (by decide)]
  show StableHlo.after hostOps0 (W0 m ρ c) (Proc.devRef .tc main_arg13) = _
  after_results
  try rfl

theorem W4_arg6 : W4 m ρ c (Proc.devRef .tc main_arg6) = m ((c.tc : Thread nD τ).loc main_arg6) := by
  rw [W4_of_ne m ρ c main_arg6 (by decide)]
  show StableHlo.after hostOps1 (W2 m ρ c) (Proc.devRef .tc main_arg6) = _
  after_results
  exact W2_arg6 m ρ c

theorem W4_arg7 : W4 m ρ c (Proc.devRef .tc main_arg7) = m ((c.tc : Thread nD τ).loc main_arg7) := by
  rw [W4_of_ne m ρ c main_arg7 (by decide)]
  show StableHlo.after hostOps1 (W2 m ρ c) (Proc.devRef .tc main_arg7) = _
  after_results
  exact W2_arg7 m ρ c

theorem W6_arg8 : W6 m ρ c (Proc.devRef .tc main_arg8) = m ((c.tc : Thread nD τ).loc main_arg8) := by
  rw [W6_of_ne m ρ c main_arg8 (by decide)]
  show StableHlo.after hostOps2 (W4 m ρ c) (Proc.devRef .tc main_arg8) = _
  after_results
  rw [W4_of_ne m ρ c main_arg8 (by decide)]
  show StableHlo.after hostOps1 (W2 m ρ c) (Proc.devRef .tc main_arg8) = _
  after_results
  exact W2_arg8 m ρ c

theorem W8_arg1 : W8 m ρ c (Proc.devRef .tc main_arg1) = m ((c.tc : Thread nD τ).loc main_arg1) := by
  rw [W8_of_ne m ρ c main_arg1 (by decide)]
  show StableHlo.after hostOps3 (W6 m ρ c) (Proc.devRef .tc main_arg1) = _
  after_results
  rw [W6_of_ne m ρ c main_arg1 (by decide)]
  show StableHlo.after hostOps2 (W4 m ρ c) (Proc.devRef .tc main_arg1) = _
  after_results
  rw [W4_of_ne m ρ c main_arg1 (by decide)]
  show StableHlo.after hostOps1 (W2 m ρ c) (Proc.devRef .tc main_arg1) = _
  after_results
  exact W2_arg1 m ρ c

theorem W8_arg2 : W8 m ρ c (Proc.devRef .tc main_arg2) = m ((c.tc : Thread nD τ).loc main_arg2) := by
  rw [W8_of_ne m ρ c main_arg2 (by decide)]
  show StableHlo.after hostOps3 (W6 m ρ c) (Proc.devRef .tc main_arg2) = _
  after_results
  rw [W6_of_ne m ρ c main_arg2 (by decide)]
  show StableHlo.after hostOps2 (W4 m ρ c) (Proc.devRef .tc main_arg2) = _
  after_results
  rw [W4_of_ne m ρ c main_arg2 (by decide)]
  show StableHlo.after hostOps1 (W2 m ρ c) (Proc.devRef .tc main_arg2) = _
  after_results
  exact W2_arg2 m ρ c

theorem W8_arg3 : W8 m ρ c (Proc.devRef .tc main_arg3) = m ((c.tc : Thread nD τ).loc main_arg3) := by
  rw [W8_of_ne m ρ c main_arg3 (by decide)]
  show StableHlo.after hostOps3 (W6 m ρ c) (Proc.devRef .tc main_arg3) = _
  after_results
  rw [W6_of_ne m ρ c main_arg3 (by decide)]
  show StableHlo.after hostOps2 (W4 m ρ c) (Proc.devRef .tc main_arg3) = _
  after_results
  rw [W4_of_ne m ρ c main_arg3 (by decide)]
  show StableHlo.after hostOps1 (W2 m ρ c) (Proc.devRef .tc main_arg3) = _
  after_results
  exact W2_arg3 m ρ c

theorem W8_arg9 : W8 m ρ c (Proc.devRef .tc main_arg9) = m ((c.tc : Thread nD τ).loc main_arg9) := by
  rw [W8_of_ne m ρ c main_arg9 (by decide)]
  show StableHlo.after hostOps3 (W6 m ρ c) (Proc.devRef .tc main_arg9) = _
  after_results
  rw [W6_of_ne m ρ c main_arg9 (by decide)]
  show StableHlo.after hostOps2 (W4 m ρ c) (Proc.devRef .tc main_arg9) = _
  after_results
  rw [W4_of_ne m ρ c main_arg9 (by decide)]
  show StableHlo.after hostOps1 (W2 m ρ c) (Proc.devRef .tc main_arg9) = _
  after_results
  exact W2_arg9 m ρ c

theorem W10_arg10 : W10 m ρ c (Proc.devRef .tc main_arg10) = m ((c.tc : Thread nD τ).loc main_arg10) := by
  rw [W10_of_ne m ρ c main_arg10 (by decide)]
  show StableHlo.after hostOps4 (W8 m ρ c) (Proc.devRef .tc main_arg10) = _
  after_results
  rw [W8_of_ne m ρ c main_arg10 (by decide)]
  show StableHlo.after hostOps3 (W6 m ρ c) (Proc.devRef .tc main_arg10) = _
  after_results
  rw [W6_of_ne m ρ c main_arg10 (by decide)]
  show StableHlo.after hostOps2 (W4 m ρ c) (Proc.devRef .tc main_arg10) = _
  after_results
  rw [W4_of_ne m ρ c main_arg10 (by decide)]
  show StableHlo.after hostOps1 (W2 m ρ c) (Proc.devRef .tc main_arg10) = _
  after_results
  exact W2_arg10 m ρ c

theorem W10_arg11 : W10 m ρ c (Proc.devRef .tc main_arg11) = m ((c.tc : Thread nD τ).loc main_arg11) := by
  rw [W10_of_ne m ρ c main_arg11 (by decide)]
  show StableHlo.after hostOps4 (W8 m ρ c) (Proc.devRef .tc main_arg11) = _
  after_results
  rw [W8_of_ne m ρ c main_arg11 (by decide)]
  show StableHlo.after hostOps3 (W6 m ρ c) (Proc.devRef .tc main_arg11) = _
  after_results
  rw [W6_of_ne m ρ c main_arg11 (by decide)]
  show StableHlo.after hostOps2 (W4 m ρ c) (Proc.devRef .tc main_arg11) = _
  after_results
  rw [W4_of_ne m ρ c main_arg11 (by decide)]
  show StableHlo.after hostOps1 (W2 m ρ c) (Proc.devRef .tc main_arg11) = _
  after_results
  exact W2_arg11 m ρ c

theorem W12_arg12 : W12 m ρ c (Proc.devRef .tc main_arg12) = m ((c.tc : Thread nD τ).loc main_arg12) := by
  rw [W12_of_ne m ρ c main_arg12 (by decide)]
  show StableHlo.after hostOps5 (W10 m ρ c) (Proc.devRef .tc main_arg12) = _
  after_results
  rw [W10_of_ne m ρ c main_arg12 (by decide)]
  show StableHlo.after hostOps4 (W8 m ρ c) (Proc.devRef .tc main_arg12) = _
  after_results
  rw [W8_of_ne m ρ c main_arg12 (by decide)]
  show StableHlo.after hostOps3 (W6 m ρ c) (Proc.devRef .tc main_arg12) = _
  after_results
  rw [W6_of_ne m ρ c main_arg12 (by decide)]
  show StableHlo.after hostOps2 (W4 m ρ c) (Proc.devRef .tc main_arg12) = _
  after_results
  rw [W4_of_ne m ρ c main_arg12 (by decide)]
  show StableHlo.after hostOps1 (W2 m ρ c) (Proc.devRef .tc main_arg12) = _
  after_results
  exact W2_arg12 m ρ c

theorem W14_arg1 : W14 m ρ c (Proc.devRef .tc main_arg1) = m ((c.tc : Thread nD τ).loc main_arg1) := by
  rw [W14_of_ne m ρ c main_arg1 (by decide)]
  show StableHlo.after hostOps6 (W12 m ρ c) (Proc.devRef .tc main_arg1) = _
  after_results
  rw [W12_of_ne m ρ c main_arg1 (by decide)]
  show StableHlo.after hostOps5 (W10 m ρ c) (Proc.devRef .tc main_arg1) = _
  after_results
  rw [W10_of_ne m ρ c main_arg1 (by decide)]
  show StableHlo.after hostOps4 (W8 m ρ c) (Proc.devRef .tc main_arg1) = _
  after_results
  exact W8_arg1 m ρ c

theorem W14_arg2 : W14 m ρ c (Proc.devRef .tc main_arg2) = m ((c.tc : Thread nD τ).loc main_arg2) := by
  rw [W14_of_ne m ρ c main_arg2 (by decide)]
  show StableHlo.after hostOps6 (W12 m ρ c) (Proc.devRef .tc main_arg2) = _
  after_results
  rw [W12_of_ne m ρ c main_arg2 (by decide)]
  show StableHlo.after hostOps5 (W10 m ρ c) (Proc.devRef .tc main_arg2) = _
  after_results
  rw [W10_of_ne m ρ c main_arg2 (by decide)]
  show StableHlo.after hostOps4 (W8 m ρ c) (Proc.devRef .tc main_arg2) = _
  after_results
  exact W8_arg2 m ρ c

theorem W14_arg3 : W14 m ρ c (Proc.devRef .tc main_arg3) = m ((c.tc : Thread nD τ).loc main_arg3) := by
  rw [W14_of_ne m ρ c main_arg3 (by decide)]
  show StableHlo.after hostOps6 (W12 m ρ c) (Proc.devRef .tc main_arg3) = _
  after_results
  rw [W12_of_ne m ρ c main_arg3 (by decide)]
  show StableHlo.after hostOps5 (W10 m ρ c) (Proc.devRef .tc main_arg3) = _
  after_results
  rw [W10_of_ne m ρ c main_arg3 (by decide)]
  show StableHlo.after hostOps4 (W8 m ρ c) (Proc.devRef .tc main_arg3) = _
  after_results
  exact W8_arg3 m ρ c

theorem W14_arg13 : W14 m ρ c (Proc.devRef .tc main_arg13) = m ((c.tc : Thread nD τ).loc main_arg13) := by
  rw [W14_of_ne m ρ c main_arg13 (by decide)]
  show StableHlo.after hostOps6 (W12 m ρ c) (Proc.devRef .tc main_arg13) = _
  after_results
  rw [W12_of_ne m ρ c main_arg13 (by decide)]
  show StableHlo.after hostOps5 (W10 m ρ c) (Proc.devRef .tc main_arg13) = _
  after_results
  rw [W10_of_ne m ρ c main_arg13 (by decide)]
  show StableHlo.after hostOps4 (W8 m ρ c) (Proc.devRef .tc main_arg13) = _
  after_results
  rw [W8_of_ne m ρ c main_arg13 (by decide)]
  show StableHlo.after hostOps3 (W6 m ρ c) (Proc.devRef .tc main_arg13) = _
  after_results
  rw [W6_of_ne m ρ c main_arg13 (by decide)]
  show StableHlo.after hostOps2 (W4 m ρ c) (Proc.devRef .tc main_arg13) = _
  after_results
  rw [W4_of_ne m ρ c main_arg13 (by decide)]
  show StableHlo.after hostOps1 (W2 m ρ c) (Proc.devRef .tc main_arg13) = _
  after_results
  exact W2_arg13 m ρ c

/-! ## Layout -/

/-- A vector reshaped to one row is the vector read as a row. -/
theorem shapeCast_row {a : ℕ} (x : (⟨1, ![a]⟩ : Shape).Idx → EReal) (h : (⟨1, ![a]⟩ : Shape).ShapeCasts ⟨2, ![1, a]⟩) :
    shapeCast ⟨2, ![1, a]⟩ x h = rowOf x := by
  funext i
  obtain ⟨u, q, rfl⟩ : ∃ (u : Fin 1) (q : Fin a), i = ix2 u q := ⟨i 0, i 1, eq_ix2 i⟩
  exact shapeCast_a_1a_apply x h u q

/-- The row count 50000 as the program writes it. -/
abbrev cN : EReal := Ideal.ofBits .f32 0x47435000#32
/-- The variance offset as the program writes it. -/
abbrev cEps : EReal := Ideal.ofBits .f32 0x3727C5AC#32

/-- The edge aggregation as the host computes it: gather the rows named by the (wrapped) source indices, scale each by
    its edge weight, and add the scaled rows into the rows named by the destination indices of a zero matrix. -/
def aggK128 (row col : IVec S1600000 32) (ew : FVec Ideal S1600000 .f32)
    (h : FVec Ideal S50000x128 .f32) : FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 row)
    (mulf (Host.gather gather_S50000x128_S1600000x1_S1600000x128_1_0_n_n_0_1_1128 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 50000#32))) col)))
      (broadcastInDim S1600000x128 ![0, 1] bcast_S1600000x1_S1600000x128_0_1 (broadcastInDim S1600000x1 ![0] bcast_S1600000_S1600000x1_0 ew)))

/-- The edge aggregation as the host computes it: gather the rows named by the (wrapped) source indices, scale each by
    its edge weight, and add the scaled rows into the rows named by the destination indices of a zero matrix. -/
def aggK40 (row col : IVec S1600000 32) (ew : FVec Ideal S1600000 .f32)
    (h : FVec Ideal S50000x40 .f32) : FVec Ideal S50000x40 .f32 :=
  Host.scatterAdd (F := Ideal) scatter_S50000x40_S1600000x1_S1600000x40_1_0_0_1
    (broadcastInDim S50000x40 ![] bcast_S_S50000x40 (constant (F := Ideal) S_ .f32 0x00000000#32))
    (broadcastInDim S1600000x1 ![0] bcast_S1600000_S1600000x1_0 row)
    (mulf (Host.gather gather_S50000x40_S1600000x1_S1600000x40_1_0_n_n_0_1_140 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 50000#32))) col)))
      (broadcastInDim S1600000x40 ![0, 1] bcast_S1600000x1_S1600000x40_0_1 (broadcastInDim S1600000x1 ![0] bcast_S1600000_S1600000x1_0 ew)))

/-! ## The program's intermediate arrays as functions of the arguments -/

/-- The first layer's product. -/
def kH0 : Mat 50000 128 := mm (m ((c.tc : Thread nD τ).loc main_arg0)) (m ((c.tc : Thread nD τ).loc main_arg4))
/-- The first layer's biased aggregate. -/
def kXb0 : Mat 50000 128 := addRow (aggK128 (m ((c.tc : Thread nD τ).loc main_arg1)) (m ((c.tc : Thread nD τ).loc main_arg2)) (m ((c.tc : Thread nD τ).loc main_arg3)) (kH0 m c)) (rowOf (m ((c.tc : Thread nD τ).loc main_arg5)))
/-- The first layer normalised and rectified. -/
def kRelu0 : Mat 50000 128 := normRelu (kXb0 m c) (meanRow cN (kXb0 m c)) (invStdSq cN cEps (kXb0 m c)) (rowOf (m ((c.tc : Thread nD τ).loc main_arg6))) (rowOf (m ((c.tc : Thread nD τ).loc main_arg7)))
/-- The second layer's product. -/
def kH1 : Mat 50000 128 := mm (kRelu0 m c) (m ((c.tc : Thread nD τ).loc main_arg8))
/-- The second layer's biased aggregate. -/
def kXb1 : Mat 50000 128 := addRow (aggK128 (m ((c.tc : Thread nD τ).loc main_arg1)) (m ((c.tc : Thread nD τ).loc main_arg2)) (m ((c.tc : Thread nD τ).loc main_arg3)) (kH1 m c)) (rowOf (m ((c.tc : Thread nD τ).loc main_arg9)))
/-- The second layer normalised and rectified. -/
def kRelu1 : Mat 50000 128 := normRelu (kXb1 m c) (meanRow cN (kXb1 m c)) (invStdSq cN cEps (kXb1 m c)) (rowOf (m ((c.tc : Thread nD τ).loc main_arg10))) (rowOf (m ((c.tc : Thread nD τ).loc main_arg11)))
/-- The last layer's product. -/
def kH2 : Mat 50000 40 := mm (kRelu1 m c) (m ((c.tc : Thread nD τ).loc main_arg12))
/-- The program's result. -/
def kOut : Mat 50000 40 := addRow (aggK40 (m ((c.tc : Thread nD τ).loc main_arg1)) (m ((c.tc : Thread nD τ).loc main_arg2)) (m ((c.tc : Thread nD τ).loc main_arg3)) (kH2 m c)) (rowOf (m ((c.tc : Thread nD τ).loc main_arg13)))

/-! ## Boundary by boundary -/

/-- A scalar constant broadcast to any shape reads the constant at every index. -/
theorem bcast_scalar_apply {t : Shape} (h : S_.BroadcastsInDim t (![] : Fin 0 → Fin t.rank)) (b : BitVec 32) (j : t.Idx) :
    broadcastInDim t ![] h (constant (F := Ideal) S_ .f32 b) j = Ideal.ofBits .f32 b :=
  (broadcastInDim_apply ![] h _ j ix0 (fun a => a.elim0)).trans rfl

set_option maxHeartbeats 4000000 in
theorem s1_x : V1 m ρ c main_arg0 = (m ((c.tc : Thread nD τ).loc main_arg0)) := by
  show StableHlo.after hostOps0 (W0 m ρ c) (Proc.devRef .tc main_arg0) = _
  after_results
  try rfl

set_option maxHeartbeats 4000000 in
theorem s1_w : V1 m ρ c main_v0 = (m ((c.tc : Thread nD τ).loc main_arg4)) := by
  show StableHlo.after hostOps0 (W0 m ρ c) (Proc.devRef .tc main_v0) = _
  after_results
  try rfl

theorem s2 : W2 m ρ c (Proc.devRef .tc main_v1) = kH0 m c := by
  refine (W2_arr m ρ c 2).trans ((gemm0 (V1 m ρ) c).trans ?_)
  show mm (V1 m ρ c main_arg0) (V1 m ρ c main_v0) = _
  rw [s1_x m ρ c, s1_w m ρ c]; rfl

set_option maxHeartbeats 4000000 in
theorem l0a_a : V3 m ρ c main_v14 = aggK128 (m ((c.tc : Thread nD τ).loc main_arg1)) (m ((c.tc : Thread nD τ).loc main_arg2)) (m ((c.tc : Thread nD τ).loc main_arg3)) (kH0 m c) := by
  show StableHlo.after hostOps1 (W2 m ρ c) (Proc.devRef .tc main_v14) = _
  after_results
  rw [W2_arg1 m ρ c, W2_arg2 m ρ c, W2_arg3 m ρ c, s2 m ρ c]
  rfl

set_option maxHeartbeats 4000000 in
theorem l0a_b : V3 m ρ c main_v15 = rowOf (m ((c.tc : Thread nD τ).loc main_arg5)) := by
  show StableHlo.after hostOps1 (W2 m ρ c) (Proc.devRef .tc main_v15) = _
  after_results
  rw [W2_arg5 m ρ c]
  exact shapeCast_row _ _

theorem l0b_xb : W4 m ρ c (Proc.devRef .tc main_v16_0) = kXb0 m c := by
  refine (W4_arr m ρ c 2).trans ((stats1_xb (V3 m ρ) c).trans ?_)
  show addRow (V3 m ρ c main_v14) (V3 m ρ c main_v15) = _
  rw [l0a_a m ρ c, l0a_b m ρ c]; rfl

theorem l0b_sum : W4 m ρ c (Proc.devRef .tc main_v16_1) = colSum (kXb0 m c) := by
  refine (W4_arr m ρ c 3).trans ((stats1_sum (V3 m ρ) c).trans ?_)
  show colSum (addRow (V3 m ρ c main_v14) (V3 m ρ c main_v15)) = _
  rw [l0a_a m ρ c, l0a_b m ρ c]; rfl

theorem l0b_sq : W4 m ρ c (Proc.devRef .tc main_v16_2) = colSumSq (kXb0 m c) := by
  refine (W4_arr m ρ c 4).trans ((stats1_sumsq (V3 m ρ) c).trans ?_)
  show colSumSq (addRow (V3 m ρ c main_v14) (V3 m ρ c main_v15)) = _
  rw [l0a_a m ρ c, l0a_b m ρ c]; rfl

set_option maxHeartbeats 4000000 in
theorem l0c_xb : V5 m ρ c main_v16_0 = kXb0 m c := by
  show StableHlo.after hostOps2 (W4 m ρ c) (Proc.devRef .tc main_v16_0) = _
  after_results
  exact l0b_xb m ρ c

set_option maxHeartbeats 4000000 in
theorem l0c_mean : V5 m ρ c main_v18 = meanRow cN (kXb0 m c) := by
  show StableHlo.after hostOps2 (W4 m ρ c) (Proc.devRef .tc main_v18) = _
  after_results
  rw [l0b_sum m ρ c]
  funext i
  show Ideal.div (colSum (kXb0 m c) i) (broadcastInDim S1x128 ![] bcast_S_S1x128 (constant (F := Ideal) S_ .f32 0x47435000#32) i) = _
  rw [bcast_scalar_apply]; rfl

set_option maxHeartbeats 4000000 in
theorem l0c_inv : V5 m ρ c main_v25 = invStdSq cN cEps (kXb0 m c) := by
  show StableHlo.after hostOps2 (W4 m ρ c) (Proc.devRef .tc main_v25) = _
  after_results
  rw [l0b_sum m ρ c, l0b_sq m ρ c]
  funext i
  show Ideal.rsqrt ((Ideal.div (colSumSq (kXb0 m c) i) (broadcastInDim S1x128 ![] bcast_S_S1x128 (constant (F := Ideal) S_ .f32 0x47435000#32) i)
      - Ideal.div (colSum (kXb0 m c) i) (broadcastInDim S1x128 ![] bcast_S_S1x128 (constant (F := Ideal) S_ .f32 0x47435000#32) i)
        * Ideal.div (colSum (kXb0 m c) i) (broadcastInDim S1x128 ![] bcast_S_S1x128 (constant (F := Ideal) S_ .f32 0x47435000#32) i))
      + broadcastInDim S1x128 ![] bcast_S_S1x128 (constant (F := Ideal) S_ .f32 0x3727C5AC#32) i) = _
  simp only [bcast_scalar_apply]; rfl

set_option maxHeartbeats 4000000 in
theorem l0c_g : V5 m ρ c main_v26 = rowOf (m ((c.tc : Thread nD τ).loc main_arg6)) := by
  show StableHlo.after hostOps2 (W4 m ρ c) (Proc.devRef .tc main_v26) = _
  after_results
  rw [W4_arg6 m ρ c]
  exact shapeCast_row _ _

set_option maxHeartbeats 4000000 in
theorem l0c_be : V5 m ρ c main_v27 = rowOf (m ((c.tc : Thread nD τ).loc main_arg7)) := by
  show StableHlo.after hostOps2 (W4 m ρ c) (Proc.devRef .tc main_v27) = _
  after_results
  rw [W4_arg7 m ρ c]
  exact shapeCast_row _ _

theorem l0d : W6 m ρ c (Proc.devRef .tc main_v28) = kRelu0 m c := by
  refine (W6_arr m ρ c 5).trans ((norm2 (V5 m ρ) c).trans ?_)
  show normRelu (V5 m ρ c main_v16_0) (V5 m ρ c main_v18) (V5 m ρ c main_v25) (V5 m ρ c main_v26) (V5 m ρ c main_v27) = _
  rw [l0c_xb m ρ c, l0c_mean m ρ c, l0c_inv m ρ c, l0c_g m ρ c, l0c_be m ρ c]; rfl

set_option maxHeartbeats 4000000 in
theorem l0e_x : V7 m ρ c main_v28 = kRelu0 m c := by
  show StableHlo.after hostOps3 (W6 m ρ c) (Proc.devRef .tc main_v28) = _
  after_results
  exact l0d m ρ c

set_option maxHeartbeats 4000000 in
theorem l0e_w : V7 m ρ c main_v29 = (m ((c.tc : Thread nD τ).loc main_arg8)) := by
  show StableHlo.after hostOps3 (W6 m ρ c) (Proc.devRef .tc main_v29) = _
  after_results
  rw [W6_arg8 m ρ c]
  try rfl

theorem l0f : W8 m ρ c (Proc.devRef .tc main_v30) = kH1 m c := by
  refine (W8_arr m ρ c 2).trans ((gemm3 (V7 m ρ) c).trans ?_)
  show mm (V7 m ρ c main_v28) (V7 m ρ c main_v29) = _
  rw [l0e_x m ρ c, l0e_w m ρ c]; rfl

set_option maxHeartbeats 4000000 in
theorem l1a_a : V9 m ρ c main_v43 = aggK128 (m ((c.tc : Thread nD τ).loc main_arg1)) (m ((c.tc : Thread nD τ).loc main_arg2)) (m ((c.tc : Thread nD τ).loc main_arg3)) (kH1 m c) := by
  show StableHlo.after hostOps4 (W8 m ρ c) (Proc.devRef .tc main_v43) = _
  after_results
  rw [W8_arg1 m ρ c, W8_arg2 m ρ c, W8_arg3 m ρ c, l0f m ρ c]
  rfl

set_option maxHeartbeats 4000000 in
theorem l1a_b : V9 m ρ c main_v44 = rowOf (m ((c.tc : Thread nD τ).loc main_arg9)) := by
  show StableHlo.after hostOps4 (W8 m ρ c) (Proc.devRef .tc main_v44) = _
  after_results
  rw [W8_arg9 m ρ c]
  exact shapeCast_row _ _

theorem l1b_xb : W10 m ρ c (Proc.devRef .tc main_v45_0) = kXb1 m c := by
  refine (W10_arr m ρ c 2).trans ((stats4_xb (V9 m ρ) c).trans ?_)
  show addRow (V9 m ρ c main_v43) (V9 m ρ c main_v44) = _
  rw [l1a_a m ρ c, l1a_b m ρ c]; rfl

theorem l1b_sum : W10 m ρ c (Proc.devRef .tc main_v45_1) = colSum (kXb1 m c) := by
  refine (W10_arr m ρ c 3).trans ((stats4_sum (V9 m ρ) c).trans ?_)
  show colSum (addRow (V9 m ρ c main_v43) (V9 m ρ c main_v44)) = _
  rw [l1a_a m ρ c, l1a_b m ρ c]; rfl

theorem l1b_sq : W10 m ρ c (Proc.devRef .tc main_v45_2) = colSumSq (kXb1 m c) := by
  refine (W10_arr m ρ c 4).trans ((stats4_sumsq (V9 m ρ) c).trans ?_)
  show colSumSq (addRow (V9 m ρ c main_v43) (V9 m ρ c main_v44)) = _
  rw [l1a_a m ρ c, l1a_b m ρ c]; rfl

set_option maxHeartbeats 4000000 in
theorem l1c_xb : V11 m ρ c main_v45_0 = kXb1 m c := by
  show StableHlo.after hostOps5 (W10 m ρ c) (Proc.devRef .tc main_v45_0) = _
  after_results
  exact l1b_xb m ρ c

set_option maxHeartbeats 4000000 in
theorem l1c_mean : V11 m ρ c main_v47 = meanRow cN (kXb1 m c) := by
  show StableHlo.after hostOps5 (W10 m ρ c) (Proc.devRef .tc main_v47) = _
  after_results
  rw [l1b_sum m ρ c]
  funext i
  show Ideal.div (colSum (kXb1 m c) i) (broadcastInDim S1x128 ![] bcast_S_S1x128 (constant (F := Ideal) S_ .f32 0x47435000#32) i) = _
  rw [bcast_scalar_apply]; rfl

set_option maxHeartbeats 4000000 in
theorem l1c_inv : V11 m ρ c main_v54 = invStdSq cN cEps (kXb1 m c) := by
  show StableHlo.after hostOps5 (W10 m ρ c) (Proc.devRef .tc main_v54) = _
  after_results
  rw [l1b_sum m ρ c, l1b_sq m ρ c]
  funext i
  show Ideal.rsqrt ((Ideal.div (colSumSq (kXb1 m c) i) (broadcastInDim S1x128 ![] bcast_S_S1x128 (constant (F := Ideal) S_ .f32 0x47435000#32) i)
      - Ideal.div (colSum (kXb1 m c) i) (broadcastInDim S1x128 ![] bcast_S_S1x128 (constant (F := Ideal) S_ .f32 0x47435000#32) i)
        * Ideal.div (colSum (kXb1 m c) i) (broadcastInDim S1x128 ![] bcast_S_S1x128 (constant (F := Ideal) S_ .f32 0x47435000#32) i))
      + broadcastInDim S1x128 ![] bcast_S_S1x128 (constant (F := Ideal) S_ .f32 0x3727C5AC#32) i) = _
  simp only [bcast_scalar_apply]; rfl

set_option maxHeartbeats 4000000 in
theorem l1c_g : V11 m ρ c main_v55 = rowOf (m ((c.tc : Thread nD τ).loc main_arg10)) := by
  show StableHlo.after hostOps5 (W10 m ρ c) (Proc.devRef .tc main_v55) = _
  after_results
  rw [W10_arg10 m ρ c]
  exact shapeCast_row _ _

set_option maxHeartbeats 4000000 in
theorem l1c_be : V11 m ρ c main_v56 = rowOf (m ((c.tc : Thread nD τ).loc main_arg11)) := by
  show StableHlo.after hostOps5 (W10 m ρ c) (Proc.devRef .tc main_v56) = _
  after_results
  rw [W10_arg11 m ρ c]
  exact shapeCast_row _ _

theorem l1d : W12 m ρ c (Proc.devRef .tc main_v57) = kRelu1 m c := by
  refine (W12_arr m ρ c 5).trans ((norm5 (V11 m ρ) c).trans ?_)
  show normRelu (V11 m ρ c main_v45_0) (V11 m ρ c main_v47) (V11 m ρ c main_v54) (V11 m ρ c main_v55) (V11 m ρ c main_v56) = _
  rw [l1c_xb m ρ c, l1c_mean m ρ c, l1c_inv m ρ c, l1c_g m ρ c, l1c_be m ρ c]; rfl

set_option maxHeartbeats 4000000 in
theorem l1e_x : V13 m ρ c main_v57 = kRelu1 m c := by
  show StableHlo.after hostOps6 (W12 m ρ c) (Proc.devRef .tc main_v57) = _
  after_results
  exact l1d m ρ c

set_option maxHeartbeats 4000000 in
theorem l1e_w : V13 m ρ c main_v58 = (m ((c.tc : Thread nD τ).loc main_arg12)) := by
  show StableHlo.after hostOps6 (W12 m ρ c) (Proc.devRef .tc main_v58) = _
  after_results
  rw [W12_arg12 m ρ c]
  try rfl

theorem l1f : W14 m ρ c (Proc.devRef .tc main_v59) = kH2 m c := by
  refine (W14_arr m ρ c 2).trans ((gemm6 (V13 m ρ) c).trans ?_)
  show mm (V13 m ρ c main_v57) (V13 m ρ c main_v58) = _
  rw [l1e_x m ρ c, l1e_w m ρ c]; rfl

set_option maxHeartbeats 4000000 in
theorem l2a_a : V15 m ρ c main_v72 = aggK40 (m ((c.tc : Thread nD τ).loc main_arg1)) (m ((c.tc : Thread nD τ).loc main_arg2)) (m ((c.tc : Thread nD τ).loc main_arg3)) (kH2 m c) := by
  show StableHlo.after hostOps7 (W14 m ρ c) (Proc.devRef .tc main_v72) = _
  after_results
  rw [W14_arg1 m ρ c, W14_arg2 m ρ c, W14_arg3 m ρ c, l1f m ρ c]
  rfl

set_option maxHeartbeats 4000000 in
theorem l2a_b : V15 m ρ c main_v73 = rowOf (m ((c.tc : Thread nD τ).loc main_arg13)) := by
  show StableHlo.after hostOps7 (W14 m ρ c) (Proc.devRef .tc main_v73) = _
  after_results
  rw [W14_arg13 m ρ c]
  exact shapeCast_row _ _

/-- The program's result buffer at the last boundary is the result function of the arguments. -/
theorem result_eq : W16 m ρ c (Proc.devRef .tc main_v74) = kOut m c := by
  refine (W16_arr m ρ c 2).trans ((bias7 (V15 m ρ) c).trans ?_)
  show addRow (V15 m ρ c main_v72) (V15 m ρ c main_v73) = _
  rw [l2a_a m ρ c, l2a_b m ρ c]; rfl

end Cert.KernelIdeal.Chain

end
-- ==== Proof.RefLin.lean ====
/-
  The linear steps of the reference network, each read as a whole-array function over the extended reals.

  The three dense products of the network (operations 0, 43 and 86) are matrix products: a product's entry
  (r, q) is the sum over the 128 contraction positions k of the left operand at (r, k) times the right
  operand at (k, q), which is the definition of `mm`.

  The three bias additions (operations 16, 59 and 102) add a vector to every row of a matrix: the vector of
  length p is first broadcast to a 1 × p row and then to all 50000 rows, so the summand at (r, q) is the
  vector's entry q, which is `addRow` of the matrix and the vector read as a row (`rowOf`).
-/
import proofs.«161987_j51084341018872_1_alg».proof.Proof.Gen.ReferenceIdeal.Read
import proofs.«161987_j51084341018872_1_alg».proof.Proof.Spec

set_option maxRecDepth 16384

noncomputable section

open scoped BigOperators

namespace Cert.ReferenceIdeal.RefLin

open Cert.ReferenceIdeal Cert.ReferenceIdeal.Gen Cert.ReferenceIdeal.Read Cert.GcnSpec
open Idealize.ShloMosaic Idealize.ShloMosaic.TcCoe Idealize.ShloMosaic.ValueIdx

/-! ## The three products -/

/-- Operation 0 of the reference is a matrix product: entry (r, q) is the sum over k of the left operand at (r, k)
    times the right operand at (k, q). -/
theorem val_main_v0_eq_mm (x0 : (⟨S50000x128, .f32⟩ : BufTy).Contents (Elt Ideal)) (x4 : (⟨S128x128, .f32⟩ : BufTy).Contents (Elt Ideal)) :
    val_main_v0 (F := Ideal) x0 x4 = mm x0 x4 := by
  funext i
  rw [val_main_v0_apply]
  unfold mm
  refine Finset.sum_congr rfl fun k _ => ?_
  have el : lidx_main_v0 i k = ix2 (i 0) k := funext fun a => by
    match a with
    | ⟨0, _⟩ => rfl
    | ⟨1, _⟩ => rfl
  have er : ridx_main_v0 i k = ix2 k (i 1) := funext fun a => by
    match a with
    | ⟨0, _⟩ => rfl
    | ⟨1, _⟩ => rfl
  rw [el, er]
  rfl

/-- Operation 43 of the reference is a matrix product: entry (r, q) is the sum over k of the left operand at (r, k)
    times the right operand at (k, q). -/
theorem val_main_v43_eq_mm (x0 : (⟨S50000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) :
    val_main_v43 (F := Ideal) x0 x1 x2 x3 x4 x5 x6 x7 x8 = mm (val_main_v42 (F := Ideal) x0 x1 x2 x3 x4 x5 x6 x7) x8 := by
  funext i
  rw [val_main_v43_apply]
  unfold mm
  refine Finset.sum_congr rfl fun k _ => ?_
  have el : lidx_main_v43 i k = ix2 (i 0) k := funext fun a => by
    match a with
    | ⟨0, _⟩ => rfl
    | ⟨1, _⟩ => rfl
  have er : ridx_main_v43 i k = ix2 k (i 1) := funext fun a => by
    match a with
    | ⟨0, _⟩ => rfl
    | ⟨1, _⟩ => rfl
  rw [el, er]
  rfl

/-- Operation 86 of the reference is a matrix product: entry (r, q) is the sum over k of the left operand at (r, k)
    times the right operand at (k, q). -/
theorem val_main_v86_eq_mm (x0 : (⟨S50000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x40, .f32⟩ : BufTy).Contents (Elt Ideal)) :
    val_main_v86 (F := Ideal) x0 x1 x2 x3 x4 x5 x6 x7 x8 x9 x10 x11 x12 = mm (val_main_v85 (F := Ideal) x0 x1 x2 x3 x4 x5 x6 x7 x8 x9 x10 x11) x12 := by
  funext i
  rw [val_main_v86_apply]
  unfold mm
  refine Finset.sum_congr rfl fun k _ => ?_
  have el : lidx_main_v86 i k = ix2 (i 0) k := funext fun a => by
    match a with
    | ⟨0, _⟩ => rfl
    | ⟨1, _⟩ => rfl
  have er : ridx_main_v86 i k = ix2 k (i 1) := funext fun a => by
    match a with
    | ⟨0, _⟩ => rfl
    | ⟨1, _⟩ => rfl
  rw [el, er]
  rfl

/-! ## The three bias additions -/

/-- Operation 16 of the reference adds the bias vector, read as a row, to every row of operation 13's result: the
    vector is broadcast first to one row and then down the rows, so at (r, q) it is the vector at q. -/
theorem val_main_v16_eq_addRow (x0 : (⟨S50000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) :
    val_main_v16 (F := Ideal) x0 x1 x2 x3 x4 x5 = addRow (val_main_v13 (F := Ideal) x0 x1 x2 x3 x4) (rowOf x5) := by
  funext i
  rw [val_main_v16_apply, val_main_v15_apply, val_main_v14_apply]
  unfold addRow rowOf
  have e : idx_main_v14 (idx_main_v15 i) = ix1 (i 1) := funext fun a => by
    match a with
    | ⟨0, _⟩ => rfl
  rw [e]
  rfl

/-- Operation 59 of the reference adds the bias vector, read as a row, to every row of operation 56's result: the
    vector is broadcast first to one row and then down the rows, so at (r, q) it is the vector at q. -/
theorem val_main_v59_eq_addRow (x0 : (⟨S50000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v59 (F := Ideal) x0 x1 x2 x3 x4 x5 x6 x7 x8 x9 = addRow (val_main_v56 (F := Ideal) x0 x1 x2 x3 x4 x5 x6 x7 x8) (rowOf x9) := by
  funext i
  rw [val_main_v59_apply, val_main_v58_apply, val_main_v57_apply]
  unfold addRow rowOf
  have e : idx_main_v57 (idx_main_v58 i) = ix1 (i 1) := funext fun a => by
    match a with
    | ⟨0, _⟩ => rfl
  rw [e]
  rfl

/-- Operation 102 of the reference adds the bias vector, read as a row, to every row of operation 99's result: the
    vector is broadcast first to one row and then down the rows, so at (r, q) it is the vector at q. -/
theorem val_main_v102_eq_addRow (x0 : (⟨S50000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x40, .f32⟩ : BufTy).Contents (Elt Ideal)) (x13 : (⟨S40, .f32⟩ : BufTy).Contents (Elt Ideal)) :
    val_main_v102 (F := Ideal) x0 x1 x2 x3 x4 x5 x6 x7 x8 x9 x10 x11 x12 x13 = addRow (val_main_v99 (F := Ideal) x0 x1 x2 x3 x4 x5 x6 x7 x8 x9 x10 x11 x12) (rowOf x13) := by
  funext i
  rw [val_main_v102_apply, val_main_v101_apply, val_main_v100_apply]
  unfold addRow rowOf
  have e : idx_main_v100 (idx_main_v101 i) = ix1 (i 1) := funext fun a => by
    match a with
    | ⟨0, _⟩ => rfl
  rw [e]
  rfl

end Cert.ReferenceIdeal.RefLin

end
-- ==== Proof.RefAgg.lean ====
/-
  The neighbourhood aggregation of the reference network, named once and recognised at its three occurrences.

  For a matrix h with 50000 rows the aggregation starts from the zero matrix and adds, for each of the 1600000
  edges e, the row src(e) of h scaled by the weight of e to row dst(e): a gather of rows, a product with the
  weights broadcast along the rows, and a scatter that adds. The three occurrences in the reference (after each
  of the three dense products) are this one function of the product's result: their terms differ only in the
  names of equal constants. Every entry of the result is zero plus a finite sum of products of an entry of h and
  a weight, so real entries and real weights give real entries.
-/
import proofs.«161987_j51084341018872_1_alg».proof.Proof.Gen.ReferenceIdeal.Read
import proofs.«161987_j51084341018872_1_alg».proof.Proof.Algebra

set_option maxRecDepth 16384

noncomputable section

open scoped BigOperators

namespace Cert.ReferenceIdeal.RefAgg

open Cert.ReferenceIdeal Cert.ReferenceIdeal.Gen Cert.ReferenceIdeal.Read Cert.GcnSpec
open Idealize.ShloMosaic Idealize.ShloMosaic.TcCoe Idealize.ShloMosaic.ValueIdx

/-! ## The aggregation -/

/-- The neighbourhood aggregation of a 50000 × 128 matrix h: start from the zero matrix and, for every edge e, add to row
    dst(e) the row src(e) of h scaled by the edge's weight (x1 holds the destinations, x2 the sources, x3 the weights). -/
def agg128 (x1 x2 : (⟨S1600000, .i32⟩ : BufTy).Contents (Elt Ideal)) (x3 : (⟨S1600000, .f32⟩ : BufTy).Contents (Elt Ideal))
    (h : (⟨S50000x128, .f32⟩ : BufTy).Contents (Elt Ideal)) : FVec Ideal S50000x128 .f32 :=
  Host.scatterAdd (F := Ideal) scatter_S50000x128_S1600000x1_S1600000x128_1_0_0_1 (val_main_v11 (F := Ideal)) (val_main_v12 (F := Ideal) x1)
    (mulf (Host.gather gather_S50000x128_S1600000x1_S1600000x128_1_0_n_n_0_1_1128 h (val_main_v6 (F := Ideal) x2)) (val_main_v9 (F := Ideal) x3))

/-- The neighbourhood aggregation of a 50000 × 40 matrix h: start from the zero matrix and, for every edge e, add to row
    dst(e) the row src(e) of h scaled by the edge's weight (x1 holds the destinations, x2 the sources, x3 the weights). -/
def agg40 (x1 x2 : (⟨S1600000, .i32⟩ : BufTy).Contents (Elt Ideal)) (x3 : (⟨S1600000, .f32⟩ : BufTy).Contents (Elt Ideal))
    (h : (⟨S50000x40, .f32⟩ : BufTy).Contents (Elt Ideal)) : FVec Ideal S50000x40 .f32 :=
  Host.scatterAdd (F := Ideal) scatter_S50000x40_S1600000x1_S1600000x40_1_0_0_1 (val_main_v97 (F := Ideal)) (val_main_v98 (F := Ideal) x1)
    (mulf (Host.gather gather_S50000x40_S1600000x1_S1600000x40_1_0_n_n_0_1_140 h (val_main_v92 (F := Ideal) x2)) (val_main_v95 (F := Ideal) x3))

/-! ## Equal terms under other names -/

/-- The second occurrence's zero matrix, destination indices, source indices and broadcast weights are the first's. -/
theorem zero_v54 : val_main_v54 (F := Ideal) = val_main_v11 (F := Ideal) := by
  unfold val_main_v54 val_main_v11 val_main_cst_8 val_main_cst
  rfl

theorem dst_v55 (x1 : (⟨S1600000, .i32⟩ : BufTy).Contents (Elt Ideal)) : val_main_v55 (F := Ideal) x1 = val_main_v12 (F := Ideal) x1 := by
  unfold val_main_v55 val_main_v12
  rfl

theorem src_v49 (x2 : (⟨S1600000, .i32⟩ : BufTy).Contents (Elt Ideal)) : val_main_v49 (F := Ideal) x2 = val_main_v6 (F := Ideal) x2 := by
  unfold val_main_v49 val_main_v6 val_main_v48 val_main_v5 val_main_v45 val_main_v2 val_main_v47 val_main_v4
    val_main_v44 val_main_v1 val_main_v46 val_main_v3 val_main_c_6 val_main_c val_main_c_7 val_main_c_0
  rfl

theorem wts_v52 (x3 : (⟨S1600000, .f32⟩ : BufTy).Contents (Elt Ideal)) : val_main_v52 (F := Ideal) x3 = val_main_v9 (F := Ideal) x3 := by
  unfold val_main_v52 val_main_v9 val_main_v51 val_main_v8
  rfl

/-! ## Its three occurrences -/

/-- Operation 13 of the reference is the aggregation of operation 0's result (the same term, by unfolding). -/
theorem val_main_v13_eq_agg (x0 : (⟨S50000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x128, .f32⟩ : BufTy).Contents (Elt Ideal)) :
    val_main_v13 (F := Ideal) x0 x1 x2 x3 x4 = agg128 x1 x2 x3 (val_main_v0 (F := Ideal) x0 x4) := by
  unfold val_main_v13 val_main_v10 val_main_v7 agg128
  rfl

/-- Operation 56 of the reference is the aggregation of operation 43's result: the same term up to the names of the
    zero matrix, the index vectors and the weights. -/
theorem val_main_v56_eq_agg (x0 : (⟨S50000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) :
    val_main_v56 (F := Ideal) x0 x1 x2 x3 x4 x5 x6 x7 x8 = agg128 x1 x2 x3 (val_main_v43 (F := Ideal) x0 x1 x2 x3 x4 x5 x6 x7 x8) := by
  unfold val_main_v56 val_main_v53 val_main_v50 agg128
  rw [zero_v54, dst_v55, src_v49, wts_v52]

/-- Operation 99 of the reference is the 40-column aggregation of operation 86's result (the same term, by unfolding). -/
theorem val_main_v99_eq_agg (x0 : (⟨S50000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (x12 : (⟨S128x40, .f32⟩ : BufTy).Contents (Elt Ideal)) :
    val_main_v99 (F := Ideal) x0 x1 x2 x3 x4 x5 x6 x7 x8 x9 x10 x11 x12 = agg40 x1 x2 x3 (val_main_v86 (F := Ideal) x0 x1 x2 x3 x4 x5 x6 x7 x8 x9 x10 x11 x12) := by
  unfold val_main_v99 val_main_v96 val_main_v93 agg40
  rfl

/-! ## Real entries -/

/-- A scatter that adds, over the extended reals: real operand entries and real updates give real entries. -/
theorem isReal_scatterAdd {s si su : Shape} {φ : FTy} {w : Nat} (d : ScatterDims s si su) {x : FVec Ideal s φ}
    (idx : IVec si w) {upd : FVec Ideal su φ} (hx : ∀ i, IsReal (x i)) (hu : ∀ j, IsReal (upd j)) :
    ∀ i, IsReal (Host.scatterAdd (F := Ideal) d x idx upd i) := by
  intro i
  simp only [Host.scatterAdd, Ideal.hostScatterAdd_def]
  exact isReal_hostScatterAdd d idx hx hu i

/-- The aggregation of a matrix of real entries with real edge weights has real entries: every entry is zero plus a finite
    sum of products of an entry of h and a weight. -/
theorem isReal_agg128 {x1 x2 : (⟨S1600000, .i32⟩ : BufTy).Contents (Elt Ideal)} {x3 : (⟨S1600000, .f32⟩ : BufTy).Contents (Elt Ideal)}
    {h : (⟨S50000x128, .f32⟩ : BufTy).Contents (Elt Ideal)} (hh : ∀ i, IsReal (h i)) (h3 : ∀ i, IsReal (x3 i)) :
    ∀ i, IsReal (agg128 x1 x2 x3 h i) := by
  intro i
  unfold agg128
  refine isReal_scatterAdd _ _ (fun i => ?_) (fun j => ?_) i
  · rw [val_main_v11_apply, val_main_cst_apply]
    exact isReal_ofBits_zero
  · rw [mulf_apply]
    refine IsReal.mul (isReal_gather _ _ hh j) ?_
    rw [val_main_v9_apply, val_main_v8_apply]
    exact h3 _

/-- The aggregation of a matrix of real entries with real edge weights has real entries: every entry is zero plus a finite
    sum of products of an entry of h and a weight. -/
theorem isReal_agg40 {x1 x2 : (⟨S1600000, .i32⟩ : BufTy).Contents (Elt Ideal)} {x3 : (⟨S1600000, .f32⟩ : BufTy).Contents (Elt Ideal)}
    {h : (⟨S50000x40, .f32⟩ : BufTy).Contents (Elt Ideal)} (hh : ∀ i, IsReal (h i)) (h3 : ∀ i, IsReal (x3 i)) :
    ∀ i, IsReal (agg40 x1 x2 x3 h i) := by
  intro i
  unfold agg40
  refine isReal_scatterAdd _ _ (fun i => ?_) (fun j => ?_) i
  · rw [val_main_v97_apply, val_main_cst_16_apply]
    exact isReal_ofBits_zero
  · rw [mulf_apply]
    refine IsReal.mul (isReal_gather _ _ hh j) ?_
    rw [val_main_v95_apply, val_main_v94_apply]
    exact h3 _
end Cert.ReferenceIdeal.RefAgg

end
-- ==== Proof.RefBn0.lean ====
/-
  The first normalised layer of the reference network, read as one whole-array function over the extended
  reals: batch normalisation of the 50000 × 128 matrix X (operation 16's result) with the statistics of its
  own columns, an affine map per column, and the rectifier.

  The steps, each proved from the few operations it is made of and then used as one equation:
    * the mean of column q is the column's sum (a sum started from zero) divided by the row count;
    * the deviation of an entry from its column's mean, the mean having been broadcast to a row and then
      down the rows;
    * the variance of column q is the sum of the squared deviations divided by the row count, and the
      inverse standard deviation is the reciprocal square root of the variance plus a small constant;
    * an entry of the layer is max((X(r, q) − mean(q)) · invstd(q) · gamma(q) + beta(q), 0), with gamma, beta
      the two parameter vectors read as rows, which is `normRelu`.
-/
import proofs.«161987_j51084341018872_1_alg».proof.Proof.Gen.ReferenceIdeal.Read
import proofs.«161987_j51084341018872_1_alg».proof.Proof.Spec

set_option maxRecDepth 16384

noncomputable section

open scoped BigOperators

namespace Cert.ReferenceIdeal.RefBn0

open Cert.ReferenceIdeal Cert.ReferenceIdeal.Gen Cert.ReferenceIdeal.Read Cert.GcnSpec
open Idealize.ShloMosaic Idealize.ShloMosaic.TcCoe Idealize.ShloMosaic.ValueIdx

/-! ## Index maps -/

/-- The k-th summand of column (j 0)'s sum is the entry (k, j 0). -/
theorem colIdx_v17 (j : S128.Idx) (k : Fin 50000) : idx_main_v17 j k = ix2 k (j 0) := funext fun a => by
  match a with
  | ⟨0, _⟩ => rfl
  | ⟨1, _⟩ => rfl

theorem colIdx_v24 (j : S128.Idx) (k : Fin 50000) : idx_main_v24 j k = ix2 k (j 0) := funext fun a => by
  match a with
  | ⟨0, _⟩ => rfl
  | ⟨1, _⟩ => rfl

/-! ## The parameter vectors as rows -/

/-- The scale vector broadcast to a row and then down the rows (operations 36, 37): at (r, q) its entry q. -/
theorem scale_v37 (x6 : (⟨S128, .f32⟩ : BufTy).Contents (Elt Ideal)) (i : S50000x128.Idx) :
    val_main_v37 (F := Ideal) x6 i = rowOf x6 (ix2 (0 : Fin 1) (i 1)) := by
  rw [val_main_v37_apply, val_main_v36_apply]
  unfold rowOf
  have e : idx_main_v36 (idx_main_v37 i) = ix1 (i 1) := funext fun a => by
    match a with
    | ⟨0, _⟩ => rfl
  rw [e]
  rfl

/-- The shift vector broadcast to a row and then down the rows (operations 39, 40): at (r, q) its entry q. -/
theorem shift_v40 (x7 : (⟨S128, .f32⟩ : BufTy).Contents (Elt Ideal)) (i : S50000x128.Idx) :
    val_main_v40 (F := Ideal) x7 i = rowOf x7 (ix2 (0 : Fin 1) (i 1)) := by
  rw [val_main_v40_apply, val_main_v39_apply]
  unfold rowOf
  have e : idx_main_v39 (idx_main_v40 i) = ix1 (i 1) := funext fun a => by
    match a with
    | ⟨0, _⟩ => rfl
  rw [e]
  rfl

section Layer

variable (x0 : (⟨S50000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 x6 x7 : (⟨S128, .f32⟩ : BufTy).Contents (Elt Ideal))

/-! ## The column means -/

/-- Operation 19: the mean of column (j 0), the column's sum divided by the row count. -/
theorem mean_v19 (j : S128.Idx) :
    val_main_v19 (F := Ideal) x0 x1 x2 x3 x4 x5 j = meanRow (Ideal.ofBits .f32 0x47435000#32) (val_main_v16 (F := Ideal) x0 x1 x2 x3 x4 x5) (ix2 (0 : Fin 1) (j 0)) := by
  rw [val_main_v19_apply, val_main_v17_apply, val_main_v18_apply, val_main_cst_2_apply, val_main_cst_1_apply]
  simp only [colIdx_v17]
  rw [show (FloatOps.ofBits .f32 0x00000000#32 : Ideal .f32) = 0 from Ideal.ofBits_zero_f32, zero_add]
  rfl

/-- The column means broadcast down the rows (operations 20, 21): at (r, q) the mean of column q. -/
theorem mean_v21 (i : S50000x128.Idx) :
    val_main_v21 (F := Ideal) x0 x1 x2 x3 x4 x5 i = meanRow (Ideal.ofBits .f32 0x47435000#32) (val_main_v16 (F := Ideal) x0 x1 x2 x3 x4 x5) (ix2 (0 : Fin 1) (i 1)) := by
  rw [val_main_v21_apply, val_main_v20_apply, mean_v19]
  rfl

/-- The column means broadcast down the rows (operations 27, 28): at (r, q) the mean of column q. -/
theorem mean_v28 (i : S50000x128.Idx) :
    val_main_v28 (F := Ideal) x0 x1 x2 x3 x4 x5 i = meanRow (Ideal.ofBits .f32 0x47435000#32) (val_main_v16 (F := Ideal) x0 x1 x2 x3 x4 x5) (ix2 (0 : Fin 1) (i 1)) := by
  rw [val_main_v28_apply, val_main_v27_apply, mean_v19]
  rfl

/-- Operation 22: the deviation of an entry from its column's mean. -/
theorem dev_v22 (i : S50000x128.Idx) :
    val_main_v22 (F := Ideal) x0 x1 x2 x3 x4 x5 i = (val_main_v16 (F := Ideal) x0 x1 x2 x3 x4 x5) i - meanRow (Ideal.ofBits .f32 0x47435000#32) (val_main_v16 (F := Ideal) x0 x1 x2 x3 x4 x5) (ix2 (0 : Fin 1) (i 1)) := by
  rw [val_main_v22_apply, mean_v21]
  rfl

/-- Operation 29: the deviation of an entry from its column's mean. -/
theorem dev_v29 (i : S50000x128.Idx) :
    val_main_v29 (F := Ideal) x0 x1 x2 x3 x4 x5 i = (val_main_v16 (F := Ideal) x0 x1 x2 x3 x4 x5) i - meanRow (Ideal.ofBits .f32 0x47435000#32) (val_main_v16 (F := Ideal) x0 x1 x2 x3 x4 x5) (ix2 (0 : Fin 1) (i 1)) := by
  rw [val_main_v29_apply, mean_v28]
  rfl

/-! ## The column variances and inverse standard deviations -/

/-- Operation 26: the variance of column (j 0), the sum of the squared deviations from the column's mean divided by the
    row count. -/
theorem var_v26 (j : S128.Idx) :
    val_main_v26 (F := Ideal) x0 x1 x2 x3 x4 x5 j
      = Ideal.div (∑ r : Fin 50000, ((val_main_v16 (F := Ideal) x0 x1 x2 x3 x4 x5) (ix2 r (j 0)) - meanRow (Ideal.ofBits .f32 0x47435000#32) (val_main_v16 (F := Ideal) x0 x1 x2 x3 x4 x5) (ix2 (0 : Fin 1) (j 0)))
          * ((val_main_v16 (F := Ideal) x0 x1 x2 x3 x4 x5) (ix2 r (j 0)) - meanRow (Ideal.ofBits .f32 0x47435000#32) (val_main_v16 (F := Ideal) x0 x1 x2 x3 x4 x5) (ix2 (0 : Fin 1) (j 0)))) (Ideal.ofBits .f32 0x47435000#32) := by
  rw [val_main_v26_apply, val_main_v24_apply, val_main_v25_apply, val_main_cst_4_apply, val_main_cst_3_apply]
  have e : ∀ k : Fin 50000, val_main_v23 (F := Ideal) x0 x1 x2 x3 x4 x5 (idx_main_v24 j k)
      = ((val_main_v16 (F := Ideal) x0 x1 x2 x3 x4 x5) (ix2 k (j 0)) - meanRow (Ideal.ofBits .f32 0x47435000#32) (val_main_v16 (F := Ideal) x0 x1 x2 x3 x4 x5) (ix2 (0 : Fin 1) (j 0)))
        * ((val_main_v16 (F := Ideal) x0 x1 x2 x3 x4 x5) (ix2 k (j 0)) - meanRow (Ideal.ofBits .f32 0x47435000#32) (val_main_v16 (F := Ideal) x0 x1 x2 x3 x4 x5) (ix2 (0 : Fin 1) (j 0))) := fun k => by
    rw [val_main_v23_apply, dev_v22, colIdx_v24]
    rfl
  simp only [e]
  rw [show (FloatOps.ofBits .f32 0x00000000#32 : Ideal .f32) = 0 from Ideal.ofBits_zero_f32, zero_add]
  rfl

/-- Operation 32: the inverse standard deviation of column (j 0). -/
theorem invstd_v32 (j : S128.Idx) :
    val_main_v32 (F := Ideal) x0 x1 x2 x3 x4 x5 j = invStdDev (Ideal.ofBits .f32 0x47435000#32) (Ideal.ofBits .f32 0x3727C5AC#32) (val_main_v16 (F := Ideal) x0 x1 x2 x3 x4 x5) (ix2 (0 : Fin 1) (j 0)) := by
  rw [val_main_v32_apply, val_main_v31_apply, var_v26, val_main_v30_apply, val_main_cst_5_apply]
  rfl

/-- The inverse standard deviations broadcast down the rows (operations 33, 34). -/
theorem invstd_v34 (i : S50000x128.Idx) :
    val_main_v34 (F := Ideal) x0 x1 x2 x3 x4 x5 i = invStdDev (Ideal.ofBits .f32 0x47435000#32) (Ideal.ofBits .f32 0x3727C5AC#32) (val_main_v16 (F := Ideal) x0 x1 x2 x3 x4 x5) (ix2 (0 : Fin 1) (i 1)) := by
  rw [val_main_v34_apply, val_main_v33_apply, invstd_v32]
  rfl

/-! ## The layer -/

/-- Operation 42 is the normalised layer of operation 16's result. -/
theorem val_main_v42_eq_normRelu :
    val_main_v42 (F := Ideal) x0 x1 x2 x3 x4 x5 x6 x7
      = normRelu (val_main_v16 (F := Ideal) x0 x1 x2 x3 x4 x5) (meanRow (Ideal.ofBits .f32 0x47435000#32) (val_main_v16 (F := Ideal) x0 x1 x2 x3 x4 x5)) (invStdDev (Ideal.ofBits .f32 0x47435000#32) (Ideal.ofBits .f32 0x3727C5AC#32) (val_main_v16 (F := Ideal) x0 x1 x2 x3 x4 x5)) (rowOf x6) (rowOf x7) := by
  funext i
  rw [val_main_v42_apply, val_main_v41_apply, val_main_v38_apply, val_main_v35_apply, dev_v29, invstd_v34,
    scale_v37, shift_v40, val_main_call0_v0_apply, val_main_call0_cst_apply,
    show (FloatOps.ofBits .f32 0x00000000#32 : Ideal .f32) = 0 from Ideal.ofBits_zero_f32]
  rfl

end Layer

end Cert.ReferenceIdeal.RefBn0

end
-- ==== Proof.RefBn1.lean ====
/-
  The second normalised layer of the reference network, read as one whole-array function over the extended
  reals: batch normalisation of the 50000 × 128 matrix X (operation 59's result) with the statistics of its
  own columns, an affine map per column, and the rectifier.

  The steps, each proved from the few operations it is made of and then used as one equation:
    * the mean of column q is the column's sum (a sum started from zero) divided by the row count;
    * the deviation of an entry from its column's mean, the mean having been broadcast to a row and then
      down the rows;
    * the variance of column q is the sum of the squared deviations divided by the row count, and the
      inverse standard deviation is the reciprocal square root of the variance plus a small constant;
    * an entry of the layer is max((X(r, q) − mean(q)) · invstd(q) · gamma(q) + beta(q), 0), with gamma, beta
      the two parameter vectors read as rows, which is `normRelu`.
-/
import proofs.«161987_j51084341018872_1_alg».proof.Proof.Gen.ReferenceIdeal.Read
import proofs.«161987_j51084341018872_1_alg».proof.Proof.Spec

set_option maxRecDepth 16384

noncomputable section

open scoped BigOperators

namespace Cert.ReferenceIdeal.RefBn1

open Cert.ReferenceIdeal Cert.ReferenceIdeal.Gen Cert.ReferenceIdeal.Read Cert.GcnSpec
open Idealize.ShloMosaic Idealize.ShloMosaic.TcCoe Idealize.ShloMosaic.ValueIdx

/-! ## Index maps -/

/-- The k-th summand of column (j 0)'s sum is the entry (k, j 0). -/
theorem colIdx_v60 (j : S128.Idx) (k : Fin 50000) : idx_main_v60 j k = ix2 k (j 0) := funext fun a => by
  match a with
  | ⟨0, _⟩ => rfl
  | ⟨1, _⟩ => rfl

theorem colIdx_v67 (j : S128.Idx) (k : Fin 50000) : idx_main_v67 j k = ix2 k (j 0) := funext fun a => by
  match a with
  | ⟨0, _⟩ => rfl
  | ⟨1, _⟩ => rfl

/-! ## The parameter vectors as rows -/

/-- The scale vector broadcast to a row and then down the rows (operations 79, 80): at (r, q) its entry q. -/
theorem scale_v80 (x10 : (⟨S128, .f32⟩ : BufTy).Contents (Elt Ideal)) (i : S50000x128.Idx) :
    val_main_v80 (F := Ideal) x10 i = rowOf x10 (ix2 (0 : Fin 1) (i 1)) := by
  rw [val_main_v80_apply, val_main_v79_apply]
  unfold rowOf
  have e : idx_main_v79 (idx_main_v80 i) = ix1 (i 1) := funext fun a => by
    match a with
    | ⟨0, _⟩ => rfl
  rw [e]
  rfl

/-- The shift vector broadcast to a row and then down the rows (operations 82, 83): at (r, q) its entry q. -/
theorem shift_v83 (x11 : (⟨S128, .f32⟩ : BufTy).Contents (Elt Ideal)) (i : S50000x128.Idx) :
    val_main_v83 (F := Ideal) x11 i = rowOf x11 (ix2 (0 : Fin 1) (i 1)) := by
  rw [val_main_v83_apply, val_main_v82_apply]
  unfold rowOf
  have e : idx_main_v82 (idx_main_v83 i) = ix1 (i 1) := funext fun a => by
    match a with
    | ⟨0, _⟩ => rfl
  rw [e]
  rfl

section Layer

variable (x0 : (⟨S50000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal))
  (x5 x6 x7 : (⟨S128, .f32⟩ : BufTy).Contents (Elt Ideal)) (x8 : (⟨S128x128, .f32⟩ : BufTy).Contents (Elt Ideal)) (x9 x10 x11 : (⟨S128, .f32⟩ : BufTy).Contents (Elt Ideal))

/-! ## The column means -/

/-- Operation 62: the mean of column (j 0), the column's sum divided by the row count. -/
theorem mean_v62 (j : S128.Idx) :
    val_main_v62 (F := Ideal) x0 x1 x2 x3 x4 x5 x6 x7 x8 x9 j = meanRow (Ideal.ofBits .f32 0x47435000#32) (val_main_v59 (F := Ideal) x0 x1 x2 x3 x4 x5 x6 x7 x8 x9) (ix2 (0 : Fin 1) (j 0)) := by
  rw [val_main_v62_apply, val_main_v60_apply, val_main_v61_apply, val_main_cst_10_apply, val_main_cst_9_apply]
  simp only [colIdx_v60]
  rw [show (FloatOps.ofBits .f32 0x00000000#32 : Ideal .f32) = 0 from Ideal.ofBits_zero_f32, zero_add]
  rfl

/-- The column means broadcast down the rows (operations 63, 64): at (r, q) the mean of column q. -/
theorem mean_v64 (i : S50000x128.Idx) :
    val_main_v64 (F := Ideal) x0 x1 x2 x3 x4 x5 x6 x7 x8 x9 i = meanRow (Ideal.ofBits .f32 0x47435000#32) (val_main_v59 (F := Ideal) x0 x1 x2 x3 x4 x5 x6 x7 x8 x9) (ix2 (0 : Fin 1) (i 1)) := by
  rw [val_main_v64_apply, val_main_v63_apply, mean_v62]
  rfl

/-- The column means broadcast down the rows (operations 70, 71): at (r, q) the mean of column q. -/
theorem mean_v71 (i : S50000x128.Idx) :
    val_main_v71 (F := Ideal) x0 x1 x2 x3 x4 x5 x6 x7 x8 x9 i = meanRow (Ideal.ofBits .f32 0x47435000#32) (val_main_v59 (F := Ideal) x0 x1 x2 x3 x4 x5 x6 x7 x8 x9) (ix2 (0 : Fin 1) (i 1)) := by
  rw [val_main_v71_apply, val_main_v70_apply, mean_v62]
  rfl

/-- Operation 65: the deviation of an entry from its column's mean. -/
theorem dev_v65 (i : S50000x128.Idx) :
    val_main_v65 (F := Ideal) x0 x1 x2 x3 x4 x5 x6 x7 x8 x9 i = (val_main_v59 (F := Ideal) x0 x1 x2 x3 x4 x5 x6 x7 x8 x9) i - meanRow (Ideal.ofBits .f32 0x47435000#32) (val_main_v59 (F := Ideal) x0 x1 x2 x3 x4 x5 x6 x7 x8 x9) (ix2 (0 : Fin 1) (i 1)) := by
  rw [val_main_v65_apply, mean_v64]
  rfl

/-- Operation 72: the deviation of an entry from its column's mean. -/
theorem dev_v72 (i : S50000x128.Idx) :
    val_main_v72 (F := Ideal) x0 x1 x2 x3 x4 x5 x6 x7 x8 x9 i = (val_main_v59 (F := Ideal) x0 x1 x2 x3 x4 x5 x6 x7 x8 x9) i - meanRow (Ideal.ofBits .f32 0x47435000#32) (val_main_v59 (F := Ideal) x0 x1 x2 x3 x4 x5 x6 x7 x8 x9) (ix2 (0 : Fin 1) (i 1)) := by
  rw [val_main_v72_apply, mean_v71]
  rfl

/-! ## The column variances and inverse standard deviations -/

/-- Operation 69: the variance of column (j 0), the sum of the squared deviations from the column's mean divided by the
    row count. -/
theorem var_v69 (j : S128.Idx) :
    val_main_v69 (F := Ideal) x0 x1 x2 x3 x4 x5 x6 x7 x8 x9 j
      = Ideal.div (∑ r : Fin 50000, ((val_main_v59 (F := Ideal) x0 x1 x2 x3 x4 x5 x6 x7 x8 x9) (ix2 r (j 0)) - meanRow (Ideal.ofBits .f32 0x47435000#32) (val_main_v59 (F := Ideal) x0 x1 x2 x3 x4 x5 x6 x7 x8 x9) (ix2 (0 : Fin 1) (j 0)))
          * ((val_main_v59 (F := Ideal) x0 x1 x2 x3 x4 x5 x6 x7 x8 x9) (ix2 r (j 0)) - meanRow (Ideal.ofBits .f32 0x47435000#32) (val_main_v59 (F := Ideal) x0 x1 x2 x3 x4 x5 x6 x7 x8 x9) (ix2 (0 : Fin 1) (j 0)))) (Ideal.ofBits .f32 0x47435000#32) := by
  rw [val_main_v69_apply, val_main_v67_apply, val_main_v68_apply, val_main_cst_12_apply, val_main_cst_11_apply]
  have e : ∀ k : Fin 50000, val_main_v66 (F := Ideal) x0 x1 x2 x3 x4 x5 x6 x7 x8 x9 (idx_main_v67 j k)
      = ((val_main_v59 (F := Ideal) x0 x1 x2 x3 x4 x5 x6 x7 x8 x9) (ix2 k (j 0)) - meanRow (Ideal.ofBits .f32 0x47435000#32) (val_main_v59 (F := Ideal) x0 x1 x2 x3 x4 x5 x6 x7 x8 x9) (ix2 (0 : Fin 1) (j 0)))
        * ((val_main_v59 (F := Ideal) x0 x1 x2 x3 x4 x5 x6 x7 x8 x9) (ix2 k (j 0)) - meanRow (Ideal.ofBits .f32 0x47435000#32) (val_main_v59 (F := Ideal) x0 x1 x2 x3 x4 x5 x6 x7 x8 x9) (ix2 (0 : Fin 1) (j 0))) := fun k => by
    rw [val_main_v66_apply, dev_v65, colIdx_v67]
    rfl
  simp only [e]
  rw [show (FloatOps.ofBits .f32 0x00000000#32 : Ideal .f32) = 0 from Ideal.ofBits_zero_f32, zero_add]
  rfl

/-- Operation 75: the inverse standard deviation of column (j 0). -/
theorem invstd_v75 (j : S128.Idx) :
    val_main_v75 (F := Ideal) x0 x1 x2 x3 x4 x5 x6 x7 x8 x9 j = invStdDev (Ideal.ofBits .f32 0x47435000#32) (Ideal.ofBits .f32 0x3727C5AC#32) (val_main_v59 (F := Ideal) x0 x1 x2 x3 x4 x5 x6 x7 x8 x9) (ix2 (0 : Fin 1) (j 0)) := by
  rw [val_main_v75_apply, val_main_v74_apply, var_v69, val_main_v73_apply, val_main_cst_13_apply]
  rfl

/-- The inverse standard deviations broadcast down the rows (operations 76, 77). -/
theorem invstd_v77 (i : S50000x128.Idx) :
    val_main_v77 (F := Ideal) x0 x1 x2 x3 x4 x5 x6 x7 x8 x9 i = invStdDev (Ideal.ofBits .f32 0x47435000#32) (Ideal.ofBits .f32 0x3727C5AC#32) (val_main_v59 (F := Ideal) x0 x1 x2 x3 x4 x5 x6 x7 x8 x9) (ix2 (0 : Fin 1) (i 1)) := by
  rw [val_main_v77_apply, val_main_v76_apply, invstd_v75]
  rfl

/-! ## The layer -/

/-- Operation 85 is the normalised layer of operation 59's result. -/
theorem val_main_v85_eq_normRelu :
    val_main_v85 (F := Ideal) x0 x1 x2 x3 x4 x5 x6 x7 x8 x9 x10 x11
      = normRelu (val_main_v59 (F := Ideal) x0 x1 x2 x3 x4 x5 x6 x7 x8 x9) (meanRow (Ideal.ofBits .f32 0x47435000#32) (val_main_v59 (F := Ideal) x0 x1 x2 x3 x4 x5 x6 x7 x8 x9)) (invStdDev (Ideal.ofBits .f32 0x47435000#32) (Ideal.ofBits .f32 0x3727C5AC#32) (val_main_v59 (F := Ideal) x0 x1 x2 x3 x4 x5 x6 x7 x8 x9)) (rowOf x10) (rowOf x11) := by
  funext i
  rw [val_main_v85_apply, val_main_v84_apply, val_main_v81_apply, val_main_v78_apply, dev_v72, invstd_v77,
    scale_v80, shift_v83, val_main_call1_v0_apply, val_main_call1_cst_apply,
    show (FloatOps.ofBits .f32 0x00000000#32 : Ideal .f32) = 0 from Ideal.ofBits_zero_f32]
  rfl

end Layer

end Cert.ReferenceIdeal.RefBn1

end
-- ==== Proof.PreReal.lean ====
/-
  The precondition read: every float input is a real number.

  The precondition function computes, for each of the twelve float arrays x, the conjunction over all
  entries of |x| < +∞, and joins the twelve by "and". If the result is 1 then every comparison is 1, so
  every entry has |x| = max x (−x) < ⊤ in the extended reals; an extended real with that property is neither
  ⊤ nor ⊥ (at ⊥ the maximum is −⊥ = ⊤), hence a real number.
-/
import proofs.«161987_j51084341018872_1_alg».proof.Defs
import proofs.«161987_j51084341018872_1_alg».proof.Proof.Gen.Pre_finite_inputs
import proofs.«161987_j51084341018872_1_alg».proof.Proof.Spec
import Idealize.ShloMosaic.Lib.ReduceAll
import Idealize.ShloMosaic.Lib.IdealHost
import Idealize.ShloMosaic.Lib.ValueIdx

noncomputable section

namespace Cert.PreReal

open Idealize.ShloMosaic Idealize.ShloMosaic.ValueIdx Idealize.SL.Sem
open Cert.GcnSpec Cert.Pre_finite_inputs

/-- The rank-0 shape has exactly one index. -/
instance : Subsingleton S_.Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value max x (−x) is below +∞ is a real number. -/
theorem isReal_of_abs_lt_top (x : EReal) (h : max x (-x) < ⊤) : IsReal x := by
  induction x using EReal.rec with
  | bot => simp at h
  | coe r => exact ⟨r, rfl⟩
  | top => simp at h

/-- A conjunction of two one-bit arrays is 1 at an index iff both are. -/
theorem andi_one {s : Shape} (A B : IVec s 1) (i : s.Idx) : andi A B i = 1#1 ↔ A i = 1#1 ∧ B i = 1#1 :=
  IntOp.andi_eq_one

/-- One entry: the comparison |x i| < +∞ being 1 says x i is real. -/
theorem elem_real {T : Shape} (hb : S_.BroadcastsInDim T ![]) (x : FVec Ideal T .f32) (i : T.Idx)
    (h : cmpf .olt (Host.absf x) (broadcastInDim T ![] hb (constant (F := Ideal) S_ .f32 0x7F800000#32)) i = 1#1) :
    IsReal (x i) := by
  have hc : cmpf .olt (Host.absf x) (broadcastInDim T ![] hb (constant (F := Ideal) S_ .f32 0x7F800000#32)) i
      = BitVec.ofBool (decide (max (x i) (-(x i))
          < broadcastInDim T ![] hb (constant (F := Ideal) S_ .f32 0x7F800000#32) i)) := rfl
  rw [hc, broadcastInDim_scalar_apply, constant_apply, ofBits_inf] at h
  by_cases hlt : max (x i) (-(x i)) < (⊤ : EReal)
  · exact isReal_of_abs_lt_top _ hlt
  · rw [decide_eq_false hlt] at h
    exact absurd h (by decide)

/-- One array: the conjunction over all entries of |x| < +∞ being 1 says every entry is real. -/
theorem all_real {T : Shape} {axes : List (Fin T.rank)} (hb : S_.BroadcastsInDim T ![]) (hr : T.ReducesTo axes S_)
    (hu : 0 < S_.numel) (x : FVec Ideal T .f32)
    (h : Host.reduce IntOp.andi
        (cmpf .olt (Host.absf x) (broadcastInDim T ![] hb (constant (F := Ideal) S_ .f32 0x7F800000#32)))
        (constantI S_ 1 1#1) hr hu ix0 = 1#1) :
    ∀ i, IsReal (x i) :=
  fun i => elem_real hb x i (Host.reduce_andi_all _ _ hr hu ix0 h i)

/-- THE PRECONDITION FUNCTION DECODED: if the conjunction over the twelve float arrays of "every entry has
    |x| < +∞" is 1, every entry of every one of them is a real number. -/
theorem fn_real [hF : Cert.Pre_finite_inputs.Facts]
    (a0 : FVec Ideal S50000x128 .f32) (a1 a2 : IVec S1600000 32) (a3 : FVec Ideal S1600000 .f32)
    (a4 : FVec Ideal S128x128 .f32) (a5 a6 a7 : FVec Ideal S128 .f32) (a8 : FVec Ideal S128x128 .f32)
    (a9 a10 a11 : FVec Ideal S128 .f32) (a12 : FVec Ideal S128x40 .f32) (a13 : FVec Ideal S40 .f32)
    (h : Cert.Pre_finite_inputs.fn (F := Ideal) a0 a1 a2 a3 a4 a5 a6 a7 a8 a9 a10 a11 a12 a13 = (fun _ => 1#1)) :
    (∀ i, IsReal (a0 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i)) := by
  have e := congrFun h ix0
  dsimp only [Cert.Pre_finite_inputs.fn, Cert.Pre_finite_inputs.fn_part1, Cert.Pre_finite_inputs.fn_part2,
    Cert.Pre_finite_inputs.fn_part3] at e
  simp only [andi_one] at e
  obtain ⟨⟨⟨⟨⟨⟨⟨⟨⟨⟨⟨h0, h3⟩, h4⟩, h5⟩, h6⟩, h7⟩, h8⟩, h9⟩, h10⟩, h11⟩, h12⟩, h13⟩ := e
  exact ⟨all_real _ _ _ a0 h0, all_real _ _ _ a3 h3, all_real _ _ _ a4 h4, all_real _ _ _ a5 h5,
    all_real _ _ _ a6 h6, all_real _ _ _ a7 h7, all_real _ _ _ a8 h8, all_real _ _ _ a9 h9,
    all_real _ _ _ a10 h10, all_real _ _ _ a11 h11, all_real _ _ _ a12 h12, all_real _ _ _ a13 h13⟩

/-- THE PRECONDITION AT THE KERNEL PROGRAM'S LAUNCH MEMORY: on every device every entry of each of the twelve
    float argument arrays is a real number. -/
theorem pre_real [hF : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S50000x128.Idx, IsReal ((m ((c.tc : Thread Cert.KernelIdeal.nD Cert.KernelIdeal.τ).loc Cert.KernelIdeal.main_arg0) : FVec Ideal S50000x128 .f32) i))
      ∧ (∀ i : S1600000.Idx, IsReal ((m ((c.tc : Thread Cert.KernelIdeal.nD Cert.KernelIdeal.τ).loc Cert.KernelIdeal.main_arg3) : FVec Ideal S1600000 .f32) i))
      ∧ (∀ i : S128x128.Idx, IsReal ((m ((c.tc : Thread Cert.KernelIdeal.nD Cert.KernelIdeal.τ).loc Cert.KernelIdeal.main_arg4) : FVec Ideal S128x128 .f32) i))
      ∧ (∀ i : S128.Idx, IsReal ((m ((c.tc : Thread Cert.KernelIdeal.nD Cert.KernelIdeal.τ).loc Cert.KernelIdeal.main_arg5) : FVec Ideal S128 .f32) i))
      ∧ (∀ i : S128.Idx, IsReal ((m ((c.tc : Thread Cert.KernelIdeal.nD Cert.KernelIdeal.τ).loc Cert.KernelIdeal.main_arg6) : FVec Ideal S128 .f32) i))
      ∧ (∀ i : S128.Idx, IsReal ((m ((c.tc : Thread Cert.KernelIdeal.nD Cert.KernelIdeal.τ).loc Cert.KernelIdeal.main_arg7) : FVec Ideal S128 .f32) i))
      ∧ (∀ i : S128x128.Idx, IsReal ((m ((c.tc : Thread Cert.KernelIdeal.nD Cert.KernelIdeal.τ).loc Cert.KernelIdeal.main_arg8) : FVec Ideal S128x128 .f32) i))
      ∧ (∀ i : S128.Idx, IsReal ((m ((c.tc : Thread Cert.KernelIdeal.nD Cert.KernelIdeal.τ).loc Cert.KernelIdeal.main_arg9) : FVec Ideal S128 .f32) i))
      ∧ (∀ i : S128.Idx, IsReal ((m ((c.tc : Thread Cert.KernelIdeal.nD Cert.KernelIdeal.τ).loc Cert.KernelIdeal.main_arg10) : FVec Ideal S128 .f32) i))
      ∧ (∀ i : S128.Idx, IsReal ((m ((c.tc : Thread Cert.KernelIdeal.nD Cert.KernelIdeal.τ).loc Cert.KernelIdeal.main_arg11) : FVec Ideal S128 .f32) i))
      ∧ (∀ i : S128x40.Idx, IsReal ((m ((c.tc : Thread Cert.KernelIdeal.nD Cert.KernelIdeal.τ).loc Cert.KernelIdeal.main_arg12) : FVec Ideal S128x40 .f32) i))
      ∧ (∀ i : S40.Idx, IsReal ((m ((c.tc : Thread Cert.KernelIdeal.nD Cert.KernelIdeal.τ).loc Cert.KernelIdeal.main_arg13) : FVec Ideal S40 .f32) i)) :=
  fn_real _ _ _ _ _ _ _ _ _ _ _ _ _ _ (h c)

end Cert.PreReal

end
-- ==== Proof.Final.lean ====
/-
  The idealized kernel program and the idealized reference compute one function of their arguments when every float
  argument is real. Layer by layer: the products are the same sums; the edge aggregations are the same host
  operations; the biased aggregates are therefore equal, and real (products, gathers, scatter-adds and sums of reals
  are real); on a real matrix the kernel's inverse standard deviation (mean of squares minus squared mean) is the
  reference's (mean of squared deviations), so the normalised, rectified layers are equal, and real again (the variance
  plus the positive offset is positive, so its inverse square root is real). The last layer has no normalisation.
-/
import proofs.«161987_j51084341018872_1_alg».proof.Proof.KChain
import proofs.«161987_j51084341018872_1_alg».proof.Proof.RefLin
import proofs.«161987_j51084341018872_1_alg».proof.Proof.RefAgg
import proofs.«161987_j51084341018872_1_alg».proof.Proof.RefBn0
import proofs.«161987_j51084341018872_1_alg».proof.Proof.RefBn1
import proofs.«161987_j51084341018872_1_alg».proof.Proof.PreReal

set_option maxRecDepth 16384

noncomputable section

namespace Cert.Proof.Final

open Cert.GcnSpec Cert.KernelIdeal.Chain Cert.ReferenceIdeal.Read Cert.ReferenceIdeal.RefAgg Cert.ReferenceIdeal.RefLin
open Idealize.ShloMosaic Idealize.ShloMosaic.TcCoe Idealize.SL.Sem

variable (m : (ℓ : Loc Cert.KernelIdeal.nD Cert.KernelIdeal.τ Cert.KernelIdeal.sig) → Buf (Elt Ideal) ℓ)
  (c : Dev Cert.KernelIdeal.nD)

/-- Both programs aggregate over the edges by the same host operations (128 columns). -/
theorem aggK128_eq : @aggK128 = @agg128 := rfl
/-- Both programs aggregate over the edges by the same host operations (40 columns). -/
theorem aggK40_eq : @aggK40 = @agg40 := rfl

section Real

variable (h0 : ∀ i, IsReal ((m ((c.tc : Thread Cert.KernelIdeal.nD Cert.KernelIdeal.τ).loc Cert.KernelIdeal.main_arg0)) i)) (h3 : ∀ i, IsReal ((m ((c.tc : Thread Cert.KernelIdeal.nD Cert.KernelIdeal.τ).loc Cert.KernelIdeal.main_arg3)) i)) (h4 : ∀ i, IsReal ((m ((c.tc : Thread Cert.KernelIdeal.nD Cert.KernelIdeal.τ).loc Cert.KernelIdeal.main_arg4)) i))
  (h5 : ∀ i, IsReal ((m ((c.tc : Thread Cert.KernelIdeal.nD Cert.KernelIdeal.τ).loc Cert.KernelIdeal.main_arg5)) i)) (h6 : ∀ i, IsReal ((m ((c.tc : Thread Cert.KernelIdeal.nD Cert.KernelIdeal.τ).loc Cert.KernelIdeal.main_arg6)) i)) (h7 : ∀ i, IsReal ((m ((c.tc : Thread Cert.KernelIdeal.nD Cert.KernelIdeal.τ).loc Cert.KernelIdeal.main_arg7)) i))
  (h8 : ∀ i, IsReal ((m ((c.tc : Thread Cert.KernelIdeal.nD Cert.KernelIdeal.τ).loc Cert.KernelIdeal.main_arg8)) i)) (h9 : ∀ i, IsReal ((m ((c.tc : Thread Cert.KernelIdeal.nD Cert.KernelIdeal.τ).loc Cert.KernelIdeal.main_arg9)) i)) (h10 : ∀ i, IsReal ((m ((c.tc : Thread Cert.KernelIdeal.nD Cert.KernelIdeal.τ).loc Cert.KernelIdeal.main_arg10)) i))
  (h11 : ∀ i, IsReal ((m ((c.tc : Thread Cert.KernelIdeal.nD Cert.KernelIdeal.τ).loc Cert.KernelIdeal.main_arg11)) i)) (h12 : ∀ i, IsReal ((m ((c.tc : Thread Cert.KernelIdeal.nD Cert.KernelIdeal.τ).loc Cert.KernelIdeal.main_arg12)) i)) (h13 : ∀ i, IsReal ((m ((c.tc : Thread Cert.KernelIdeal.nD Cert.KernelIdeal.τ).loc Cert.KernelIdeal.main_arg13)) i))

include h0 h3 h4 h5 in
/-- The first layer's biased aggregate is real. -/
theorem kXb0_real : ∀ i, IsReal (kXb0 m c i) := by
  unfold kXb0 kH0
  rw [aggK128_eq]
  exact isReal_addRow (isReal_agg128 (isReal_mm h0 h4) h3) (isReal_rowOf h5)

/-- The first layer's biased aggregate is the reference's. -/
theorem kXb0_eq : kXb0 m c = val_main_v16 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [val_main_v16_eq_addRow, val_main_v13_eq_agg, val_main_v0_eq_mm]
  unfold kXb0 kH0
  rw [aggK128_eq]

include h0 h3 h4 h5 in
/-- The first normalised layer is the reference's. -/
theorem kRelu0_eq : kRelu0 m c = val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.ReferenceIdeal.RefBn0.val_main_v42_eq_normRelu, ← kXb0_eq m c]
  unfold kRelu0
  rw [invStdSq_eq_invStdDev_50000 _ (kXb0_real m c h0 h3 h4 h5)]

include h0 h3 h4 h5 h6 h7 in
/-- The first normalised layer is real. -/
theorem kRelu0_real : ∀ i, IsReal (kRelu0 m c i) := by
  unfold kRelu0
  exact isReal_normRelu (kXb0_real m c h0 h3 h4 h5) (isReal_meanRow_50000 (kXb0_real m c h0 h3 h4 h5))
    (isReal_invStdSq_50000 (kXb0_real m c h0 h3 h4 h5) ofBits_eps) (isReal_rowOf h6) (isReal_rowOf h7)

include h0 h3 h4 h5 h6 h7 h8 h9 in
/-- The second layer's biased aggregate is real. -/
theorem kXb1_real : ∀ i, IsReal (kXb1 m c i) := by
  unfold kXb1 kH1
  rw [aggK128_eq]
  exact isReal_addRow (isReal_agg128 (isReal_mm (kRelu0_real m c h0 h3 h4 h5 h6 h7) h8) h3) (isReal_rowOf h9)

include h0 h3 h4 h5 in
/-- The second layer's biased aggregate is the reference's. -/
theorem kXb1_eq : kXb1 m c = val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [val_main_v59_eq_addRow, val_main_v56_eq_agg, val_main_v43_eq_mm, ← kRelu0_eq m c h0 h3 h4 h5]
  unfold kXb1 kH1
  rw [aggK128_eq]

include h0 h3 h4 h5 h6 h7 h8 h9 in
/-- The second normalised layer is the reference's. -/
theorem kRelu1_eq : kRelu1 m c = val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [Cert.ReferenceIdeal.RefBn1.val_main_v85_eq_normRelu, ← kXb1_eq m c h0 h3 h4 h5]
  unfold kRelu1
  rw [invStdSq_eq_invStdDev_50000 _ (kXb1_real m c h0 h3 h4 h5 h6 h7 h8 h9)]

include h0 h3 h4 h5 h6 h7 h8 h9 in
/-- The two programs' results are one function of the arguments. -/
theorem kOut_eq : kOut m c = val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  rw [val_main_v102_eq_addRow, val_main_v99_eq_agg, val_main_v86_eq_mm, ← kRelu1_eq m c h0 h3 h4 h5 h6 h7 h8 h9]
  unfold kOut kH2
  rw [aggK40_eq]

end Real

end Cert.Proof.Final

end
-- ==== Proof.lean ====
/-
  The certificate of a three-layer graph convolution network: a Pallas TPU kernel program of eight gridded regions
  (three matrix products, two bias-and-column-statistics passes, two normalise-and-rectify passes, one bias pass)
  among host operations (the edge aggregation by gather and scatter-add, the column means and inverse standard
  deviations), against a plain jnp reference.

  Every program terminates without a fault and leaves its arguments unchanged. The idealization applies no rewrite, so
  there is nothing to preserve. Over the extended reals, from memories that agree on the arguments and hold real
  float inputs, the two idealized programs end with equal results: the kernel program's result is followed boundary
  by boundary through its regions and host stretches to one function of the arguments; the reference's run is read
  operation by operation to another; the two differ only in how the variance of a column is computed — the mean of
  the squares minus the squared mean against the mean of the squared deviations — and these agree on real columns,
  which the columns are, since products, gathers, scatter-adds, sums, and the inverse square root of a positive real
  keep reals real.
-/
import proofs.«161987_j51084341018872_1_alg».proof.Defs
import proofs.«161987_j51084341018872_1_alg».proof.Proof.Gen.Kernel
import proofs.«161987_j51084341018872_1_alg».proof.Proof.Gen.Kernel.Skeleton
import proofs.«161987_j51084341018872_1_alg».proof.Proof.Gen.Kernel.Launch
import proofs.«161987_j51084341018872_1_alg».proof.Proof.Gen.Kernel.Points
import proofs.«161987_j51084341018872_1_alg».proof.Proof.Gen.Kernel.Frame
import proofs.«161987_j51084341018872_1_alg».proof.Proof.Gen.KernelIdeal
import proofs.«161987_j51084341018872_1_alg».proof.Proof.Gen.KernelIdeal.Skeleton
import proofs.«161987_j51084341018872_1_alg».proof.Proof.Gen.KernelIdeal.Launch
import proofs.«161987_j51084341018872_1_alg».proof.Proof.Gen.KernelIdeal.Points
import proofs.«161987_j51084341018872_1_alg».proof.Proof.Gen.KernelIdeal.Frame
import proofs.«161987_j51084341018872_1_alg».proof.Proof.Gen.ReferenceIdeal
import proofs.«161987_j51084341018872_1_alg».proof.Proof.Gen.Pre_finite_inputs
import proofs.«161987_j51084341018872_1_alg».proof.Proof.Gen.ReferenceIdeal.Run
import proofs.«161987_j51084341018872_1_alg».proof.Proof.Gen.ReferenceIdeal.Read
import proofs.«161987_j51084341018872_1_alg».proof.Proof.RunVal
import proofs.«161987_j51084341018872_1_alg».proof.Proof.Final
import Idealize.ShloMosaic.Adequacy
import Idealize.ShloMosaic.Init

set_option maxRecDepth 16384

noncomputable section

namespace Cert.Proof

open Idealize.ShloMosaic Idealize.SL.Sem Cert.Kernel

/-- The word-level kernel program terminates, faults nowhere and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, every float argument real, the two idealized programs end with equal
    results. -/
theorem algebraic : Cert.algebraic_KernelIdeal_ReferenceIdeal := by
  intro m ρ m' ρ' hpre hagree
  refine ⟨fun c => Cert.KernelIdeal.Gen.W16 m ρ c (Proc.devRef .tc Cert.KernelIdeal.main_v74),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  obtain ⟨h0, h3, h4, h5, h6, h7, h8, h9, h10, h11, h12, h13⟩ := Cert.PreReal.pre_real m hpre c
  rw [Cert.ReferenceIdeal.Read.val_main_v102_eq, a0, a1, a2, a3, a4, a5, a6, a7, a8, a9, a10, a11, a12, a13]
  exact ((Cert.KernelIdeal.Chain.result_eq m ρ c).trans (Cert.Proof.Final.kOut_eq m c h0 h3 h4 h5 h6 h7 h8 h9)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
